-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x2048x128 : Shape := ⟨3, ![1, 2048, 128]⟩
abbrev S1x1024x128 : Shape := ⟨3, ![1, 1024, 128]⟩
abbrev S2048x2 : Shape := ⟨2, ![2048, 2]⟩
abbrev S2048x128 : Shape := ⟨2, ![2048, 128]⟩
abbrev S1024x128 : Shape := ⟨2, ![1024, 128]⟩
abbrev S2048x64 : Shape := ⟨2, ![2048, 64]⟩
abbrev S1024x64 : Shape := ⟨2, ![1024, 64]⟩
abbrev S2048x1024 : Shape := ⟨2, ![2048, 1024]⟩
abbrev S2048x1 : Shape := ⟨2, ![2048, 1]⟩
abbrev S2048 : Shape := ⟨1, ![2048]⟩
abbrev S1x1024 : Shape := ⟨2, ![1, 1024]⟩

abbrev nBuf : Space → Nat
  | .hbm => 22
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S8192x1024, .bf16⟩
  | .hbm, ⟨19, _⟩ => ⟨S1x1024, .f32⟩
  | .hbm, ⟨20, _⟩ => ⟨S8192x1024, .f32⟩
  | .hbm, ⟨21, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S2048x2, .f32⟩
  | .local _ .vmem, ⟨24, _⟩ => ⟨S2048x2, .f32⟩
  | .local _ .vmem, ⟨25, _⟩ => ⟨S2048x128, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 8, 2], ![false, false, false]⟩

def k3_cond2 (i : grid3.Coords) : BitVec 1 :=
  let arg2 : BitVec 32 := BitVec.ofNat 32 (i 2).val
  let c1_i32 : BitVec 32 := 1#32
  let v79 : BitVec 1 := Scalar.cmpi .eq arg2 c1_i32
  let v80 : BitVec 32 := Scalar.extui v79
  let c0_i32_40 : BitVec 32 := 0#32
  let v81 : BitVec 1 := Scalar.cmpi .ne v80 c0_i32_40
  v81

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage3_0 : Fin 2 → Memref sig .tc .vmem S1x2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S2048x128_o0_0_S2048x64 : S2048x128.Slices ![0, 0] S2048x64
  slices_S1024x128_o0_0_S1024x64 : S1024x128.Slices ![0, 0] S1024x64
  inb_S2048x2_S2048x1_0_0 : ∀ a, (![0, 0] : Fin 2 → Nat) a + S2048x1.size a ≤ S2048x2.size a
  h_S2048x1 : 0 < S2048x1.numel
  inb_S2048x128_S2048x64_0_0 : ∀ a, (![0, 0] : Fin 2 → Nat) a + S2048x64.size a ≤ S2048x128.size a
  h_S2048x64 : 0 < S2048x64.numel
  reduces_S2048x1024_S2048 : S2048x1024.Reduces [1] S2048
  shapeCasts_S2048_S2048x1 : S2048.ShapeCasts S2048x1
  broadcasts_S2048x1_S2048x1024 : S2048x1.Broadcasts S2048x1024
  shapeCasts_S2048x1_S2048x1 : S2048x1.ShapeCasts S2048x1
  broadcasts_S2048x1_S2048x64 : S2048x1.Broadcasts S2048x64
  shapeCasts_S2048x64_S2048x64 : S2048x64.ShapeCasts S2048x64
  slices_S2048x128_o0_64_S2048x64 : S2048x128.Slices ![0, 64] S2048x64
  slices_S1024x128_o0_64_S1024x64 : S1024x128.Slices ![0, 64] S1024x64
  inb_S2048x2_S2048x1_0_1 : ∀ a, (![0, 1] : Fin 2 → Nat) a + S2048x1.size a ≤ S2048x2.size a
  inb_S2048x128_S2048x64_0_64 : ∀ a, (![0, 64] : Fin 2 → Nat) a + S2048x64.size a ≤ S2048x128.size a
  concatenates_S2048x64_S2048x64_S2048x128_d1 : Shape.Concatenates [S2048x64, S2048x64] S2048x128 1
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x128.size a ≤ S4x2048x1024.size a
  hwx3_0 : ∀ i : grid3.Coords, EltTy.bits .bf16 = 32 ∨ (Rect.block (s := S4x2048x1024) S1x2048x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x128.size a ≤ S4x2048x1024.size a
  hwx3_1 : ∀ i : grid3.Coords, EltTy.bits .bf16 = 32 ∨ (Rect.block (s := S4x2048x1024) S1x1024x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x128.size a ≤ S4x2048x1024.size a
  hwx3_2 : ∀ i : grid3.Coords, EltTy.bits .bf16 = 32 ∨ (Rect.block (s := S4x2048x1024) S1x1024x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x128.size a ≤ S4x2048x1024.size a
  hwx3_3 : ∀ i : grid3.Coords, EltTy.bits .bf16 = 32 ∨ (Rect.block (s := S4x2048x1024) S1x2048x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S1x2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1x1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v10) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x2048x16x64, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KFrameMM0.lean ====
/-
  Region 0 of @main: the projection y = x·Wᵀ as one pipelined kernel over 8 row blocks.

  The region's class-A half at a parameter `V` — the TensorCore's buffer contents when the region is
  entered —, generic in the float reading `F`:

  * `iblk0`: a window's block at a grid point, read off its array as `V` holds it;
  * `out0_2`: what the body leaves in the output's staging buffer, as a function of the two input
    blocks — its single store, which covers the whole buffer;
  * `sound_kernel0`: the body's triple on whole staging memrefs;
  * `dat0`: the pipeline's proof data (arrays at `V`, inputs left in place, the output at `out0_2`);
  * `body_obligation0`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.Kernel.Launch
import proofs.«181089_j2508260901282_2_alg».proof.Proof.Gen.Kernel.Skeleton
import proofs.«181089_j2508260901282_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The x window's staging buffer holds the x block of the point when the body starts, for any proof data
    whose array is `V`'s and whose body leaves the block where it found it. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) :
    dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window's staging buffer holds the weight at every point, though it is transferred at the first
    point only: its block index never moves, so the buffer still holds what the first transfer put there. -/
theorem before0_1_of {c : Dev nD} (dat : Dat τ (Elt F) Unit ℕ (UR sig nD τ) ℕ cfg0 c)
    (hA : dat.A 1 = V c (Pipeline.arrRef spec0 1))
    (hafter : ∀ t, dat.after 1 t = iblk0 V c 1 t) (t : Fin cfg0.N) (d) :
    dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses -/

/-- The one rectangle the body reads and writes through: the whole [1024,1024] buffer. -/
abbrev r0_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out0_2 (x0 x1 : Vec F S1024x1024 .f32) : Vec F S1024x1024 .bf16 :=
  View.canon [⟨r0_0, k0_pay1 (View.ld x0 r0_0) (View.ld x1 r0_0)⟩]

/-- The single store is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs — the inputs' at read contents `x0`, `x1`, the output's at anything —
    runs to the continuation with the inputs' as they were and the output's at `out0_2 x0 x1`. The body also
    loads the output buffer before storing it; the loaded value is not used, and the store covers the buffer,
    so what it held does not matter. -/
theorem sound_kernel0 (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the
    body at point `t` each input's buffer still at its block and the output's at `out0_2` of the two input
    blocks; the invariant the class's (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KFrameMM1.lean ====
/-
  Region 1 of @main: the projection y = x·Wᵀ as one pipelined kernel over 8 row blocks.

  The region's class-A half at a parameter `V` — the TensorCore's buffer contents when the region is
  entered —, generic in the float reading `F`:

  * `iblk1`: a window's block at a grid point, read off its array as `V` holds it;
  * `out1_2`: what the body leaves in the output's staging buffer, as a function of the two input
    blocks — its single store, which covers the whole buffer;
  * `sound_kernel1`: the body's triple on whole staging memrefs;
  * `dat1`: the pipeline's proof data (arrays at `V`, inputs left in place, the output at `out1_2`);
  * `body_obligation1`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.Kernel.Launch
import proofs.«181089_j2508260901282_2_alg».proof.Proof.Gen.Kernel.Skeleton
import proofs.«181089_j2508260901282_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The x window's staging buffer holds the x block of the point when the body starts, for any proof data
    whose array is `V`'s and whose body leaves the block where it found it. -/
theorem before1_0_of {c : Dev nD} (dat : Dat τ (Elt F) Unit ℕ (UR sig nD τ) ℕ cfg1 c)
    (hA : dat.A 0 = V c (Pipeline.arrRef spec1 0))
    (hafter : ∀ t, dat.after 0 t = iblk1 V c 0 t) (t : Fin cfg1.N) (d) :
    dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The weight window's staging buffer holds the weight at every point, though it is transferred at the first
    point only: its block index never moves, so the buffer still holds what the first transfer put there. -/
theorem before1_1_of {c : Dev nD} (dat : Dat τ (Elt F) Unit ℕ (UR sig nD τ) ℕ cfg1 c)
    (hA : dat.A 1 = V c (Pipeline.arrRef spec1 1))
    (hafter : ∀ t, dat.after 1 t = iblk1 V c 1 t) (t : Fin cfg1.N) (d) :
    dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses -/

/-- The one rectangle the body reads and writes through: the whole [1024,1024] buffer. -/
abbrev r1_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out1_2 (x0 x1 : Vec F S1024x1024 .f32) : Vec F S1024x1024 .bf16 :=
  View.canon [⟨r1_0, k1_pay1 (View.ld x0 r1_0) (View.ld x1 r1_0)⟩]

/-- The single store is the whole buffer, so it covers it. -/
theorem cover1_2 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The body on whole staging memrefs — the inputs' at read contents `x0`, `x1`, the output's at anything —
    runs to the continuation with the inputs' as they were and the output's at `out1_2 x0 x1`. The body also
    loads the output buffer before storing it; the loaded value is not used, and the store covers the buffer,
    so what it held does not matter. -/
theorem sound_kernel1 (c : Dev nD) (E : Set ℕ) (i : grid1.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the
    body at point `t` each input's buffer still at its block and the output's at `out1_2` of the two input
    blocks; the invariant the class's (the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.KFrameMM2.lean ====
/-
  Region 2 of @main: the projection y = x·Wᵀ as one pipelined kernel over 8 row blocks.

  The region's class-A half at a parameter `V` — the TensorCore's buffer contents when the region is
  entered —, generic in the float reading `F`:

  * `iblk2`: a window's block at a grid point, read off its array as `V` holds it;
  * `out2_2`: what the body leaves in the output's staging buffer, as a function of the two input
    blocks — its single store, which covers the whole buffer;
  * `sound_kernel2`: the body's triple on whole staging memrefs;
  * `dat2`: the pipeline's proof data (arrays at `V`, inputs left in place, the output at `out2_2`);
  * `body_obligation2`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.Kernel.Launch
import proofs.«181089_j2508260901282_2_alg».proof.Proof.Gen.Kernel.Skeleton
import proofs.«181089_j2508260901282_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The x window's staging buffer holds the x block of the point when the body starts, for any proof data
    whose array is `V`'s and whose body leaves the block where it found it. -/
theorem before2_0_of {c : Dev nD} (dat : Dat τ (Elt F) Unit ℕ (UR sig nD τ) ℕ cfg2 c)
    (hA : dat.A 0 = V c (Pipeline.arrRef spec2 0))
    (hafter : ∀ t, dat.after 0 t = iblk2 V c 0 t) (t : Fin cfg2.N) (d) :
    dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- The weight window's staging buffer holds the weight at every point, though it is transferred at the first
    point only: its block index never moves, so the buffer still holds what the first transfer put there. -/
theorem before2_1_of {c : Dev nD} (dat : Dat τ (Elt F) Unit ℕ (UR sig nD τ) ℕ cfg2 c)
    (hA : dat.A 1 = V c (Pipeline.arrRef spec2 1))
    (hafter : ∀ t, dat.after 1 t = iblk2 V c 1 t) (t : Fin cfg2.N) (d) :
    dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-! ## The body's accesses -/

/-- The one rectangle the body reads and writes through: the whole [1024,1024] buffer. -/
abbrev r2_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out2_2 (x0 x1 : Vec F S1024x1024 .f32) : Vec F S1024x1024 .bf16 :=
  View.canon [⟨r2_0, k2_pay1 (View.ld x0 r2_0) (View.ld x1 r2_0)⟩]

/-- The single store is the whole buffer, so it covers it. -/
theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

/-! ## The body's triple -/

set_option maxHeartbeats 1000000 in
/-- The body on whole staging memrefs — the inputs' at read contents `x0`, `x1`, the output's at anything —
    runs to the continuation with the inputs' as they were and the output's at `out2_2 x0 x1`. The body also
    loads the output buffer before storing it; the loaded value is not used, and the store covers the buffer,
    so what it held does not matter. -/
theorem sound_kernel2 (c : Dev nD) (E : Set ℕ) (i : grid2.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them (`V`); after the
    body at point `t` each input's buffer still at its block and the output's at `out2_2` of the two input
    blocks; the invariant the class's (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.KFrameMM4.lean ====
/-
  Region 4 of @main: the output projection y = x·Woᵀ + b as one pipelined kernel over 8 row blocks.

  The region's class-A half at a parameter `V` — the TensorCore's buffer contents when the region is
  entered —, generic in the float reading `F`:

  * `iblk4`: a window's block at a grid point, read off its array as `V` holds it;
  * `out4_3`: what the body leaves in the output's staging buffer, as a function of the three input
    blocks — its single store, which covers the whole buffer;
  * `sound_kernel4`: the body's triple on whole staging memrefs;
  * `dat4`: the pipeline's proof data (arrays at `V`, inputs left in place, the output at `out4_3`);
  * `body_obligation4`: the body meets the pipeline's obligation at every grid point.

  Window 0 is the x block [1024,1024] (bf16) of the [8192,1024] array (row block = the grid point);
  window 1 the whole weight [1024,1024] and window 2 the whole bias row [1,1024] (the same block at every
  point, so each transferred once); window 3 the output block [1024,1024] (f32) of the [8192,1024] result.
-/
import proofs.«181089_j2508260901282_2_alg».proof.Proof.Gen.Kernel.Launch
import proofs.«181089_j2508260901282_2_alg».proof.Proof.Gen.Kernel.Skeleton
import proofs.«181089_j2508260901282_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The x window's staging buffer holds the x block of the point when the body starts, for any proof data
    whose array is `V`'s and whose body leaves the block where it found it. -/
theorem before4_0_of {c : Dev nD} (dat : Dat τ (Elt F) Unit ℕ (UR sig nD τ) ℕ cfg4 c)
    (hA : dat.A 0 = V c (Pipeline.arrRef spec4 0))
    (hafter : ∀ t, dat.after 0 t = iblk4 V c 0 t) (t : Fin cfg4.N) (d) :
    dat.before 0 t d = iblk4 V c 0 t :=
  (dat.before_in_eq_fetched 0 rfl (fun _ => rfl) (fun _ _ _ => rfl)
      (fun t => by rw [hafter]; unfold Dat.blockOf iblk4; rw [hA]; try rfl) t d).trans
    (by unfold Dat.fetched Dat.blockOf iblk4; rw [hA]; try rfl)

/-- The weight window's staging buffer holds the weight at every point, though it is transferred at the first
    point only: its block index never moves, so the buffer still holds what the first transfer put there. -/
theorem before4_1_of {c : Dev nD} (dat : Dat τ (Elt F) Unit ℕ (UR sig nD τ) ℕ cfg4 c)
    (hA : dat.A 1 = V c (Pipeline.arrRef spec4 1))
    (hafter : ∀ t, dat.after 1 t = iblk4 V c 1 t) (t : Fin cfg4.N) (d) :
    dat.before 1 t d = iblk4 V c 1 t :=
  (dat.before_in_eq_fetched 1 rfl (fun _ => rfl) (fun _ _ _ => rfl)
      (fun t => by rw [hafter]; unfold Dat.blockOf iblk4; rw [hA]; try rfl) t d).trans
    (by unfold Dat.fetched Dat.blockOf iblk4; rw [hA]; try rfl)

/-- The bias window's staging buffer holds the bias row at every point, for the same reason. -/
theorem before4_2_of {c : Dev nD} (dat : Dat τ (Elt F) Unit ℕ (UR sig nD τ) ℕ cfg4 c)
    (hA : dat.A 2 = V c (Pipeline.arrRef spec4 2))
    (hafter : ∀ t, dat.after 2 t = iblk4 V c 2 t) (t : Fin cfg4.N) (d) :
    dat.before 2 t d = iblk4 V c 2 t :=
  (dat.before_in_eq_fetched 2 rfl (fun _ => rfl) (fun _ _ _ => rfl)
      (fun t => by rw [hafter]; unfold Dat.blockOf iblk4; rw [hA]; try rfl) t d).trans
    (by unfold Dat.fetched Dat.blockOf iblk4; rw [hA]; try rfl)

/-! ## The body's accesses -/

/-- The rectangle the body reads x and the weight and writes the output through: the whole [1024,1024] buffer. -/
abbrev r4_0 : Rect S1024x1024 := Rect.unit (s := S1024x1024) ![0, 0] S1024x1024.size inb_S1024x1024_S1024x1024_0_0
/-- The rectangle it reads the bias through: the whole [1,1024] row. -/
abbrev r4_1 : Rect S1x1024 := Rect.unit (s := S1x1024) ![0, 0] S1x1024.size inb_S1x1024_S1x1024_0_0

/-! ## What the body leaves in the output window's buffer -/

/-- The output's staging buffer after the body, from the x block `x0`, the weight `x1` and the bias row `x2`:
    the body's single store, of the product of the two blocks plus the bias row repeated down the rows. -/
def out4_3 (x0 : Vec F S1024x1024 .bf16) (x1 : Vec F S1024x1024 .f32) (x2 : Vec F S1x1024 .f32) : Vec F S1024x1024 .f32 :=
  View.canon [⟨r4_0, k4_pay1 (View.ld x0 r4_0) (View.ld x1 r4_0) (View.ld x2 r4_1)⟩]

/-- The single store is the whole buffer, so it covers it. -/
theorem cover4_3 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

/-! ## The body's triple -/

set_option maxHeartbeats 1000000 in
/-- The body on whole staging memrefs — the inputs' at read contents `x0`, `x1`, `x2`, the output's at
    anything — runs to the continuation with the inputs' as they were and the output's at `out4_3 x0 x1 x2`.
    The body also loads the output buffer before storing it; the loaded value is not used, and the store covers
    the buffer, so what it held does not matter. -/
theorem sound_kernel4 (c : Dev nD) (E : Set ℕ) (i : grid4.Coords)
    (arg1 : Memref sig .tc .vmem S1024x1024 .bf16) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S1024x1024 .f32) (harg4 : arg4.IsWhole)
    (x0 : Vec F S1024x1024 .bf16) (x1 : Vec F S1024x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out4_3 x0 x1 x2)) -∗ K ⟨⟩))
      ⊢ wp frame (wpE (defs₀ (F := F)) Variants.none c none) E
          (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them (`V`); after the
    body at point `t` each input's buffer still at its block and the output's at `out4_3` of the three input
    blocks; the invariant the class's (the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant
    and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) :
    BodyObligation (dat4 (F := F) V c) (defs₀ (F := F)) Variants.none () Set.univ := fun t => by
  rw [bigSep_W4, bigSep_W4]
  exact sound_body4 V c t

end Cert.Kernel.Hand

end
-- ==== Proof.KFrameAttnBase.lean ====
import proofs.«181089_j2508260901282_2_alg».proof.Proof.Gen.Kernel.Launch
import proofs.«181089_j2508260901282_2_alg».proof.Proof.Gen.Kernel.Skeleton
import proofs.«181089_j2508260901282_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The attention region: its schedule and its operands

The attention call runs over the grid (batch 4) × (head pair 8) × (key block 2), the key block
fastest. A point with key block 0 resets the three running buffers (row maxima, row sums, weighted
sums) before it absorbs its block; a point with key block 1 absorbs its block and then divides the
weighted sums by the row sums into the output block. So the body has two cases, decided by the
parity of the point's position, and the output block is written, and written back, at the odd
positions only.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window's staging buffer holds the point's query block whether or not it was fetched
    there: it is fetched at key block 0 and its block index does not move at key block 1. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key window's staging buffer holds the point's key block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The value window's staging buffer holds the point's value block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "The key block is the first": the reset is taken. -/
abbrev cond3_0 (i : grid3.Coords) : Prop := (Scalar.cmpi .ne (Scalar.extui (Scalar.cmpi .eq (BitVec.ofNat 32 (i 2).val) 0#32)) 0#32) = 1#1
/-- It holds at the even positions. -/
theorem hcond3_0 : ∀ t : Fin cfg3.N, cond3_0 (grid3.coords t) ↔ t.val % 2 = 0 :=
  (by decide +kernel : ∀ t : Fin grid3.N, cond3_0 (grid3.coords t) ↔ t.val % 2 = 0)

/-- "The key block is the last": the normalisation and the output store are taken. -/
abbrev cond3_1 (i : grid3.Coords) : Prop := k3_cond2 i = 1#1
/-- It holds at the odd positions. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At key block 0 the output window is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- At key block 1 the output window is live. -/
theorem liveAt3_3_B : ∀ t : Fin cfg3.N, ¬cond3_0 (grid3.coords t) → cond3_1 (grid3.coords t) → cfg3.idle 3 (grid3.coords t) = false := by decide +kernel

/-! ## The staging and scratch memrefs -/

/-- One staging buffer of the output window, through which its contents are stated. -/
abbrev VO3_3 : View sig .tc .vmem S1x2048x128 .bf16 := (Memref.whole cc3_stg3_0 : Memref sig .tc .vmem S1x2048x128 .bf16).view
abbrev ms3_0 (t : Fin cfg3.N) : Memref sig .tc .vmem S1x2048x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x128 .bf16 := win3_3.stage (cfg3.slots t 3)
abbrev hs3_3 (t : Fin cfg3.N) : (ms3_3 t).IsWhole := hstage3_3 ((cfg3.slots t 3).cast nbuf3_3)
/-- The running row maxima, one column per head of the pair. -/
abbrev scM3_0 : Memref sig .tc .vmem S2048x2 .f32 := Memref.whole cc3_scratch0
/-- The running row sums. -/
abbrev scM3_1 : Memref sig .tc .vmem S2048x2 .f32 := Memref.whole cc3_scratch1
/-- The running weighted sums, 64 columns per head. -/
abbrev scM3_2 : Memref sig .tc .vmem S2048x128 .f32 := Memref.whole cc3_scratch2
abbrev VS3_0 : View sig .tc .vmem S2048x2 .f32 := scM3_0.view
abbrev VS3_1 : View sig .tc .vmem S2048x2 .f32 := scM3_1.view
abbrev VS3_2 : View sig .tc .vmem S2048x128 .f32 := scM3_2.view

/-- The scoped buffers of the other calls, untouched by this region. -/
abbrev others3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's resting invariant with the three running buffers as memrefs owned at some contents. -/
theorem PhiA3_eq (c : Dev nD) :
    (Pipeline.ΦA spec3 c : sProp 𝕄)
      = iprop(iprop(((∃ d, owns (c : Thread nD τ) scM3_0 fullShare d) ∗ (∃ d, owns (c : Thread nD τ) scM3_1 fullShare d) ∗ (∃ d, owns (c : Thread nD τ) scM3_2 fullShare d)) ∗ others3 c) ∗ (∃ r, prngReg c r)) := by
  unfold Pipeline.ΦA
  rw [Pipeline.scopedRest_split_of_list spec3 c [cc3_scratch0, cc3_scratch1, cc3_scratch2] (by decide) (by decide)]
  simp only [scM3_0, scM3_1, scM3_2, owns_whole, bigSepL]
  try rfl

end Cert.Kernel.Hand

end
-- ==== Proof.KFrameAttnRunA.lean ====
import proofs.«181089_j2508260901282_2_alg».proof.Proof.KFrameAttnBase

/-!
# The attention body at key block 0

The three running buffers are overwritten whole (−∞, 0, 0) before anything reads them, so they may
hold anything on entry; the output block is not touched. What the stores leave in each running
buffer is recorded as a list of pieces, last store first.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three running buffers at key block 0, with the proof
    that from the three input blocks held whole, the output's buffer at any contents (handed back
    untouched) and the running buffers at anything, the body runs to its return. -/
noncomputable def kernelRun3_A (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) :
    Σ' (LS0 : List (View.Piece (Elt F) S2048x2 .f32)) (LS1 : List (View.Piece (Elt F) S2048x2 .f32)), { LS2 : List (View.Piece (Elt F) S2048x128 .f32) //
      ∀ (xi3 : Vec F S1x2048x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, fun xi3 E K => ?run⟩
  case run =>
    simp only [cc3__attn_kernel_eq_skeleton]; unfold cc3__attn_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KFrameAttnRunB.lean ====
import proofs.«181089_j2508260901282_2_alg».proof.Proof.KFrameAttnBase

/-!
# The attention body at key block 1

The running buffers hold what key block 0 left; the body absorbs the second key block into them
and then stores the normalised weighted sums, both heads side by side, into the output block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three running buffers at key
    block 1, with the proof that from the input blocks held whole, the output's buffer at anything
    and the running buffers at `xs0`, `xs1`, `xs2`, the body runs to its return. -/
noncomputable def kernelRun3_B (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) :
    Σ' (L3 : List (View.Piece (Elt F) S1x2048x128 .bf16)) (LS0 : List (View.Piece (Elt F) S2048x2 .f32)) (LS1 : List (View.Piece (Elt F) S2048x2 .f32)), { LS2 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KFrameAttn.lean ====
import proofs.«181089_j2508260901282_2_alg».proof.Proof.KFrameAttnRunA
import proofs.«181089_j2508260901282_2_alg».proof.Proof.KFrameAttnRunB

/-!
# The attention region: what its buffers hold point by point, and its body obligation

After the body at a position the three running buffers hold what that position's case leaves in
them; at an odd position the case starts from what the even position before it left. The output
block is written at the odd positions. The region's invariant carries the running buffers at
these contents from one position to the next.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At key block 0 nothing is stored into the output block: a placeholder nothing consults (the
    window is idle there and not written back). -/
def out3_A_3 : Vec F S1x2048x128 .bf16 :=
  VO3_3.read (Elt F) (VO3_3.writes (Elt F) VO3_3.junk [])

theorem scover3_A_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x2.Idx) :
    ∃ pc ∈ (kernelRun3_A c i arg3 harg3 arg4 harg4 arg5 harg5 arg6 harg6 arg7 harg7 arg8 harg8 arg9 harg9 hc0 hc1 x0 x1 x2).1, y ∈ pc.1.set :=
  View.cover_of_tiledL (kernelRun3_A c i arg3 harg3 arg4 harg4 arg5 harg5 arg6 harg6 arg7 harg7 arg8 harg8 arg9 harg9 hc0 hc1 x0 x1 x2).1 S2048x1.size (by sl_kernel_rfl) y
theorem scover3_A_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x2.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S2048x1.size (by sl_kernel_rfl) y
theorem scover3_A_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x128.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S2048x64.size (by sl_kernel_rfl) y

/-- The row maxima after key block 0. -/
def sout3_A_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x2 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).1)
/-- The row sums after key block 0. -/
def sout3_A_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x2 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.1)
/-- The weighted sums after key block 0. -/
def sout3_A_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x128 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.1)

theorem cover3_B_3 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S1x2048x128.Idx) :
    ∃ pc ∈ (kernelRun3_B c i arg3 harg3 arg4 harg4 arg5 harg5 arg6 harg6 arg7 harg7 arg8 harg8 arg9 harg9 hc0 hc1 x0 x1 x2 xs0 xs1 xs2).1, y ∈ pc.1.set :=
  View.cover_of_tiledL (kernelRun3_B c i arg3 harg3 arg4 harg4 arg5 harg5 arg6 harg6 arg7 harg7 arg8 harg8 arg9 harg9 hc0 hc1 x0 x1 x2 xs0 xs1 xs2).1 S1x2048x128.size (by sl_kernel_rfl) y
theorem scover3_B_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x2.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S2048x1.size (by sl_kernel_rfl) y
theorem scover3_B_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x2.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S2048x1.size (by sl_kernel_rfl) y
theorem scover3_B_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x128.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S2048x64.size (by sl_kernel_rfl) y

/-- The output block after key block 1. -/
def out3_B_3 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S1x2048x128 .bf16 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)
/-- The row maxima after key block 1. -/
def sout3_B_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x2 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)
/-- The row sums after key block 1. -/
def sout3_B_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x2 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)
/-- The weighted sums after key block 1. -/
def sout3_B_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x128 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

/-! ## What the buffers hold after each position -/

/-- The output block and the three running buffers after the body at position `n`: an even
    position's case from scratch, an odd position's case over what position `n − 1` left. -/
def outsAt3 (c : Dev nD) : (n : ℕ) → n < cfg3.N → Vec F S1x2048x128 .bf16 × Vec F S2048x2 .f32 × Vec F S2048x2 .f32 × Vec F S2048x128 .f32
  | 0, hn =>
    have h0 : (⟨0, hn⟩ : Fin cfg3.N).val % 2 = 0 := Nat.zero_mod _
    have h1 : ¬(⟨0, hn⟩ : Fin cfg3.N).val % 2 = 1 := by (try dsimp only); omega
    (out3_A_3 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      have h1 : ¬(n + 1) % 2 = 1 := by omega
      (out3_A_3 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      have h1 : (n + 1) % 2 = 1 := by omega
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at an even position. -/
theorem outsAt3_A (c : Dev nD) (t : Fin cfg3.N) (h0 : t.val % 2 = 0) (h1 : ¬t.val % 2 = 1) :
    outsAt3 V c t.val t.isLt = (out3_A_3 (F := F), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

/-- `outsAt3` at an odd position: over what the position before left. -/
theorem outsAt3_B (c : Dev nD) (t : Fin cfg3.N) (h0 : ¬t.val % 2 = 0) (h1 : t.val % 2 = 1) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before the first position the region's resting invariant; before position `n + 1` the three
    running buffers at what position `n` left, the other calls' buffers and the generator register
    untouched. -/
def PhiS3 (c : Dev nD) : (n : ℕ) → n ≤ cfg3.N → sProp 𝕄
  | 0, _ => Pipeline.ΦA spec3 c
  | n + 1, hn => iprop(iprop((owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ others3 c) ∗ (∃ r, prngReg c r)) := rfl

theorem PhiS3_pos (c : Dev nD) (n : ℕ) (h : n ≤ cfg3.N) (hz : n ≠ 0) :
    PhiS3 V c n h = iprop(iprop((owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ others3 c) ∗ (∃ r, prngReg c r)) := by
  cases n with
  | zero => exact absurd rfl hz
  | succ n => rfl

/-! ## The region's proof data -/

/-- The arrays as the region finds them; after the body each input's buffer at its block and the
    output's at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.Kernel.Hand

end
-- ==== Proof.KFrameAttnBody.lean ====
import proofs.«181089_j2508260901282_2_alg».proof.Proof.KFrameAttn

/-!
# The attention region: the body obligation

At every position the body is handed the three input blocks, the output's buffer and the invariant;
the parity of the position says which case runs; the invariant hands it the running buffers (at
anything before an even position's reset, at the previous position's contents before an odd one)
and takes them back at this position's contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at position `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any position. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hoth⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover3_A_0 _ _ _ _ _ _ _ _ _ _ _ _ _ _ _ _ _ _ _ _ _)
            isplitl [HS1]
            · unfold owns; iexists _; isplitr
              swap; · iexact HS1
              ipureintro; exact View.read_writes_of_cover _ _ _ _ _ (scover3_A_1 _ _ _ _ _ _ _ _ _ _ _ _ _ _ _ _ _ _ _ _ _)
            · unfold owns; iexists _; isplitr
              swap; · iexact HS2
              ipureintro; exact View.read_writes_of_cover _ _ _ _ _ (scover3_A_2 _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover3_A_0 _ _ _ _ _ _ _ _ _ _ _ _ _ _ _ _ _ _ _ _ _)
            isplitl [HS1]
            · unfold owns; iexists _; isplitr
              swap; · iexact HS1
              ipureintro; exact View.read_writes_of_cover _ _ _ _ _ (scover3_A_1 _ _ _ _ _ _ _ _ _ _ _ _ _ _ _ _ _ _ _ _ _)
            · unfold owns; iexists _; isplitr
              swap; · iexact HS2
              ipureintro; exact View.read_writes_of_cover _ _ _ _ _ (scover3_A_2 _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B_3 sout3_B_0 sout3_B_1 sout3_B_2; (try dsimp only)
    have hz : t.val ≠ 0 := by omega
    rw [PhiS3_castSucc V c t, PhiS3_pos V c _ _ hz]
    iintro ⟨⟨⟨⟨HS0, HS1, HS2⟩, Hoth⟩, Hg⟩, Ho, ⟨%d0, H0⟩, ⟨%d1, H1⟩, ⟨%d2, H2⟩, ⟨%d3, H3⟩⟩
    iapply ((kernelRun3_B c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hoth Hg]
    · isplitl [HS0 HS1 HS2 Hoth]
      · isplitl [HS0 HS1 HS2]
        · isplitl [HS0]
          · unfold owns; iexists _; isplitr
            swap; · iexact HS0
            ipureintro; exact View.read_writes_of_cover _ _ _ _ _ (scover3_B_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 _ _ _ _ _ _ _ _ _ _ _ _ _ _ _ _ _ _ _ _ _ _ _ _)
          · unfold owns; iexists _; isplitr
            swap; · iexact HS2
            ipureintro; exact View.read_writes_of_cover _ _ _ _ _ (scover3_B_2 _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 _ _ _ _ _ _ _ _ _ _ _ _ _ _ _ _ _ _ _ _ _ _ _ _)

/-- The library's body obligation, at every position. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first position. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives the resting invariant back: the running
    buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

/-- The same after the last position. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.KFrameRun.lean ====
import proofs.«181089_j2508260901282_2_alg».proof.Proof.KFrameMM0
import proofs.«181089_j2508260901282_2_alg».proof.Proof.KFrameMM1
import proofs.«181089_j2508260901282_2_alg».proof.Proof.KFrameMM2
import proofs.«181089_j2508260901282_2_alg».proof.Proof.KFrameMM4
import proofs.«181089_j2508260901282_2_alg».proof.Proof.KFrameAttnBody
import proofs.«181089_j2508260901282_2_alg».proof.Proof.Gen.Kernel.Regions
import Idealize.ShloMosaic.Lib.Pipeline.RegionsLoop

/-!
# The whole run: host lines and the five regions in order

The contents of the unscoped buffers are followed through @main as a fold from the launch memory: a
stretch of host lines applies its operations; a region replaces its arrays by what its write-backs
leave and keeps every other buffer. No item writes an argument array. The run ends with every
unscoped buffer at the last stage of the fold.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host lines `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no OUTPUT array of region 0 leaves it as it entered: an input array is handed back as found. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (U1 m ρ) c).arrAt_in w (hb w rfl) _).trans (A_eq0 (U1 m ρ) c w))
  · exact W2_of_ne m ρ c b fun w e => h ⟨w, e⟩

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- A buffer that is no OUTPUT array of region 1 leaves it as it entered: an input array is handed back as found. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (U2 m ρ) c).arrAt_in w (hb w rfl) _).trans (A_eq1 (U2 m ρ) c w))
  · exact W3_of_ne m ρ c b fun w e => h ⟨w, e⟩

/-- At region 2's exit: its arrays at what the pipeline leaves, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- A buffer that is no OUTPUT array of region 2 leaves it as it entered: an input array is handed back as found. -/
theorem W4_keep (c : Dev nD) (b : Ref sig .tc) (hb : ∀ w, Pipeline.arrRef spec2 w = b → (cfg2.win w).isOut = false) :
    W4 m ρ c (Proc.devRef .tc b) = W3 m ρ c (Proc.devRef .tc b) := by
  by_cases h : ∃ w, Pipeline.arrRef spec2 w = b
  · obtain ⟨w, rfl⟩ := h
    exact (W4_arr m ρ c w).trans (((dat2 (U3 m ρ) c).arrAt_in w (hb w rfl) _).trans (A_eq2 (U3 m ρ) c w))
  · exact W4_of_ne m ρ c b fun w e => h ⟨w, e⟩

/-- After the host lines `hostOps3`. -/
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b
theorem W5_keep (c : Dev nD) (b : Ref sig .tc) (h : b ∉ hostOps3_W) : W5 m ρ c (Proc.devRef .tc b) = W4 m ρ c (Proc.devRef .tc b) :=
  StableHlo.after_of_writes_sub hostOps3 _ hostOps3_writes h

/-- At region 3's exit: its arrays at what the pipeline leaves, every other buffer as entered. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev U6 : (c : Dev nD) → (b : Ref sig .tc) → Buf (Elt F) ((c : Thread nD τ).loc b) := fun c b => W6 m ρ c b
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)
/-- A buffer that is no OUTPUT array of region 3 leaves it as it entered: an input array is handed back as found. -/
theorem W6_keep (c : Dev nD) (b : Ref sig .tc) (hb : ∀ w, Pipeline.arrRef spec3 w = b → (cfg3.win w).isOut = false) :
    W6 m ρ c (Proc.devRef .tc b) = W5 m ρ c (Proc.devRef .tc b) := by
  by_cases h : ∃ w, Pipeline.arrRef spec3 w = b
  · obtain ⟨w, rfl⟩ := h
    exact (W6_arr m ρ c w).trans (((dat3 (U5 m ρ) c).arrAt_in w (hb w rfl) _).trans (A_eq3 (U5 m ρ) c w))
  · exact W6_of_ne m ρ c b fun w e => h ⟨w, e⟩

/-- After the host lines `hostOps4`. -/
abbrev W7 : Dev nD → Valuation τ sig (Elt F) := fun c => StableHlo.after hostOps4 (W6 m ρ c)
abbrev U7 : (c : Dev nD) → (b : Ref sig .tc) → Buf (Elt F) ((c : Thread nD τ).loc b) := fun c b => W7 m ρ c b
theorem W7_keep (c : Dev nD) (b : Ref sig .tc) (h : b ∉ hostOps4_W) : W7 m ρ c (Proc.devRef .tc b) = W6 m ρ c (Proc.devRef .tc b) :=
  StableHlo.after_of_writes_sub hostOps4 _ hostOps4_writes h

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- A buffer that is no OUTPUT array of region 4 leaves it as it entered: an input array is handed back as found. -/
theorem W8_keep (c : Dev nD) (b : Ref sig .tc) (hb : ∀ w, Pipeline.arrRef spec4 w = b → (cfg4.win w).isOut = false) :
    W8 m ρ c (Proc.devRef .tc b) = W7 m ρ c (Proc.devRef .tc b) := by
  by_cases h : ∃ w, Pipeline.arrRef spec4 w = b
  · obtain ⟨w, rfl⟩ := h
    exact (W8_arr m ρ c w).trans (((dat4 (U7 m ρ) c).arrAt_in w (hb w rfl) _).trans (A_eq4 (U7 m ρ) c w))
  · exact W8_of_ne m ρ c b fun w e => h ⟨w, e⟩

/-- After the host lines `hostOps5`. -/
abbrev W9 : Dev nD → Valuation τ sig (Elt F) := fun c => StableHlo.after hostOps5 (W8 m ρ c)
abbrev U9 : (c : Dev nD) → (b : Ref sig .tc) → Buf (Elt F) ((c : Thread nD τ).loc b) := fun c b => W9 m ρ c b
theorem W9_keep (c : Dev nD) (b : Ref sig .tc) (h : b ∉ hostOps5_W) : W9 m ρ c (Proc.devRef .tc b) = W8 m ρ c (Proc.devRef .tc b) :=
  StableHlo.after_of_writes_sub hostOps5 _ hostOps5_writes h

/-! ## No item writes an argument -/

theorem W9_main_arg0 (c : Dev nD) : W9 m ρ c (Proc.devRef .tc main_arg0) = m ((c : Thread nD τ).loc main_arg0) :=
  (W9_keep m ρ c main_arg0 (by decide)).trans <| (W8_keep m ρ c main_arg0 (by decide)).trans <| (W7_keep m ρ c main_arg0 (by decide)).trans <|
  (W6_keep m ρ c main_arg0 (by decide)).trans <| (W5_keep m ρ c main_arg0 (by decide)).trans <| (W4_keep m ρ c main_arg0 (by decide)).trans <|
  (W3_keep m ρ c main_arg0 (by decide)).trans <| (W2_keep m ρ c main_arg0 (by decide)).trans <| (W1_keep m ρ c main_arg0 (by decide)).trans rfl

theorem W9_main_arg1 (c : Dev nD) : W9 m ρ c (Proc.devRef .tc main_arg1) = m ((c : Thread nD τ).loc main_arg1) :=
  (W9_keep m ρ c main_arg1 (by decide)).trans <| (W8_keep m ρ c main_arg1 (by decide)).trans <| (W7_keep m ρ c main_arg1 (by decide)).trans <|
  (W6_keep m ρ c main_arg1 (by decide)).trans <| (W5_keep m ρ c main_arg1 (by decide)).trans <| (W4_keep m ρ c main_arg1 (by decide)).trans <|
  (W3_keep m ρ c main_arg1 (by decide)).trans <| (W2_keep m ρ c main_arg1 (by decide)).trans <| (W1_keep m ρ c main_arg1 (by decide)).trans rfl

theorem W9_main_arg2 (c : Dev nD) : W9 m ρ c (Proc.devRef .tc main_arg2) = m ((c : Thread nD τ).loc main_arg2) :=
  (W9_keep m ρ c main_arg2 (by decide)).trans <| (W8_keep m ρ c main_arg2 (by decide)).trans <| (W7_keep m ρ c main_arg2 (by decide)).trans <|
  (W6_keep m ρ c main_arg2 (by decide)).trans <| (W5_keep m ρ c main_arg2 (by decide)).trans <| (W4_keep m ρ c main_arg2 (by decide)).trans <|
  (W3_keep m ρ c main_arg2 (by decide)).trans <| (W2_keep m ρ c main_arg2 (by decide)).trans <| (W1_keep m ρ c main_arg2 (by decide)).trans rfl

theorem W9_main_arg3 (c : Dev nD) : W9 m ρ c (Proc.devRef .tc main_arg3) = m ((c : Thread nD τ).loc main_arg3) :=
  (W9_keep m ρ c main_arg3 (by decide)).trans <| (W8_keep m ρ c main_arg3 (by decide)).trans <| (W7_keep m ρ c main_arg3 (by decide)).trans <|
  (W6_keep m ρ c main_arg3 (by decide)).trans <| (W5_keep m ρ c main_arg3 (by decide)).trans <| (W4_keep m ρ c main_arg3 (by decide)).trans <|
  (W3_keep m ρ c main_arg3 (by decide)).trans <| (W2_keep m ρ c main_arg3 (by decide)).trans <| (W1_keep m ρ c main_arg3 (by decide)).trans rfl

theorem W9_main_arg4 (c : Dev nD) : W9 m ρ c (Proc.devRef .tc main_arg4) = m ((c : Thread nD τ).loc main_arg4) :=
  (W9_keep m ρ c main_arg4 (by decide)).trans <| (W8_keep m ρ c main_arg4 (by decide)).trans <| (W7_keep m ρ c main_arg4 (by decide)).trans <|
  (W6_keep m ρ c main_arg4 (by decide)).trans <| (W5_keep m ρ c main_arg4 (by decide)).trans <| (W4_keep m ρ c main_arg4 (by decide)).trans <|
  (W3_keep m ρ c main_arg4 (by decide)).trans <| (W2_keep m ρ c main_arg4 (by decide)).trans <| (W1_keep m ρ c main_arg4 (by decide)).trans rfl

theorem W9_main_arg5 (c : Dev nD) : W9 m ρ c (Proc.devRef .tc main_arg5) = m ((c : Thread nD τ).loc main_arg5) :=
  (W9_keep m ρ c main_arg5 (by decide)).trans <| (W8_keep m ρ c main_arg5 (by decide)).trans <| (W7_keep m ρ c main_arg5 (by decide)).trans <|
  (W6_keep m ρ c main_arg5 (by decide)).trans <| (W5_keep m ρ c main_arg5 (by decide)).trans <| (W4_keep m ρ c main_arg5 (by decide)).trans <|
  (W3_keep m ρ c main_arg5 (by decide)).trans <| (W2_keep m ρ c main_arg5 (by decide)).trans <| (W1_keep m ρ c main_arg5 (by decide)).trans rfl

theorem W9_main_arg6 (c : Dev nD) : W9 m ρ c (Proc.devRef .tc main_arg6) = m ((c : Thread nD τ).loc main_arg6) :=
  (W9_keep m ρ c main_arg6 (by decide)).trans <| (W8_keep m ρ c main_arg6 (by decide)).trans <| (W7_keep m ρ c main_arg6 (by decide)).trans <|
  (W6_keep m ρ c main_arg6 (by decide)).trans <| (W5_keep m ρ c main_arg6 (by decide)).trans <| (W4_keep m ρ c main_arg6 (by decide)).trans <|
  (W3_keep m ρ c main_arg6 (by decide)).trans <| (W2_keep m ρ c main_arg6 (by decide)).trans <| (W1_keep m ρ c main_arg6 (by decide)).trans rfl

theorem W9_main_arg7 (c : Dev nD) : W9 m ρ c (Proc.devRef .tc main_arg7) = m ((c : Thread nD τ).loc main_arg7) :=
  (W9_keep m ρ c main_arg7 (by decide)).trans <| (W8_keep m ρ c main_arg7 (by decide)).trans <| (W7_keep m ρ c main_arg7 (by decide)).trans <|
  (W6_keep m ρ c main_arg7 (by decide)).trans <| (W5_keep m ρ c main_arg7 (by decide)).trans <| (W4_keep m ρ c main_arg7 (by decide)).trans <|
  (W3_keep m ρ c main_arg7 (by decide)).trans <| (W2_keep m ρ c main_arg7 (by decide)).trans <| (W1_keep m ρ c main_arg7 (by decide)).trans rfl

/-! ## The proof data family and the thread state -/

abbrev admH : (p : Fin 5) → (pcfgs (F := F) p).Adm := fun p => (cfgs p).toPCfg_adm
/-- Every region's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U5 m ρ) c
  | ⟨4, _⟩ => fun c => dat4 (U7 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its
    arrays are split out of the unscoped buffers and put back at what the write-backs leave; the generator
    register goes into the region's invariant and comes back; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its
    arrays are split out of the unscoped buffers and put back at what the write-backs leave; the generator
    register goes into the region's invariant and comes back; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its
    arrays are split out of the unscoped buffers and put back at what the write-backs leave; the generator
    register goes into the region's invariant and comes back; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ LH lvH 2 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U3 m ρ c) (U4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its
    arrays are split out of the unscoped buffers and put back at what the write-backs leave; the generator
    register goes into the region's invariant and comes back; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (U5 m ρ) c)
    unfold Pipeline.ΦA
    iintro ⟨Hp, -, Hr⟩
    isplitl [Hr]; · iexact Hr
    iexact Hp
  hout c := by
    rw [Pipeline.ownSems0_none]
    refine BIBase.Entails.trans (hout3 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U5 m ρ c) (U6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. Its
    arrays are split out of the unscoped buffers and put back at what the write-backs leave; the generator
    register goes into the region's invariant and comes back; nothing is owed. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U7 m ρ c) (U8 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ 𝒱H LH lvH) :=
  [ .host (hsegH hostOps0 hostOps0_sub hostOps0_fresh (W0 m ρ)),
    .region (reg0 m ρ), .region (reg1 m ρ), .region (reg2 m ρ),
    .host (hsegH hostOps3 hostOps3_sub hostOps3_fresh (W4 m ρ)),
    .region (reg3 m ρ),
    .host (hsegH hostOps4 hostOps4_sub hostOps4_fresh (W6 m ρ)),
    .region (reg4 m ρ),
    .host (hsegH hostOps5 hostOps5_sub hostOps5_fresh (W8 m ρ)) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and every final state holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ RH c) ⊢ iprop(TnH m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_ucH main_arg0 (by decide))).trans (W9_main_arg0 m ρ c),
    (h c _ (mem_ucH main_arg1 (by decide))).trans (W9_main_arg1 m ρ c),
    (h c _ (mem_ucH main_arg2 (by decide))).trans (W9_main_arg2 m ρ c),
    (h c _ (mem_ucH main_arg3 (by decide))).trans (W9_main_arg3 m ρ c),
    (h c _ (mem_ucH main_arg4 (by decide))).trans (W9_main_arg4 m ρ c),
    (h c _ (mem_ucH main_arg5 (by decide))).trans (W9_main_arg5 m ρ c),
    (h c _ (mem_ucH main_arg6 (by decide))).trans (W9_main_arg6 m ρ c),
    (h c _ (mem_ucH main_arg7 (by decide))).trans (W9_main_arg7 m ρ c)⟩) (run_all m ρ)

/-- The run with the result buffer named: it ends at the last stage of the fold, the arguments as launched. -/
theorem run_result : θ_run defs (onTc (τ := τ) (main (F := F))) ⟨m, fun _ => 0, ρ⟩ (fun r => ∀ c : Dev nD,
      r.2.mem ((c.tc : Thread nD τ).loc main_v13) = W9 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_ucH main_v13 (by decide)), (h c _ (mem_ucH main_arg0 (by decide))).trans (W9_main_arg0 m ρ c),
    (h c _ (mem_ucH main_arg1 (by decide))).trans (W9_main_arg1 m ρ c),
    (h c _ (mem_ucH main_arg2 (by decide))).trans (W9_main_arg2 m ρ c),
    (h c _ (mem_ucH main_arg3 (by decide))).trans (W9_main_arg3 m ρ c),
    (h c _ (mem_ucH main_arg4 (by decide))).trans (W9_main_arg4 m ρ c),
    (h c _ (mem_ucH main_arg5 (by decide))).trans (W9_main_arg5 m ρ c),
    (h c _ (mem_ucH main_arg6 (by decide))).trans (W9_main_arg6 m ρ c),
    (h c _ (mem_ucH main_arg7 (by decide))).trans (W9_main_arg7 m ρ c)⟩) (run_all m ρ)

end Cert.Kernel.Hand

end
-- ==== Proof.FrameMM0.lean ====
/-
  Region 0 of @main: the projection y = x·Wᵀ as one pipelined kernel over 8 row blocks.

  The region's class-A half at a parameter `V` — the TensorCore's buffer contents when the region is
  entered —, generic in the float reading `F`:

  * `iblk0`: a window's block at a grid point, read off its array as `V` holds it;
  * `out0_2`: what the body leaves in the output's staging buffer, as a function of the two input
    blocks — its single store, which covers the whole buffer;
  * `sound_kernel0`: the body's triple on whole staging memrefs;
  * `dat0`: the pipeline's proof data (arrays at `V`, inputs left in place, the output at `out0_2`);
  * `body_obligation0`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.KernelIdeal.Launch
import proofs.«181089_j2508260901282_2_alg».proof.Proof.Gen.KernelIdeal.Skeleton
import proofs.«181089_j2508260901282_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The x window's staging buffer holds the x block of the point when the body starts, for any proof data
    whose array is `V`'s and whose body leaves the block where it found it. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) :
    dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window's staging buffer holds the weight at every point, though it is transferred at the first
    point only: its block index never moves, so the buffer still holds what the first transfer put there. -/
theorem before0_1_of {c : Dev nD} (dat : Dat τ (Elt F) Unit ℕ (UR sig nD τ) ℕ cfg0 c)
    (hA : dat.A 1 = V c (Pipeline.arrRef spec0 1))
    (hafter : ∀ t, dat.after 1 t = iblk0 V c 1 t) (t : Fin cfg0.N) (d) :
    dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses -/

/-- The one rectangle the body reads and writes through: the whole [1024,1024] buffer. -/
abbrev r0_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out0_2 (x0 x1 : Vec F S1024x1024 .f32) : Vec F S1024x1024 .bf16 :=
  View.canon [⟨r0_0, k0_pay1 (View.ld x0 r0_0) (View.ld x1 r0_0)⟩]

/-- The single store is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs — the inputs' at read contents `x0`, `x1`, the output's at anything —
    runs to the continuation with the inputs' as they were and the output's at `out0_2 x0 x1`. The body also
    loads the output buffer before storing it; the loaded value is not used, and the store covers the buffer,
    so what it held does not matter. -/
theorem sound_kernel0 (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the
    body at point `t` each input's buffer still at its block and the output's at `out0_2` of the two input
    blocks; the invariant the class's (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.FrameMM1.lean ====
/-
  Region 1 of @main: the projection y = x·Wᵀ as one pipelined kernel over 8 row blocks.

  The region's class-A half at a parameter `V` — the TensorCore's buffer contents when the region is
  entered —, generic in the float reading `F`:

  * `iblk1`: a window's block at a grid point, read off its array as `V` holds it;
  * `out1_2`: what the body leaves in the output's staging buffer, as a function of the two input
    blocks — its single store, which covers the whole buffer;
  * `sound_kernel1`: the body's triple on whole staging memrefs;
  * `dat1`: the pipeline's proof data (arrays at `V`, inputs left in place, the output at `out1_2`);
  * `body_obligation1`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.KernelIdeal.Launch
import proofs.«181089_j2508260901282_2_alg».proof.Proof.Gen.KernelIdeal.Skeleton
import proofs.«181089_j2508260901282_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The x window's staging buffer holds the x block of the point when the body starts, for any proof data
    whose array is `V`'s and whose body leaves the block where it found it. -/
theorem before1_0_of {c : Dev nD} (dat : Dat τ (Elt F) Unit ℕ (UR sig nD τ) ℕ cfg1 c)
    (hA : dat.A 0 = V c (Pipeline.arrRef spec1 0))
    (hafter : ∀ t, dat.after 0 t = iblk1 V c 0 t) (t : Fin cfg1.N) (d) :
    dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The weight window's staging buffer holds the weight at every point, though it is transferred at the first
    point only: its block index never moves, so the buffer still holds what the first transfer put there. -/
theorem before1_1_of {c : Dev nD} (dat : Dat τ (Elt F) Unit ℕ (UR sig nD τ) ℕ cfg1 c)
    (hA : dat.A 1 = V c (Pipeline.arrRef spec1 1))
    (hafter : ∀ t, dat.after 1 t = iblk1 V c 1 t) (t : Fin cfg1.N) (d) :
    dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses -/

/-- The one rectangle the body reads and writes through: the whole [1024,1024] buffer. -/
abbrev r1_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out1_2 (x0 x1 : Vec F S1024x1024 .f32) : Vec F S1024x1024 .bf16 :=
  View.canon [⟨r1_0, k1_pay1 (View.ld x0 r1_0) (View.ld x1 r1_0)⟩]

/-- The single store is the whole buffer, so it covers it. -/
theorem cover1_2 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The body on whole staging memrefs — the inputs' at read contents `x0`, `x1`, the output's at anything —
    runs to the continuation with the inputs' as they were and the output's at `out1_2 x0 x1`. The body also
    loads the output buffer before storing it; the loaded value is not used, and the store covers the buffer,
    so what it held does not matter. -/
theorem sound_kernel1 (c : Dev nD) (E : Set ℕ) (i : grid1.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the
    body at point `t` each input's buffer still at its block and the output's at `out1_2` of the two input
    blocks; the invariant the class's (the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.FrameMM2.lean ====
/-
  Region 2 of @main: the projection y = x·Wᵀ as one pipelined kernel over 8 row blocks.

  The region's class-A half at a parameter `V` — the TensorCore's buffer contents when the region is
  entered —, generic in the float reading `F`:

  * `iblk2`: a window's block at a grid point, read off its array as `V` holds it;
  * `out2_2`: what the body leaves in the output's staging buffer, as a function of the two input
    blocks — its single store, which covers the whole buffer;
  * `sound_kernel2`: the body's triple on whole staging memrefs;
  * `dat2`: the pipeline's proof data (arrays at `V`, inputs left in place, the output at `out2_2`);
  * `body_obligation2`: the body meets the pipeline's obligation at every grid point.

  Window 0 is the x block [1024,1024] of the [8192,1024] array (row block = the grid point);
  window 1 the whole weight [1024,1024] (the same block at every point, so transferred once);
  window 2 the output block [1024,1024] of the [8192,1024] result (row block = the grid point).
-/
import proofs.«181089_j2508260901282_2_alg».proof.Proof.Gen.KernelIdeal.Launch
import proofs.«181089_j2508260901282_2_alg».proof.Proof.Gen.KernelIdeal.Skeleton
import proofs.«181089_j2508260901282_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The x window's staging buffer holds the x block of the point when the body starts, for any proof data
    whose array is `V`'s and whose body leaves the block where it found it. -/
theorem before2_0_of {c : Dev nD} (dat : Dat τ (Elt F) Unit ℕ (UR sig nD τ) ℕ cfg2 c)
    (hA : dat.A 0 = V c (Pipeline.arrRef spec2 0))
    (hafter : ∀ t, dat.after 0 t = iblk2 V c 0 t) (t : Fin cfg2.N) (d) :
    dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- The weight window's staging buffer holds the weight at every point, though it is transferred at the first
    point only: its block index never moves, so the buffer still holds what the first transfer put there. -/
theorem before2_1_of {c : Dev nD} (dat : Dat τ (Elt F) Unit ℕ (UR sig nD τ) ℕ cfg2 c)
    (hA : dat.A 1 = V c (Pipeline.arrRef spec2 1))
    (hafter : ∀ t, dat.after 1 t = iblk2 V c 1 t) (t : Fin cfg2.N) (d) :
    dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-! ## The body's accesses -/

/-- The one rectangle the body reads and writes through: the whole [1024,1024] buffer. -/
abbrev r2_0 : Rect S1024x1024 := Rect.unit (s := S1024x1024) ![0, 0] S1024x1024.size inb_S1024x1024_S1024x1024_0_0

/-! ## What the body leaves in the output window's buffer -/

/-- The output's staging buffer after the body, from the x block `x0` and the weight `x1`: the body's single
    store, of the rounded product of the two blocks read whole. -/
def out2_2 (x0 x1 : Vec F S1024x1024 .f32) : Vec F S1024x1024 .bf16 :=
  View.canon [⟨r2_0, k2_pay1 (View.ld x0 r2_0) (View.ld x1 r2_0)⟩]

/-- The single store is the whole buffer, so it covers it. -/
theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

/-! ## The body's triple -/

set_option maxHeartbeats 1000000 in
/-- The body on whole staging memrefs — the inputs' at read contents `x0`, `x1`, the output's at anything —
    runs to the continuation with the inputs' as they were and the output's at `out2_2 x0 x1`. The body also
    loads the output buffer before storing it; the loaded value is not used, and the store covers the buffer,
    so what it held does not matter. -/
theorem sound_kernel2 (c : Dev nD) (E : Set ℕ) (i : grid2.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them (`V`); after the
    body at point `t` each input's buffer still at its block and the output's at `out2_2` of the two input
    blocks; the invariant the class's (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.FrameMM4.lean ====
/-
  Region 4 of @main: the output projection y = x·Woᵀ + b as one pipelined kernel over 8 row blocks.

  The region's class-A half at a parameter `V` — the TensorCore's buffer contents when the region is
  entered —, generic in the float reading `F`:

  * `iblk4`: a window's block at a grid point, read off its array as `V` holds it;
  * `out4_3`: what the body leaves in the output's staging buffer, as a function of the three input
    blocks — its single store, which covers the whole buffer;
  * `sound_kernel4`: the body's triple on whole staging memrefs;
  * `dat4`: the pipeline's proof data (arrays at `V`, inputs left in place, the output at `out4_3`);
  * `body_obligation4`: the body meets the pipeline's obligation at every grid point.

  Window 0 is the x block [1024,1024] (bf16) of the [8192,1024] array (row block = the grid point);
  window 1 the whole weight [1024,1024] and window 2 the whole bias row [1,1024] (the same block at every
  point, so each transferred once); window 3 the output block [1024,1024] (f32) of the [8192,1024] result.
-/
import proofs.«181089_j2508260901282_2_alg».proof.Proof.Gen.KernelIdeal.Launch
import proofs.«181089_j2508260901282_2_alg».proof.Proof.Gen.KernelIdeal.Skeleton
import proofs.«181089_j2508260901282_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's rectangle of its array, the array read as `V` holds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The x window's staging buffer holds the x block of the point when the body starts, for any proof data
    whose array is `V`'s and whose body leaves the block where it found it. -/
theorem before4_0_of {c : Dev nD} (dat : Dat τ (Elt F) Unit ℕ (UR sig nD τ) ℕ cfg4 c)
    (hA : dat.A 0 = V c (Pipeline.arrRef spec4 0))
    (hafter : ∀ t, dat.after 0 t = iblk4 V c 0 t) (t : Fin cfg4.N) (d) :
    dat.before 0 t d = iblk4 V c 0 t :=
  (dat.before_in_eq_fetched 0 rfl (fun _ => rfl) (fun _ _ _ => rfl)
      (fun t => by rw [hafter]; unfold Dat.blockOf iblk4; rw [hA]; try rfl) t d).trans
    (by unfold Dat.fetched Dat.blockOf iblk4; rw [hA]; try rfl)

/-- The weight window's staging buffer holds the weight at every point, though it is transferred at the first
    point only: its block index never moves, so the buffer still holds what the first transfer put there. -/
theorem before4_1_of {c : Dev nD} (dat : Dat τ (Elt F) Unit ℕ (UR sig nD τ) ℕ cfg4 c)
    (hA : dat.A 1 = V c (Pipeline.arrRef spec4 1))
    (hafter : ∀ t, dat.after 1 t = iblk4 V c 1 t) (t : Fin cfg4.N) (d) :
    dat.before 1 t d = iblk4 V c 1 t :=
  (dat.before_in_eq_fetched 1 rfl (fun _ => rfl) (fun _ _ _ => rfl)
      (fun t => by rw [hafter]; unfold Dat.blockOf iblk4; rw [hA]; try rfl) t d).trans
    (by unfold Dat.fetched Dat.blockOf iblk4; rw [hA]; try rfl)

/-- The bias window's staging buffer holds the bias row at every point, for the same reason. -/
theorem before4_2_of {c : Dev nD} (dat : Dat τ (Elt F) Unit ℕ (UR sig nD τ) ℕ cfg4 c)
    (hA : dat.A 2 = V c (Pipeline.arrRef spec4 2))
    (hafter : ∀ t, dat.after 2 t = iblk4 V c 2 t) (t : Fin cfg4.N) (d) :
    dat.before 2 t d = iblk4 V c 2 t :=
  (dat.before_in_eq_fetched 2 rfl (fun _ => rfl) (fun _ _ _ => rfl)
      (fun t => by rw [hafter]; unfold Dat.blockOf iblk4; rw [hA]; try rfl) t d).trans
    (by unfold Dat.fetched Dat.blockOf iblk4; rw [hA]; try rfl)

/-! ## The body's accesses -/

/-- The rectangle the body reads x and the weight and writes the output through: the whole [1024,1024] buffer. -/
abbrev r4_0 : Rect S1024x1024 := Rect.unit (s := S1024x1024) ![0, 0] S1024x1024.size inb_S1024x1024_S1024x1024_0_0
/-- The rectangle it reads the bias through: the whole [1,1024] row. -/
abbrev r4_1 : Rect S1x1024 := Rect.unit (s := S1x1024) ![0, 0] S1x1024.size inb_S1x1024_S1x1024_0_0

/-! ## What the body leaves in the output window's buffer -/

/-- The output's staging buffer after the body, from the x block `x0`, the weight `x1` and the bias row `x2`:
    the body's single store, of the product of the two blocks plus the bias row repeated down the rows. -/
def out4_3 (x0 : Vec F S1024x1024 .bf16) (x1 : Vec F S1024x1024 .f32) (x2 : Vec F S1x1024 .f32) : Vec F S1024x1024 .f32 :=
  View.canon [⟨r4_0, k4_pay1 (View.ld x0 r4_0) (View.ld x1 r4_0) (View.ld x2 r4_1)⟩]

/-- The single store is the whole buffer, so it covers it. -/
theorem cover4_3 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

/-! ## The body's triple -/

set_option maxHeartbeats 1000000 in
/-- The body on whole staging memrefs — the inputs' at read contents `x0`, `x1`, `x2`, the output's at
    anything — runs to the continuation with the inputs' as they were and the output's at `out4_3 x0 x1 x2`.
    The body also loads the output buffer before storing it; the loaded value is not used, and the store covers
    the buffer, so what it held does not matter. -/
theorem sound_kernel4 (c : Dev nD) (E : Set ℕ) (i : grid4.Coords)
    (arg1 : Memref sig .tc .vmem S1024x1024 .bf16) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S1024x1024 .f32) (harg4 : arg4.IsWhole)
    (x0 : Vec F S1024x1024 .bf16) (x1 : Vec F S1024x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out4_3 x0 x1 x2)) -∗ K ⟨⟩))
      ⊢ wp frame (wpE (defs₀ (F := F)) Variants.none c none) E
          (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them (`V`); after the
    body at point `t` each input's buffer still at its block and the output's at `out4_3` of the three input
    blocks; the invariant the class's (the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant
    and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) :
    BodyObligation (dat4 (F := F) V c) (defs₀ (F := F)) Variants.none () Set.univ := fun t => by
  rw [bigSep_W4, bigSep_W4]
  exact sound_body4 V c t

end Cert.KernelIdeal.Hand

end
-- ==== Proof.FrameAttnBase.lean ====
import proofs.«181089_j2508260901282_2_alg».proof.Proof.Gen.KernelIdeal.Launch
import proofs.«181089_j2508260901282_2_alg».proof.Proof.Gen.KernelIdeal.Skeleton
import proofs.«181089_j2508260901282_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The attention region: its schedule and its operands

The attention call runs over the grid (batch 4) × (head pair 8) × (key block 2), the key block
fastest. A point with key block 0 resets the three running buffers (row maxima, row sums, weighted
sums) before it absorbs its block; a point with key block 1 absorbs its block and then divides the
weighted sums by the row sums into the output block. So the body has two cases, decided by the
parity of the point's position, and the output block is written, and written back, at the odd
positions only.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window's staging buffer holds the point's query block whether or not it was fetched
    there: it is fetched at key block 0 and its block index does not move at key block 1. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key window's staging buffer holds the point's key block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The value window's staging buffer holds the point's value block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "The key block is the first": the reset is taken. -/
abbrev cond3_0 (i : grid3.Coords) : Prop := (Scalar.cmpi .ne (Scalar.extui (Scalar.cmpi .eq (BitVec.ofNat 32 (i 2).val) 0#32)) 0#32) = 1#1
/-- It holds at the even positions. -/
theorem hcond3_0 : ∀ t : Fin cfg3.N, cond3_0 (grid3.coords t) ↔ t.val % 2 = 0 :=
  (by decide +kernel : ∀ t : Fin grid3.N, cond3_0 (grid3.coords t) ↔ t.val % 2 = 0)

/-- "The key block is the last": the normalisation and the output store are taken. -/
abbrev cond3_1 (i : grid3.Coords) : Prop := k3_cond2 i = 1#1
/-- It holds at the odd positions. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At key block 0 the output window is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- At key block 1 the output window is live. -/
theorem liveAt3_3_B : ∀ t : Fin cfg3.N, ¬cond3_0 (grid3.coords t) → cond3_1 (grid3.coords t) → cfg3.idle 3 (grid3.coords t) = false := by decide +kernel

/-! ## The staging and scratch memrefs -/

/-- One staging buffer of the output window, through which its contents are stated. -/
abbrev VO3_3 : View sig .tc .vmem S1x2048x128 .bf16 := (Memref.whole cc3_stg3_0 : Memref sig .tc .vmem S1x2048x128 .bf16).view
abbrev ms3_0 (t : Fin cfg3.N) : Memref sig .tc .vmem S1x2048x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x128 .bf16 := win3_3.stage (cfg3.slots t 3)
abbrev hs3_3 (t : Fin cfg3.N) : (ms3_3 t).IsWhole := hstage3_3 ((cfg3.slots t 3).cast nbuf3_3)
/-- The running row maxima, one column per head of the pair. -/
abbrev scM3_0 : Memref sig .tc .vmem S2048x2 .f32 := Memref.whole cc3_scratch0
/-- The running row sums. -/
abbrev scM3_1 : Memref sig .tc .vmem S2048x2 .f32 := Memref.whole cc3_scratch1
/-- The running weighted sums, 64 columns per head. -/
abbrev scM3_2 : Memref sig .tc .vmem S2048x128 .f32 := Memref.whole cc3_scratch2
abbrev VS3_0 : View sig .tc .vmem S2048x2 .f32 := scM3_0.view
abbrev VS3_1 : View sig .tc .vmem S2048x2 .f32 := scM3_1.view
abbrev VS3_2 : View sig .tc .vmem S2048x128 .f32 := scM3_2.view

/-- The scoped buffers of the other calls, untouched by this region. -/
abbrev others3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's resting invariant with the three running buffers as memrefs owned at some contents. -/
theorem PhiA3_eq (c : Dev nD) :
    (Pipeline.ΦA spec3 c : sProp 𝕄)
      = iprop(iprop(((∃ d, owns (c : Thread nD τ) scM3_0 fullShare d) ∗ (∃ d, owns (c : Thread nD τ) scM3_1 fullShare d) ∗ (∃ d, owns (c : Thread nD τ) scM3_2 fullShare d)) ∗ others3 c) ∗ (∃ r, prngReg c r)) := by
  unfold Pipeline.ΦA
  rw [Pipeline.scopedRest_split_of_list spec3 c [cc3_scratch0, cc3_scratch1, cc3_scratch2] (by decide) (by decide)]
  simp only [scM3_0, scM3_1, scM3_2, owns_whole, bigSepL]
  try rfl

end Cert.KernelIdeal.Hand

end
-- ==== Proof.FrameAttnRunA.lean ====
import proofs.«181089_j2508260901282_2_alg».proof.Proof.FrameAttnBase

/-!
# The attention body at key block 0

The three running buffers are overwritten whole (−∞, 0, 0) before anything reads them, so they may
hold anything on entry; the output block is not touched. What the stores leave in each running
buffer is recorded as a list of pieces, last store first.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three running buffers at key block 0, with the proof
    that from the three input blocks held whole, the output's buffer at any contents (handed back
    untouched) and the running buffers at anything, the body runs to its return. -/
noncomputable def kernelRun3_A (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) :
    Σ' (LS0 : List (View.Piece (Elt F) S2048x2 .f32)) (LS1 : List (View.Piece (Elt F) S2048x2 .f32)), { LS2 : List (View.Piece (Elt F) S2048x128 .f32) //
      ∀ (xi3 : Vec F S1x2048x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, fun xi3 E K => ?run⟩
  case run =>
    simp only [cc3__attn_kernel_eq_skeleton]; unfold cc3__attn_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FrameAttnRunB.lean ====
import proofs.«181089_j2508260901282_2_alg».proof.Proof.FrameAttnBase

/-!
# The attention body at key block 1

The running buffers hold what key block 0 left; the body absorbs the second key block into them
and then stores the normalised weighted sums, both heads side by side, into the output block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three running buffers at key
    block 1, with the proof that from the input blocks held whole, the output's buffer at anything
    and the running buffers at `xs0`, `xs1`, `xs2`, the body runs to its return. -/
noncomputable def kernelRun3_B (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) :
    Σ' (L3 : List (View.Piece (Elt F) S1x2048x128 .bf16)) (LS0 : List (View.Piece (Elt F) S2048x2 .f32)) (LS1 : List (View.Piece (Elt F) S2048x2 .f32)), { LS2 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FrameAttn.lean ====
import proofs.«181089_j2508260901282_2_alg».proof.Proof.FrameAttnRunA
import proofs.«181089_j2508260901282_2_alg».proof.Proof.FrameAttnRunB

/-!
# The attention region: what its buffers hold point by point, and its body obligation

After the body at a position the three running buffers hold what that position's case leaves in
them; at an odd position the case starts from what the even position before it left. The output
block is written at the odd positions. The region's invariant carries the running buffers at
these contents from one position to the next.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At key block 0 nothing is stored into the output block: a placeholder nothing consults (the
    window is idle there and not written back). -/
def out3_A_3 : Vec F S1x2048x128 .bf16 :=
  VO3_3.read (Elt F) (VO3_3.writes (Elt F) VO3_3.junk [])

theorem scover3_A_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x2.Idx) :
    ∃ pc ∈ (kernelRun3_A c i arg3 harg3 arg4 harg4 arg5 harg5 arg6 harg6 arg7 harg7 arg8 harg8 arg9 harg9 hc0 hc1 x0 x1 x2).1, y ∈ pc.1.set :=
  View.cover_of_tiledL (kernelRun3_A c i arg3 harg3 arg4 harg4 arg5 harg5 arg6 harg6 arg7 harg7 arg8 harg8 arg9 harg9 hc0 hc1 x0 x1 x2).1 S2048x1.size (by sl_kernel_rfl) y
theorem scover3_A_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x2.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S2048x1.size (by sl_kernel_rfl) y
theorem scover3_A_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) (y : S2048x128.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S2048x64.size (by sl_kernel_rfl) y

/-- The row maxima after key block 0. -/
def sout3_A_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x2 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).1)
/-- The row sums after key block 0. -/
def sout3_A_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x2 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.1)
/-- The weighted sums after key block 0. -/
def sout3_A_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec F S1x2048x128 .bf16) (x1 : Vec F S1x1024x128 .bf16) (x2 : Vec F S1x1024x128 .bf16) : Vec F S2048x128 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.1)

theorem cover3_B_3 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S1x2048x128.Idx) :
    ∃ pc ∈ (kernelRun3_B c i arg3 harg3 arg4 harg4 arg5 harg5 arg6 harg6 arg7 harg7 arg8 harg8 arg9 harg9 hc0 hc1 x0 x1 x2 xs0 xs1 xs2).1, y ∈ pc.1.set :=
  View.cover_of_tiledL (kernelRun3_B c i arg3 harg3 arg4 harg4 arg5 harg5 arg6 harg6 arg7 harg7 arg8 harg8 arg9 harg9 hc0 hc1 x0 x1 x2 xs0 xs1 xs2).1 S1x2048x128.size (by sl_kernel_rfl) y
theorem scover3_B_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x2.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S2048x1.size (by sl_kernel_rfl) y
theorem scover3_B_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x2.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S2048x1.size (by sl_kernel_rfl) y
theorem scover3_B_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) (y : S2048x128.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S2048x64.size (by sl_kernel_rfl) y

/-- The output block after key block 1. -/
def out3_B_3 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S1x2048x128 .bf16 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)
/-- The row maxima after key block 1. -/
def sout3_B_0 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x2 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)
/-- The row sums after key block 1. -/
def sout3_B_1 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x2 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)
/-- The weighted sums after key block 1. -/
def sout3_B_2 (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec F S1x2048x128 .bf16) (x1 : Vec F S1x1024x128 .bf16) (x2 : Vec F S1x1024x128 .bf16)
    (xs0 : Vec F S2048x2 .f32) (xs1 : Vec F S2048x2 .f32) (xs2 : Vec F S2048x128 .f32) : Vec F S2048x128 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

/-! ## What the buffers hold after each position -/

/-- The output block and the three running buffers after the body at position `n`: an even
    position's case from scratch, an odd position's case over what position `n − 1` left. -/
def outsAt3 (c : Dev nD) : (n : ℕ) → n < cfg3.N → Vec F S1x2048x128 .bf16 × Vec F S2048x2 .f32 × Vec F S2048x2 .f32 × Vec F S2048x128 .f32
  | 0, hn =>
    have h0 : (⟨0, hn⟩ : Fin cfg3.N).val % 2 = 0 := Nat.zero_mod _
    have h1 : ¬(⟨0, hn⟩ : Fin cfg3.N).val % 2 = 1 := by (try dsimp only); omega
    (out3_A_3 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      have h1 : ¬(n + 1) % 2 = 1 := by omega
      (out3_A_3 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      have h1 : (n + 1) % 2 = 1 := by omega
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at an even position. -/
theorem outsAt3_A (c : Dev nD) (t : Fin cfg3.N) (h0 : t.val % 2 = 0) (h1 : ¬t.val % 2 = 1) :
    outsAt3 V c t.val t.isLt = (out3_A_3 (F := F), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

/-- `outsAt3` at an odd position: over what the position before left. -/
theorem outsAt3_B (c : Dev nD) (t : Fin cfg3.N) (h0 : ¬t.val % 2 = 0) (h1 : t.val % 2 = 1) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before the first position the region's resting invariant; before position `n + 1` the three
    running buffers at what position `n` left, the other calls' buffers and the generator register
    untouched. -/
def PhiS3 (c : Dev nD) : (n : ℕ) → n ≤ cfg3.N → sProp 𝕄
  | 0, _ => Pipeline.ΦA spec3 c
  | n + 1, hn => iprop(iprop((owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ others3 c) ∗ (∃ r, prngReg c r)) := rfl

theorem PhiS3_pos (c : Dev nD) (n : ℕ) (h : n ≤ cfg3.N) (hz : n ≠ 0) :
    PhiS3 V c n h = iprop(iprop((owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ others3 c) ∗ (∃ r, prngReg c r)) := by
  cases n with
  | zero => exact absurd rfl hz
  | succ n => rfl

/-! ## The region's proof data -/

/-- The arrays as the region finds them; after the body each input's buffer at its block and the
    output's at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.KernelIdeal.Hand

end
-- ==== Proof.FrameAttnBody.lean ====
import proofs.«181089_j2508260901282_2_alg».proof.Proof.FrameAttn

/-!
# The attention region: the body obligation

At every position the body is handed the three input blocks, the output's buffer and the invariant;
the parity of the position says which case runs; the invariant hands it the running buffers (at
anything before an even position's reset, at the previous position's contents before an odd one)
and takes them back at this position's contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at position `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any position. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hoth⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover3_A_0 _ _ _ _ _ _ _ _ _ _ _ _ _ _ _ _ _ _ _ _ _)
            isplitl [HS1]
            · unfold owns; iexists _; isplitr
              swap; · iexact HS1
              ipureintro; exact View.read_writes_of_cover _ _ _ _ _ (scover3_A_1 _ _ _ _ _ _ _ _ _ _ _ _ _ _ _ _ _ _ _ _ _)
            · unfold owns; iexists _; isplitr
              swap; · iexact HS2
              ipureintro; exact View.read_writes_of_cover _ _ _ _ _ (scover3_A_2 _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover3_A_0 _ _ _ _ _ _ _ _ _ _ _ _ _ _ _ _ _ _ _ _ _)
            isplitl [HS1]
            · unfold owns; iexists _; isplitr
              swap; · iexact HS1
              ipureintro; exact View.read_writes_of_cover _ _ _ _ _ (scover3_A_1 _ _ _ _ _ _ _ _ _ _ _ _ _ _ _ _ _ _ _ _ _)
            · unfold owns; iexists _; isplitr
              swap; · iexact HS2
              ipureintro; exact View.read_writes_of_cover _ _ _ _ _ (scover3_A_2 _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B_3 sout3_B_0 sout3_B_1 sout3_B_2; (try dsimp only)
    have hz : t.val ≠ 0 := by omega
    rw [PhiS3_castSucc V c t, PhiS3_pos V c _ _ hz]
    iintro ⟨⟨⟨⟨HS0, HS1, HS2⟩, Hoth⟩, Hg⟩, Ho, ⟨%d0, H0⟩, ⟨%d1, H1⟩, ⟨%d2, H2⟩, ⟨%d3, H3⟩⟩
    iapply ((kernelRun3_B c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hoth Hg]
    · isplitl [HS0 HS1 HS2 Hoth]
      · isplitl [HS0 HS1 HS2]
        · isplitl [HS0]
          · unfold owns; iexists _; isplitr
            swap; · iexact HS0
            ipureintro; exact View.read_writes_of_cover _ _ _ _ _ (scover3_B_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 _ _ _ _ _ _ _ _ _ _ _ _ _ _ _ _ _ _ _ _ _ _ _ _)
          · unfold owns; iexists _; isplitr
            swap; · iexact HS2
            ipureintro; exact View.read_writes_of_cover _ _ _ _ _ (scover3_B_2 _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 _ _ _ _ _ _ _ _ _ _ _ _ _ _ _ _ _ _ _ _ _ _ _ _)

/-- The library's body obligation, at every position. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first position. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives the resting invariant back: the running
    buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

/-- The same after the last position. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.FrameRun.lean ====
import proofs.«181089_j2508260901282_2_alg».proof.Proof.FrameMM0
import proofs.«181089_j2508260901282_2_alg».proof.Proof.FrameMM1
import proofs.«181089_j2508260901282_2_alg».proof.Proof.FrameMM2
import proofs.«181089_j2508260901282_2_alg».proof.Proof.FrameMM4
import proofs.«181089_j2508260901282_2_alg».proof.Proof.FrameAttnBody
import proofs.«181089_j2508260901282_2_alg».proof.Proof.Gen.KernelIdeal.Regions
import Idealize.ShloMosaic.Lib.Pipeline.RegionsLoop

/-!
# The whole run: host lines and the five regions in order

The contents of the unscoped buffers are followed through @main as a fold from the launch memory: a
stretch of host lines applies its operations; a region replaces its arrays by what its write-backs
leave and keeps every other buffer. No item writes an argument array. The run ends with every
unscoped buffer at the last stage of the fold.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host lines `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no OUTPUT array of region 0 leaves it as it entered: an input array is handed back as found. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (U1 m ρ) c).arrAt_in w (hb w rfl) _).trans (A_eq0 (U1 m ρ) c w))
  · exact W2_of_ne m ρ c b fun w e => h ⟨w, e⟩

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- A buffer that is no OUTPUT array of region 1 leaves it as it entered: an input array is handed back as found. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (U2 m ρ) c).arrAt_in w (hb w rfl) _).trans (A_eq1 (U2 m ρ) c w))
  · exact W3_of_ne m ρ c b fun w e => h ⟨w, e⟩

/-- At region 2's exit: its arrays at what the pipeline leaves, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- A buffer that is no OUTPUT array of region 2 leaves it as it entered: an input array is handed back as found. -/
theorem W4_keep (c : Dev nD) (b : Ref sig .tc) (hb : ∀ w, Pipeline.arrRef spec2 w = b → (cfg2.win w).isOut = false) :
    W4 m ρ c (Proc.devRef .tc b) = W3 m ρ c (Proc.devRef .tc b) := by
  by_cases h : ∃ w, Pipeline.arrRef spec2 w = b
  · obtain ⟨w, rfl⟩ := h
    exact (W4_arr m ρ c w).trans (((dat2 (U3 m ρ) c).arrAt_in w (hb w rfl) _).trans (A_eq2 (U3 m ρ) c w))
  · exact W4_of_ne m ρ c b fun w e => h ⟨w, e⟩

/-- After the host lines `hostOps3`. -/
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b
theorem W5_keep (c : Dev nD) (b : Ref sig .tc) (h : b ∉ hostOps3_W) : W5 m ρ c (Proc.devRef .tc b) = W4 m ρ c (Proc.devRef .tc b) :=
  StableHlo.after_of_writes_sub hostOps3 _ hostOps3_writes h

/-- At region 3's exit: its arrays at what the pipeline leaves, every other buffer as entered. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev U6 : (c : Dev nD) → (b : Ref sig .tc) → Buf (Elt F) ((c : Thread nD τ).loc b) := fun c b => W6 m ρ c b
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)
/-- A buffer that is no OUTPUT array of region 3 leaves it as it entered: an input array is handed back as found. -/
theorem W6_keep (c : Dev nD) (b : Ref sig .tc) (hb : ∀ w, Pipeline.arrRef spec3 w = b → (cfg3.win w).isOut = false) :
    W6 m ρ c (Proc.devRef .tc b) = W5 m ρ c (Proc.devRef .tc b) := by
  by_cases h : ∃ w, Pipeline.arrRef spec3 w = b
  · obtain ⟨w, rfl⟩ := h
    exact (W6_arr m ρ c w).trans (((dat3 (U5 m ρ) c).arrAt_in w (hb w rfl) _).trans (A_eq3 (U5 m ρ) c w))
  · exact W6_of_ne m ρ c b fun w e => h ⟨w, e⟩

/-- After the host lines `hostOps4`. -/
abbrev W7 : Dev nD → Valuation τ sig (Elt F) := fun c => StableHlo.after hostOps4 (W6 m ρ c)
abbrev U7 : (c : Dev nD) → (b : Ref sig .tc) → Buf (Elt F) ((c : Thread nD τ).loc b) := fun c b => W7 m ρ c b
theorem W7_keep (c : Dev nD) (b : Ref sig .tc) (h : b ∉ hostOps4_W) : W7 m ρ c (Proc.devRef .tc b) = W6 m ρ c (Proc.devRef .tc b) :=
  StableHlo.after_of_writes_sub hostOps4 _ hostOps4_writes h

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- A buffer that is no OUTPUT array of region 4 leaves it as it entered: an input array is handed back as found. -/
theorem W8_keep (c : Dev nD) (b : Ref sig .tc) (hb : ∀ w, Pipeline.arrRef spec4 w = b → (cfg4.win w).isOut = false) :
    W8 m ρ c (Proc.devRef .tc b) = W7 m ρ c (Proc.devRef .tc b) := by
  by_cases h : ∃ w, Pipeline.arrRef spec4 w = b
  · obtain ⟨w, rfl⟩ := h
    exact (W8_arr m ρ c w).trans (((dat4 (U7 m ρ) c).arrAt_in w (hb w rfl) _).trans (A_eq4 (U7 m ρ) c w))
  · exact W8_of_ne m ρ c b fun w e => h ⟨w, e⟩

/-- After the host lines `hostOps5`. -/
abbrev W9 : Dev nD → Valuation τ sig (Elt F) := fun c => StableHlo.after hostOps5 (W8 m ρ c)
abbrev U9 : (c : Dev nD) → (b : Ref sig .tc) → Buf (Elt F) ((c : Thread nD τ).loc b) := fun c b => W9 m ρ c b
theorem W9_keep (c : Dev nD) (b : Ref sig .tc) (h : b ∉ hostOps5_W) : W9 m ρ c (Proc.devRef .tc b) = W8 m ρ c (Proc.devRef .tc b) :=
  StableHlo.after_of_writes_sub hostOps5 _ hostOps5_writes h

/-! ## No item writes an argument -/

theorem W9_main_arg0 (c : Dev nD) : W9 m ρ c (Proc.devRef .tc main_arg0) = m ((c : Thread nD τ).loc main_arg0) :=
  (W9_keep m ρ c main_arg0 (by decide)).trans <| (W8_keep m ρ c main_arg0 (by decide)).trans <| (W7_keep m ρ c main_arg0 (by decide)).trans <|
  (W6_keep m ρ c main_arg0 (by decide)).trans <| (W5_keep m ρ c main_arg0 (by decide)).trans <| (W4_keep m ρ c main_arg0 (by decide)).trans <|
  (W3_keep m ρ c main_arg0 (by decide)).trans <| (W2_keep m ρ c main_arg0 (by decide)).trans <| (W1_keep m ρ c main_arg0 (by decide)).trans rfl

theorem W9_main_arg1 (c : Dev nD) : W9 m ρ c (Proc.devRef .tc main_arg1) = m ((c : Thread nD τ).loc main_arg1) :=
  (W9_keep m ρ c main_arg1 (by decide)).trans <| (W8_keep m ρ c main_arg1 (by decide)).trans <| (W7_keep m ρ c main_arg1 (by decide)).trans <|
  (W6_keep m ρ c main_arg1 (by decide)).trans <| (W5_keep m ρ c main_arg1 (by decide)).trans <| (W4_keep m ρ c main_arg1 (by decide)).trans <|
  (W3_keep m ρ c main_arg1 (by decide)).trans <| (W2_keep m ρ c main_arg1 (by decide)).trans <| (W1_keep m ρ c main_arg1 (by decide)).trans rfl

theorem W9_main_arg2 (c : Dev nD) : W9 m ρ c (Proc.devRef .tc main_arg2) = m ((c : Thread nD τ).loc main_arg2) :=
  (W9_keep m ρ c main_arg2 (by decide)).trans <| (W8_keep m ρ c main_arg2 (by decide)).trans <| (W7_keep m ρ c main_arg2 (by decide)).trans <|
  (W6_keep m ρ c main_arg2 (by decide)).trans <| (W5_keep m ρ c main_arg2 (by decide)).trans <| (W4_keep m ρ c main_arg2 (by decide)).trans <|
  (W3_keep m ρ c main_arg2 (by decide)).trans <| (W2_keep m ρ c main_arg2 (by decide)).trans <| (W1_keep m ρ c main_arg2 (by decide)).trans rfl

theorem W9_main_arg3 (c : Dev nD) : W9 m ρ c (Proc.devRef .tc main_arg3) = m ((c : Thread nD τ).loc main_arg3) :=
  (W9_keep m ρ c main_arg3 (by decide)).trans <| (W8_keep m ρ c main_arg3 (by decide)).trans <| (W7_keep m ρ c main_arg3 (by decide)).trans <|
  (W6_keep m ρ c main_arg3 (by decide)).trans <| (W5_keep m ρ c main_arg3 (by decide)).trans <| (W4_keep m ρ c main_arg3 (by decide)).trans <|
  (W3_keep m ρ c main_arg3 (by decide)).trans <| (W2_keep m ρ c main_arg3 (by decide)).trans <| (W1_keep m ρ c main_arg3 (by decide)).trans rfl

theorem W9_main_arg4 (c : Dev nD) : W9 m ρ c (Proc.devRef .tc main_arg4) = m ((c : Thread nD τ).loc main_arg4) :=
  (W9_keep m ρ c main_arg4 (by decide)).trans <| (W8_keep m ρ c main_arg4 (by decide)).trans <| (W7_keep m ρ c main_arg4 (by decide)).trans <|
  (W6_keep m ρ c main_arg4 (by decide)).trans <| (W5_keep m ρ c main_arg4 (by decide)).trans <| (W4_keep m ρ c main_arg4 (by decide)).trans <|
  (W3_keep m ρ c main_arg4 (by decide)).trans <| (W2_keep m ρ c main_arg4 (by decide)).trans <| (W1_keep m ρ c main_arg4 (by decide)).trans rfl

theorem W9_main_arg5 (c : Dev nD) : W9 m ρ c (Proc.devRef .tc main_arg5) = m ((c : Thread nD τ).loc main_arg5) :=
  (W9_keep m ρ c main_arg5 (by decide)).trans <| (W8_keep m ρ c main_arg5 (by decide)).trans <| (W7_keep m ρ c main_arg5 (by decide)).trans <|
  (W6_keep m ρ c main_arg5 (by decide)).trans <| (W5_keep m ρ c main_arg5 (by decide)).trans <| (W4_keep m ρ c main_arg5 (by decide)).trans <|
  (W3_keep m ρ c main_arg5 (by decide)).trans <| (W2_keep m ρ c main_arg5 (by decide)).trans <| (W1_keep m ρ c main_arg5 (by decide)).trans rfl

theorem W9_main_arg6 (c : Dev nD) : W9 m ρ c (Proc.devRef .tc main_arg6) = m ((c : Thread nD τ).loc main_arg6) :=
  (W9_keep m ρ c main_arg6 (by decide)).trans <| (W8_keep m ρ c main_arg6 (by decide)).trans <| (W7_keep m ρ c main_arg6 (by decide)).trans <|
  (W6_keep m ρ c main_arg6 (by decide)).trans <| (W5_keep m ρ c main_arg6 (by decide)).trans <| (W4_keep m ρ c main_arg6 (by decide)).trans <|
  (W3_keep m ρ c main_arg6 (by decide)).trans <| (W2_keep m ρ c main_arg6 (by decide)).trans <| (W1_keep m ρ c main_arg6 (by decide)).trans rfl

theorem W9_main_arg7 (c : Dev nD) : W9 m ρ c (Proc.devRef .tc main_arg7) = m ((c : Thread nD τ).loc main_arg7) :=
  (W9_keep m ρ c main_arg7 (by decide)).trans <| (W8_keep m ρ c main_arg7 (by decide)).trans <| (W7_keep m ρ c main_arg7 (by decide)).trans <|
  (W6_keep m ρ c main_arg7 (by decide)).trans <| (W5_keep m ρ c main_arg7 (by decide)).trans <| (W4_keep m ρ c main_arg7 (by decide)).trans <|
  (W3_keep m ρ c main_arg7 (by decide)).trans <| (W2_keep m ρ c main_arg7 (by decide)).trans <| (W1_keep m ρ c main_arg7 (by decide)).trans rfl

/-! ## The proof data family and the thread state -/

abbrev admH : (p : Fin 5) → (pcfgs (F := F) p).Adm := fun p => (cfgs p).toPCfg_adm
/-- Every region's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U5 m ρ) c
  | ⟨4, _⟩ => fun c => dat4 (U7 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its
    arrays are split out of the unscoped buffers and put back at what the write-backs leave; the generator
    register goes into the region's invariant and comes back; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its
    arrays are split out of the unscoped buffers and put back at what the write-backs leave; the generator
    register goes into the region's invariant and comes back; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its
    arrays are split out of the unscoped buffers and put back at what the write-backs leave; the generator
    register goes into the region's invariant and comes back; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ LH lvH 2 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U3 m ρ c) (U4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its
    arrays are split out of the unscoped buffers and put back at what the write-backs leave; the generator
    register goes into the region's invariant and comes back; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (U5 m ρ) c)
    unfold Pipeline.ΦA
    iintro ⟨Hp, -, Hr⟩
    isplitl [Hr]; · iexact Hr
    iexact Hp
  hout c := by
    rw [Pipeline.ownSems0_none]
    refine BIBase.Entails.trans (hout3 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U5 m ρ c) (U6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. Its
    arrays are split out of the unscoped buffers and put back at what the write-backs leave; the generator
    register goes into the region's invariant and comes back; nothing is owed. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U7 m ρ c) (U8 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ 𝒱H LH lvH) :=
  [ .host (hsegH hostOps0 hostOps0_sub hostOps0_fresh (W0 m ρ)),
    .region (reg0 m ρ), .region (reg1 m ρ), .region (reg2 m ρ),
    .host (hsegH hostOps3 hostOps3_sub hostOps3_fresh (W4 m ρ)),
    .region (reg3 m ρ),
    .host (hsegH hostOps4 hostOps4_sub hostOps4_fresh (W6 m ρ)),
    .region (reg4 m ρ),
    .host (hsegH hostOps5 hostOps5_sub hostOps5_fresh (W8 m ρ)) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and every final state holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ RH c) ⊢ iprop(TnH m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_ucH main_arg0 (by decide))).trans (W9_main_arg0 m ρ c),
    (h c _ (mem_ucH main_arg1 (by decide))).trans (W9_main_arg1 m ρ c),
    (h c _ (mem_ucH main_arg2 (by decide))).trans (W9_main_arg2 m ρ c),
    (h c _ (mem_ucH main_arg3 (by decide))).trans (W9_main_arg3 m ρ c),
    (h c _ (mem_ucH main_arg4 (by decide))).trans (W9_main_arg4 m ρ c),
    (h c _ (mem_ucH main_arg5 (by decide))).trans (W9_main_arg5 m ρ c),
    (h c _ (mem_ucH main_arg6 (by decide))).trans (W9_main_arg6 m ρ c),
    (h c _ (mem_ucH main_arg7 (by decide))).trans (W9_main_arg7 m ρ c)⟩) (run_all m ρ)

/-- The run with the result buffer named: it ends at the last stage of the fold, the arguments as launched. -/
theorem run_result : θ_run defs (onTc (τ := τ) (main (F := F))) ⟨m, fun _ => 0, ρ⟩ (fun r => ∀ c : Dev nD,
      r.2.mem ((c.tc : Thread nD τ).loc main_v13) = W9 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_ucH main_v13 (by decide)), (h c _ (mem_ucH main_arg0 (by decide))).trans (W9_main_arg0 m ρ c),
    (h c _ (mem_ucH main_arg1 (by decide))).trans (W9_main_arg1 m ρ c),
    (h c _ (mem_ucH main_arg2 (by decide))).trans (W9_main_arg2 m ρ c),
    (h c _ (mem_ucH main_arg3 (by decide))).trans (W9_main_arg3 m ρ c),
    (h c _ (mem_ucH main_arg4 (by decide))).trans (W9_main_arg4 m ρ c),
    (h c _ (mem_ucH main_arg5 (by decide))).trans (W9_main_arg5 m ρ c),
    (h c _ (mem_ucH main_arg6 (by decide))).trans (W9_main_arg6 m ρ c),
    (h c _ (mem_ucH main_arg7 (by decide))).trans (W9_main_arg7 m ρ c)⟩) (run_all m ρ)

end Cert.KernelIdeal.Hand

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.ValueMM0.lean ====
/-
  Region 0 of @main, read on the extended reals: after the region the result array holds, at row r and
  column n, the sum over k of x(r, k) · W(n, k) — the projection y = x·Wᵀ of the arrays as the region finds
  them.

  The steps: the body's stored value at an entry (the format changes are the identity on the extended reals and
  the matrix unit into the zero accumulator contracts the second axis of both operands); the three windows'
  block indices at a grid point (x and the output move with the point down the rows, the weight stays); what
  a point writes back is its row block of the projection; the eight row blocks cover the result array.
-/
import proofs.«181089_j2508260901282_2_alg».proof.Proof.FrameMM0
import proofs.«181089_j2508260901282_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))
/-! ## The stored value at an entry -/

/-- Entry (p, q) of what the body stores: the sum over k of lhs(p, k) · rhs(q, k). -/
theorem pay0_apply (x0 x1 : Vec Ideal S1024x1024 .f32) (p q : Fin 1024) :
    k0_pay1 x0 x1 (ix2 p q) = ∑ k : Fin 1024, x0 (ix2 p k) * x1 (ix2 q k) := by
  unfold k0_pay1
  simp only [shapeCast_self]
  rw [truncf_apply]
  exact RowOps.matmulT_zero_apply (φ₁ := .bf16) (φ₂ := .bf16) dot_S1024x1024_S1024x1024_S1024x1024_1_1_0_0_n_n none rfl rfl
    (fun _ _ => rfl) (fun _ _ => rfl) (fun _ _ => rfl) (fun _ _ => rfl)
    (truncf .bf16 x0 bitsLt_bf16_f32) (truncf .bf16 x1 bitsLt_bf16_f32) p q

/-! ## The windows' block indices -/

/-- At grid point `t`: x's block and the output's block are row block `t`, column block 0; the weight's block
    is always block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's rectangle starts at the origin. -/
theorem origin0 : (![0, 0] : Fin 2 → Nat) = fun _ => 0 := funext fun a => by fin_cases a <;> rfl

/-! ## The projection -/

/-- The projection of an [8192,1024] array `x` by a [1024,1024] weight `w`, index by index:
    entry (r, n) is the sum over k of x(r, k) · w(n, k). -/
def proj0 (x : S8192x1024.Idx → Elt Ideal .f32) (w : S1024x1024.Idx → Elt Ideal .f32) : S8192x1024.Idx → Elt Ideal .bf16 :=
  fun i => ∑ k : Fin 1024, x (ix2 (i 0) k) * w (ix2 (i 1) k)

/-- `proj0` at an index. -/
theorem proj0_apply (x : S8192x1024.Idx → Elt Ideal .f32) (w : S1024x1024.Idx → Elt Ideal .f32) (i : S8192x1024.Idx) :
    proj0 x w i = ∑ k : Fin 1024, x (ix2 (i 0) k) * w (ix2 (i 1) k) := rfl

/-- The stored value at block entry (p, q) is the projection at array index `i`, when row p of the x block is
    row `i 0` of `x` and row q of the weight block is row `i 1` of `w`. -/
theorem pay0_read (x : S8192x1024.Idx → Elt Ideal .f32) (w : S1024x1024.Idx → Elt Ideal .f32)
    (x0 x1 : Vec Ideal S1024x1024 .f32) (p q : Fin 1024) (i : S8192x1024.Idx)
    (hx : ∀ k : Fin 1024, x0 (ix2 p k) = x (ix2 (i 0) k))
    (hw : ∀ k : Fin 1024, x1 (ix2 q k) = w (ix2 (i 1) k)) :
    k0_pay1 x0 x1 (ix2 p q) = proj0 x w i := by
  rw [pay0_apply]
  unfold proj0
  exact Finset.sum_congr rfl fun k _ => by rw [hx k, hw k]

/-! ## What a point writes back -/

/-- What point `t` writes back is row block `t` of the projection of the arrays as the region finds them: a
    block's coordinate in its array is block index × 1024 + the coordinate inside the block. -/
theorem flushed0_eq (c : Dev nD) (t : Fin cfg0.N) :
    (dat0 V c).flushed 2 t = ((cfg0.win 2).blk t).view.read (Elt Ideal) (proj0 (V c main_v0) (V c main_arg3)) := by
  show (cfg0.win 2).cut (grid0.coords t) ((dat0 V c).after 2 t) = _
  rw [after0_2]
  unfold out0_2
  rw [View.canon_unit_zero origin0]
  simp only [View.ld_unit_zero (S := S1024x1024) origin0]
  obtain ⟨e0, e1, e2, e3, e4, e5⟩ := idx_facts0 t
  funext j
  have h0 : (j 0).val < 1024 := (j 0).isLt
  have h1 : (j 1).val < 1024 := (j 1).isLt
  have hy : (win0 2).xinj (grid0.coords t) j = ix2 (⟨(j 0).val, h0⟩ : Fin 1024) (⟨(j 1).val, h1⟩ : Fin 1024) := by
    funext a
    match a with
    | ⟨0, _⟩ => rfl
    | ⟨1, _⟩ => rfl
  refine (congrArg (k0_pay1 (iblk0 V c 0 t) (iblk0 V c 1 t)) hy).trans ?_
  refine pay0_read (V c main_v0) (V c main_arg3) (iblk0 V c 0 t) (iblk0 V c 1 t)
    ⟨(j 0).val, h0⟩ ⟨(j 1).val, h1⟩ (((cfg0.win 2).blk t).view.emb j) (fun k => ?_) (fun k => ?_)
  · show V c main_v0 (((cfg0.win 0).blk t).view.emb (ix2 _ k)) = V c main_v0 _
    refine congrArg (V c main_v0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · show V c main_arg3 (((cfg0.win 1).blk t).view.emb (ix2 _ k)) = V c main_arg3 _
    refine congrArg (V c main_arg3) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * k.val = k.val; omega

/-! ## The blocks cover the result array -/

/-- An index of the result array is in point `t`'s output block iff each coordinate is in the block's range. -/
theorem mem_blk0 (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the result array is in the output block of the point its row names: row `r` is written
    back at point `r / 1024`. -/
theorem cover0 (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have ht : (i 0).val / 1024 < grid0.N := by rw [N_0]; omega
  refine ⟨⟨(i 0).val / 1024, ht⟩, flush0_2 _, ?_⟩
  rw [mem_blk0]
  obtain ⟨-, -, -, -, e4, e5⟩ := idx_facts0 ⟨(i 0).val / 1024, ht⟩
  have e4' : win0_2.index ⟨(i 0).val / 1024, ht⟩ (0 : Fin 2) = (i 0).val / 1024 := e4
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    omega

/-! ## The result array after the region -/

/-- The result array after the region is the projection of the region-entry arrays, index by index. -/
theorem final0 (c : Dev nD) :
    (dat0 (F := Ideal) V c).arrAt 2 cfg0.N = proj0 (V c main_v0) (V c main_arg3) :=
  (dat0 V c).arrAt_eq_of_cover 2 (proj0 (V c main_v0) (V c main_arg3)) (fun t _ => flushed0_eq V c t) cover0

end Cert.KernelIdeal.Hand

end
-- ==== Proof.ValueMM1.lean ====
/-
  Region 1 of @main, read on the extended reals: after the region the result array holds, at row r and
  column n, the sum over k of x(r, k) · W(n, k) — the projection y = x·Wᵀ of the arrays as the region finds
  them.

  The steps: the body's stored value at an entry (the format changes are the identity on the extended reals and
  the matrix unit into the zero accumulator contracts the second axis of both operands); the three windows'
  block indices at a grid point (x and the output move with the point down the rows, the weight stays); what
  a point writes back is its row block of the projection; the eight row blocks cover the result array.
-/
import proofs.«181089_j2508260901282_2_alg».proof.Proof.FrameMM1
import proofs.«181089_j2508260901282_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))
/-! ## The stored value at an entry -/

/-- Entry (p, q) of what the body stores: the sum over k of lhs(p, k) · rhs(q, k). -/
theorem pay1_apply (x0 x1 : Vec Ideal S1024x1024 .f32) (p q : Fin 1024) :
    k1_pay1 x0 x1 (ix2 p q) = ∑ k : Fin 1024, x0 (ix2 p k) * x1 (ix2 q k) := by
  unfold k1_pay1
  simp only [shapeCast_self]
  rw [truncf_apply]
  exact RowOps.matmulT_zero_apply (φ₁ := .bf16) (φ₂ := .bf16) dot_S1024x1024_S1024x1024_S1024x1024_1_1_0_0_n_n none rfl rfl
    (fun _ _ => rfl) (fun _ _ => rfl) (fun _ _ => rfl) (fun _ _ => rfl)
    (truncf .bf16 x0 bitsLt_bf16_f32) (truncf .bf16 x1 bitsLt_bf16_f32) p q

/-! ## The windows' block indices -/

/-- At grid point `t`: x's block and the output's block are row block `t`, column block 0; the weight's block
    is always block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's rectangle starts at the origin. -/
theorem origin1 : (![0, 0] : Fin 2 → Nat) = fun _ => 0 := funext fun a => by fin_cases a <;> rfl

/-! ## The projection -/

/-- The projection of an [8192,1024] array `x` by a [1024,1024] weight `w`, index by index:
    entry (r, n) is the sum over k of x(r, k) · w(n, k). -/
def proj1 (x : S8192x1024.Idx → Elt Ideal .f32) (w : S1024x1024.Idx → Elt Ideal .f32) : S8192x1024.Idx → Elt Ideal .bf16 :=
  fun i => ∑ k : Fin 1024, x (ix2 (i 0) k) * w (ix2 (i 1) k)

/-- `proj1` at an index. -/
theorem proj1_apply (x : S8192x1024.Idx → Elt Ideal .f32) (w : S1024x1024.Idx → Elt Ideal .f32) (i : S8192x1024.Idx) :
    proj1 x w i = ∑ k : Fin 1024, x (ix2 (i 0) k) * w (ix2 (i 1) k) := rfl

/-- The stored value at block entry (p, q) is the projection at array index `i`, when row p of the x block is
    row `i 0` of `x` and row q of the weight block is row `i 1` of `w`. -/
theorem pay1_read (x : S8192x1024.Idx → Elt Ideal .f32) (w : S1024x1024.Idx → Elt Ideal .f32)
    (x0 x1 : Vec Ideal S1024x1024 .f32) (p q : Fin 1024) (i : S8192x1024.Idx)
    (hx : ∀ k : Fin 1024, x0 (ix2 p k) = x (ix2 (i 0) k))
    (hw : ∀ k : Fin 1024, x1 (ix2 q k) = w (ix2 (i 1) k)) :
    k1_pay1 x0 x1 (ix2 p q) = proj1 x w i := by
  rw [pay1_apply]
  unfold proj1
  exact Finset.sum_congr rfl fun k _ => by rw [hx k, hw k]

/-! ## What a point writes back -/

/-- What point `t` writes back is row block `t` of the projection of the arrays as the region finds them: a
    block's coordinate in its array is block index × 1024 + the coordinate inside the block. -/
theorem flushed1_eq (c : Dev nD) (t : Fin cfg1.N) :
    (dat1 V c).flushed 2 t = ((cfg1.win 2).blk t).view.read (Elt Ideal) (proj1 (V c main_v1) (V c main_arg4)) := by
  show (cfg1.win 2).cut (grid1.coords t) ((dat1 V c).after 2 t) = _
  rw [after1_2]
  unfold out1_2
  rw [View.canon_unit_zero origin1]
  simp only [View.ld_unit_zero (S := S1024x1024) origin1]
  obtain ⟨e0, e1, e2, e3, e4, e5⟩ := idx_facts1 t
  funext j
  have h0 : (j 0).val < 1024 := (j 0).isLt
  have h1 : (j 1).val < 1024 := (j 1).isLt
  have hy : (win1 2).xinj (grid1.coords t) j = ix2 (⟨(j 0).val, h0⟩ : Fin 1024) (⟨(j 1).val, h1⟩ : Fin 1024) := by
    funext a
    match a with
    | ⟨0, _⟩ => rfl
    | ⟨1, _⟩ => rfl
  refine (congrArg (k1_pay1 (iblk1 V c 0 t) (iblk1 V c 1 t)) hy).trans ?_
  refine pay1_read (V c main_v1) (V c main_arg4) (iblk1 V c 0 t) (iblk1 V c 1 t)
    ⟨(j 0).val, h0⟩ ⟨(j 1).val, h1⟩ (((cfg1.win 2).blk t).view.emb j) (fun k => ?_) (fun k => ?_)
  · show V c main_v1 (((cfg1.win 0).blk t).view.emb (ix2 _ k)) = V c main_v1 _
    refine congrArg (V c main_v1) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 1024 + 1 * k.val = k.val; omega
  · show V c main_arg4 (((cfg1.win 1).blk t).view.emb (ix2 _ k)) = V c main_arg4 _
    refine congrArg (V c main_arg4) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 1024 + 1 * k.val = k.val; omega

/-! ## The blocks cover the result array -/

/-- An index of the result array is in point `t`'s output block iff each coordinate is in the block's range. -/
theorem mem_blk1 (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v4).slice (win1_2.rect t)).set ↔ _
  rw [View.set_slice_whole, Rect.mem_set_unit]
  exact Iff.rfl

/-- Every index of the result array is in the output block of the point its row names: row `r` is written
    back at point `r / 1024`. -/
theorem cover1 (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have ht : (i 0).val / 1024 < grid1.N := by rw [N_1]; omega
  refine ⟨⟨(i 0).val / 1024, ht⟩, flush1_2 _, ?_⟩
  rw [mem_blk1]
  obtain ⟨-, -, -, -, e4, e5⟩ := idx_facts1 ⟨(i 0).val / 1024, ht⟩
  have e4' : win1_2.index ⟨(i 0).val / 1024, ht⟩ (0 : Fin 2) = (i 0).val / 1024 := e4
  intro a
  match a with
  | ⟨0, _⟩ =>
    show win1_2.index ⟨(i 0).val / 1024, ht⟩ (0 : Fin 2) * 1024 ≤ (i 0).val
      ∧ (i 0).val < win1_2.index ⟨(i 0).val / 1024, ht⟩ (0 : Fin 2) * 1024 + 1024
    omega
  | ⟨1, _⟩ =>
    show win1_2.index ⟨(i 0).val / 1024, ht⟩ (1 : Fin 2) * 1024 ≤ (i 1).val
      ∧ (i 1).val < win1_2.index ⟨(i 0).val / 1024, ht⟩ (1 : Fin 2) * 1024 + 1024
    omega

/-! ## The result array after the region -/

/-- The result array after the region is the projection of the region-entry arrays, index by index. -/
theorem final1 (c : Dev nD) :
    (dat1 (F := Ideal) V c).arrAt 2 cfg1.N = proj1 (V c main_v1) (V c main_arg4) :=
  (dat1 V c).arrAt_eq_of_cover 2 (proj1 (V c main_v1) (V c main_arg4)) (fun t _ => flushed1_eq V c t) cover1

end Cert.KernelIdeal.Hand

end
-- ==== Proof.ValueMM2.lean ====
/-
  Region 2 of @main, read on the extended reals: after the region the result array holds, at row r and
  column n, the sum over k of x(r, k) · W(n, k) — the projection y = x·Wᵀ of the arrays as the region finds
  them.

  The steps: the body's stored value at an entry (the format changes are the identity on the extended reals and
  the matrix unit into the zero accumulator contracts the second axis of both operands); the three windows'
  block indices at a grid point (x and the output move with the point down the rows, the weight stays); what
  a point writes back is its row block of the projection; the eight row blocks cover the result array.
-/
import proofs.«181089_j2508260901282_2_alg».proof.Proof.FrameMM2
import proofs.«181089_j2508260901282_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))
/-! ## The stored value at an entry -/

/-- Entry (p, q) of what the body stores: the sum over k of lhs(p, k) · rhs(q, k). -/
theorem pay2_apply (x0 x1 : Vec Ideal S1024x1024 .f32) (p q : Fin 1024) :
    k2_pay1 x0 x1 (ix2 p q) = ∑ k : Fin 1024, x0 (ix2 p k) * x1 (ix2 q k) := by
  unfold k2_pay1
  simp only [shapeCast_self]
  rw [truncf_apply]
  exact RowOps.matmulT_zero_apply (φ₁ := .bf16) (φ₂ := .bf16) dot_S1024x1024_S1024x1024_S1024x1024_1_1_0_0_n_n none rfl rfl
    (fun _ _ => rfl) (fun _ _ => rfl) (fun _ _ => rfl) (fun _ _ => rfl)
    (truncf .bf16 x0 bitsLt_bf16_f32) (truncf .bf16 x1 bitsLt_bf16_f32) p q

/-! ## The windows' block indices -/

/-- At grid point `t`: x's block and the output's block are row block `t`, column block 0; the weight's block
    is always block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's rectangle starts at the origin. -/
theorem origin2 : (![0, 0] : Fin 2 → Nat) = fun _ => 0 := funext fun a => by fin_cases a <;> rfl

/-! ## The projection -/

/-- The projection of an [8192,1024] array `x` by a [1024,1024] weight `w`, index by index:
    entry (r, n) is the sum over k of x(r, k) · w(n, k). -/
def proj2 (x : S8192x1024.Idx → Elt Ideal .f32) (w : S1024x1024.Idx → Elt Ideal .f32) : S8192x1024.Idx → Elt Ideal .bf16 :=
  fun i => ∑ k : Fin 1024, x (ix2 (i 0) k) * w (ix2 (i 1) k)

/-- `proj2` at an index. -/
theorem proj2_apply (x : S8192x1024.Idx → Elt Ideal .f32) (w : S1024x1024.Idx → Elt Ideal .f32) (i : S8192x1024.Idx) :
    proj2 x w i = ∑ k : Fin 1024, x (ix2 (i 0) k) * w (ix2 (i 1) k) := rfl

/-- The stored value at block entry (p, q) is the projection at array index `i`, when row p of the x block is
    row `i 0` of `x` and row q of the weight block is row `i 1` of `w`. -/
theorem pay2_read (x : S8192x1024.Idx → Elt Ideal .f32) (w : S1024x1024.Idx → Elt Ideal .f32)
    (x0 x1 : Vec Ideal S1024x1024 .f32) (p q : Fin 1024) (i : S8192x1024.Idx)
    (hx : ∀ k : Fin 1024, x0 (ix2 p k) = x (ix2 (i 0) k))
    (hw : ∀ k : Fin 1024, x1 (ix2 q k) = w (ix2 (i 1) k)) :
    k2_pay1 x0 x1 (ix2 p q) = proj2 x w i := by
  rw [pay2_apply]
  unfold proj2
  exact Finset.sum_congr rfl fun k _ => by rw [hx k, hw k]

/-! ## What a point writes back -/

/-- What point `t` writes back is row block `t` of the projection of the arrays as the region finds them: a
    block's coordinate in its array is block index × 1024 + the coordinate inside the block. -/
theorem flushed2_eq (c : Dev nD) (t : Fin cfg2.N) :
    (dat2 V c).flushed 2 t = ((cfg2.win 2).blk t).view.read (Elt Ideal) (proj2 (V c main_v2) (V c main_arg5)) := by
  show (cfg2.win 2).cut (grid2.coords t) ((dat2 V c).after 2 t) = _
  rw [after2_2]
  unfold out2_2
  rw [View.canon_unit_zero origin2]
  simp only [View.ld_unit_zero (S := S1024x1024) origin2]
  obtain ⟨e0, e1, e2, e3, e4, e5⟩ := idx_facts2 t
  funext j
  have h0 : (j 0).val < 1024 := (j 0).isLt
  have h1 : (j 1).val < 1024 := (j 1).isLt
  have hy : (win2 2).xinj (grid2.coords t) j = ix2 (⟨(j 0).val, h0⟩ : Fin 1024) (⟨(j 1).val, h1⟩ : Fin 1024) := by
    funext a
    match a with
    | ⟨0, _⟩ => rfl
    | ⟨1, _⟩ => rfl
  refine (congrArg (k2_pay1 (iblk2 V c 0 t) (iblk2 V c 1 t)) hy).trans ?_
  refine pay2_read (V c main_v2) (V c main_arg5) (iblk2 V c 0 t) (iblk2 V c 1 t)
    ⟨(j 0).val, h0⟩ ⟨(j 1).val, h1⟩ (((cfg2.win 2).blk t).view.emb j) (fun k => ?_) (fun k => ?_)
  · show V c main_v2 (((cfg2.win 0).blk t).view.emb (ix2 _ k)) = V c main_v2 _
    refine congrArg (V c main_v2) (funext fun a => Fin.ext ?_)
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 1024 + 1 * k.val = k.val; omega
  · show V c main_arg5 (((cfg2.win 1).blk t).view.emb (ix2 _ k)) = V c main_arg5 _
    refine congrArg (V c main_arg5) (funext fun a => Fin.ext ?_)
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 1024 + 1 * k.val = k.val; omega

/-! ## The blocks cover the result array -/

/-- An index of the result array is in point `t`'s output block iff each coordinate is in the block's range. -/
theorem mem_blk2 (t : Fin cfg2.N) (i : S8192x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v5).slice (win2_2.rect t)).set ↔ _
  rw [View.set_slice_whole, Rect.mem_set_unit]
  exact Iff.rfl

/-- Every index of the result array is in the output block of the point its row names: row `r` is written
    back at point `r / 1024`. -/
theorem cover2 (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  have ht : (i 0).val / 1024 < grid2.N := by rw [N_2]; omega
  refine ⟨⟨(i 0).val / 1024, ht⟩, flush2_2 _, ?_⟩
  rw [mem_blk2]
  obtain ⟨-, -, -, -, e4, e5⟩ := idx_facts2 ⟨(i 0).val / 1024, ht⟩
  have e4' : win2_2.index ⟨(i 0).val / 1024, ht⟩ (0 : Fin 2) = (i 0).val / 1024 := e4
  intro a
  match a with
  | ⟨0, _⟩ =>
    show win2_2.index ⟨(i 0).val / 1024, ht⟩ (0 : Fin 2) * 1024 ≤ (i 0).val
      ∧ (i 0).val < win2_2.index ⟨(i 0).val / 1024, ht⟩ (0 : Fin 2) * 1024 + 1024
    omega
  | ⟨1, _⟩ =>
    show win2_2.index ⟨(i 0).val / 1024, ht⟩ (1 : Fin 2) * 1024 ≤ (i 1).val
      ∧ (i 1).val < win2_2.index ⟨(i 0).val / 1024, ht⟩ (1 : Fin 2) * 1024 + 1024
    omega

/-! ## The result array after the region -/

/-- The result array after the region is the projection of the region-entry arrays, index by index. -/
theorem final2 (c : Dev nD) :
    (dat2 (F := Ideal) V c).arrAt 2 cfg2.N = proj2 (V c main_v2) (V c main_arg5) :=
  (dat2 V c).arrAt_eq_of_cover 2 (proj2 (V c main_v2) (V c main_arg5)) (fun t _ => flushed2_eq V c t) cover2

end Cert.KernelIdeal.Hand

end
-- ==== Proof.HostShape.lean ====
import proofs.«181089_j2508260901282_2_alg».proof.Proof.Gen.KernelIdeal.Launch
import Idealize.ShloMosaic.Lib.StableHlo.Run
import Idealize.ShloMosaic.Lib.Pipeline.Value
import Idealize.ShloMosaic.Lib.ValueIdx

/-!
# What the host reshapes leave, read at an index

Between its kernels the program only reshapes: the batch and row axes [4, 2048] are merged into one
axis of 8192 rows and split again, and the bias vector gets a leading axis of size one. A reshape keeps
the row-major position, so row r of the merged array is batch r / 2048, row r mod 2048, and batch b,
row t is merged row 2048·b + t.
-/

noncomputable section

namespace Cert.KernelIdeal.Hand

open Cert.KernelIdeal Cert.KernelIdeal.Gen Idealize.ShloMosaic Idealize.ShloMosaic.TcCoe Idealize.ShloMosaic.StableHlo Idealize.ShloMosaic.ValueIdx

variable {F : FTy → Type} [FloatOps F]

/-- Merging batch and row: entry (r, cc) of the [8192, 1024] array is entry (r / 2048, r mod 2048, cc). -/
theorem cast_rows_merge {α : Type} (x : S4x2048x1024.Idx → α) (h : S4x2048x1024.ShapeCasts S8192x1024)
    (r : Fin 8192) (cc : Fin 1024) :
    shapeCast S8192x1024 x h (ix2 r cc) = x (ix3 ⟨r.val / 2048, by have := r.isLt; omega⟩ ⟨r.val % 2048, Nat.mod_lt _ (by norm_num)⟩ cc) :=
  shapeCast_apply x h _ _ (by
    rewrite [Shape.rowMajor_val_three, Shape.rowMajor_val_two]
    have hr := r.isLt
    show (r.val / 2048 * 2048 + r.val % 2048) * 1024 + cc.val = r.val * 1024 + cc.val
    omega)

/-- Splitting batch and row: entry (b, t, cc) of the [4, 2048, 1024] array is entry (2048·b + t, cc). -/
theorem cast_rows_split {α : Type} (x : S8192x1024.Idx → α) (h : S8192x1024.ShapeCasts S4x2048x1024)
    (b : Fin 4) (t : Fin 2048) (cc : Fin 1024) :
    shapeCast S4x2048x1024 x h (ix3 b t cc) = x (ix2 ⟨b.val * 2048 + t.val, by have := b.isLt; have := t.isLt; omega⟩ cc) :=
  shapeCast_apply x h _ _ (by
    rewrite [Shape.rowMajor_val_two, Shape.rowMajor_val_three]
    rfl)

/-- A leading axis of size one: entry (0, cc) of the [1, 1024] array is entry cc of the vector. -/
theorem cast_row_vector {α : Type} (x : S1024.Idx → α) (h : S1024.ShapeCasts S1x1024) (u : Fin 1) (cc : Fin 1024) :
    shapeCast S1x1024 x h (ix2 u cc) = x (ix1 cc) :=
  shapeCast_apply x h _ _ (by
    rewrite [Shape.rowMajor_val_one, Shape.rowMajor_val_two]
    have hu : u.val = 0 := by omega
    show cc.val = u.val * 1024 + cc.val
    omega)

/-! ## The first stretch: the three inputs with batch and row merged -/

/-- The merged query input. -/
theorem v0_apply (W : Valuation τ sig (Elt F)) (r : Fin 8192) (cc : Fin 1024) :
    StableHlo.after hostOps0 W (Proc.devRef .tc main_v0) (ix2 r cc)
      = W (Proc.devRef .tc main_arg0) (ix3 ⟨r.val / 2048, by have := r.isLt; omega⟩ ⟨r.val % 2048, Nat.mod_lt _ (by norm_num)⟩ cc) := by
  have e : StableHlo.after hostOps0 W (Proc.devRef .tc main_v0)
      = shapeCast S8192x1024 (W (Proc.devRef .tc main_arg0)) shapeCasts_S4x2048x1024_S8192x1024 := by
    simp only [hostOps0]; after_results; rfl
  rw [e]
  exact cast_rows_merge _ _ r cc

/-- The merged key input. -/
theorem v1_apply (W : Valuation τ sig (Elt F)) (r : Fin 8192) (cc : Fin 1024) :
    StableHlo.after hostOps0 W (Proc.devRef .tc main_v1) (ix2 r cc)
      = W (Proc.devRef .tc main_arg1) (ix3 ⟨r.val / 2048, by have := r.isLt; omega⟩ ⟨r.val % 2048, Nat.mod_lt _ (by norm_num)⟩ cc) := by
  have e : StableHlo.after hostOps0 W (Proc.devRef .tc main_v1)
      = shapeCast S8192x1024 (W (Proc.devRef .tc main_arg1)) shapeCasts_S4x2048x1024_S8192x1024 := by
    simp only [hostOps0]; after_results; rfl
  rw [e]
  exact cast_rows_merge _ _ r cc

/-- The merged value input. -/
theorem v2_apply (W : Valuation τ sig (Elt F)) (r : Fin 8192) (cc : Fin 1024) :
    StableHlo.after hostOps0 W (Proc.devRef .tc main_v2) (ix2 r cc)
      = W (Proc.devRef .tc main_arg2) (ix3 ⟨r.val / 2048, by have := r.isLt; omega⟩ ⟨r.val % 2048, Nat.mod_lt _ (by norm_num)⟩ cc) := by
  have e : StableHlo.after hostOps0 W (Proc.devRef .tc main_v2)
      = shapeCast S8192x1024 (W (Proc.devRef .tc main_arg2)) shapeCasts_S4x2048x1024_S8192x1024 := by
    simp only [hostOps0]; after_results; rfl
  rw [e]
  exact cast_rows_merge _ _ r cc

/-! ## The second stretch: the three projections with batch and row split -/

/-- The split query projection. -/
theorem v6_apply (W : Valuation τ sig (Elt F)) (b : Fin 4) (t : Fin 2048) (cc : Fin 1024) :
    StableHlo.after hostOps3 W (Proc.devRef .tc main_v6) (ix3 b t cc)
      = W (Proc.devRef .tc main_v3) (ix2 ⟨b.val * 2048 + t.val, by have := b.isLt; have := t.isLt; omega⟩ cc) := by
  have e : StableHlo.after hostOps3 W (Proc.devRef .tc main_v6)
      = shapeCast S4x2048x1024 (W (Proc.devRef .tc main_v3)) shapeCasts_S8192x1024_S4x2048x1024 := by
    simp only [hostOps3]; after_results; rfl
  rw [e]
  exact cast_rows_split _ _ b t cc

/-- The split key projection. -/
theorem v7_apply (W : Valuation τ sig (Elt F)) (b : Fin 4) (t : Fin 2048) (cc : Fin 1024) :
    StableHlo.after hostOps3 W (Proc.devRef .tc main_v7) (ix3 b t cc)
      = W (Proc.devRef .tc main_v4) (ix2 ⟨b.val * 2048 + t.val, by have := b.isLt; have := t.isLt; omega⟩ cc) := by
  have e : StableHlo.after hostOps3 W (Proc.devRef .tc main_v7)
      = shapeCast S4x2048x1024 (W (Proc.devRef .tc main_v4)) shapeCasts_S8192x1024_S4x2048x1024 := by
    simp only [hostOps3]; after_results; rfl
  rw [e]
  exact cast_rows_split _ _ b t cc

/-- The split value projection. -/
theorem v8_apply (W : Valuation τ sig (Elt F)) (b : Fin 4) (t : Fin 2048) (cc : Fin 1024) :
    StableHlo.after hostOps3 W (Proc.devRef .tc main_v8) (ix3 b t cc)
      = W (Proc.devRef .tc main_v5) (ix2 ⟨b.val * 2048 + t.val, by have := b.isLt; have := t.isLt; omega⟩ cc) := by
  have e : StableHlo.after hostOps3 W (Proc.devRef .tc main_v8)
      = shapeCast S4x2048x1024 (W (Proc.devRef .tc main_v5)) shapeCasts_S8192x1024_S4x2048x1024 := by
    simp only [hostOps3]; after_results; rfl
  rw [e]
  exact cast_rows_split _ _ b t cc

/-! ## The third stretch: the attention output merged, the bias as one row -/

/-- The merged attention output. -/
theorem v10_apply (W : Valuation τ sig (Elt F)) (r : Fin 8192) (cc : Fin 1024) :
    StableHlo.after hostOps4 W (Proc.devRef .tc main_v10) (ix2 r cc)
      = W (Proc.devRef .tc main_v9) (ix3 ⟨r.val / 2048, by have := r.isLt; omega⟩ ⟨r.val % 2048, Nat.mod_lt _ (by norm_num)⟩ cc) := by
  have e : StableHlo.after hostOps4 W (Proc.devRef .tc main_v10)
      = shapeCast S8192x1024 (W (Proc.devRef .tc main_v9)) shapeCasts_S4x2048x1024_S8192x1024 := by
    simp only [hostOps4]; after_results; rfl
  rw [e]
  exact cast_rows_merge _ _ r cc

/-- The bias as a row. -/
theorem v11_apply (W : Valuation τ sig (Elt F)) (u : Fin 1) (cc : Fin 1024) :
    StableHlo.after hostOps4 W (Proc.devRef .tc main_v11) (ix2 u cc)
      = W (Proc.devRef .tc main_arg7) (ix1 cc) := by
  have e : StableHlo.after hostOps4 W (Proc.devRef .tc main_v11)
      = shapeCast S1x1024 (W (Proc.devRef .tc main_arg7)) shapeCasts_S1024_S1x1024 := by
    simp only [hostOps4]; after_results; rfl
  rw [e]
  exact cast_row_vector _ _ u cc

/-! ## The last stretch: the result with batch and row split -/

/-- The split result. -/
theorem v13_apply (W : Valuation τ sig (Elt F)) (b : Fin 4) (t : Fin 2048) (cc : Fin 1024) :
    StableHlo.after hostOps5 W (Proc.devRef .tc main_v13) (ix3 b t cc)
      = W (Proc.devRef .tc main_v12) (ix2 ⟨b.val * 2048 + t.val, by have := b.isLt; have := t.isLt; omega⟩ cc) := by
  have e : StableHlo.after hostOps5 W (Proc.devRef .tc main_v13)
      = shapeCast S4x2048x1024 (W (Proc.devRef .tc main_v12)) shapeCasts_S8192x1024_S4x2048x1024 := by
    simp only [hostOps5]; after_results; rfl
  rw [e]
  exact cast_rows_split _ _ b t cc

end Cert.KernelIdeal.Hand

end
-- ==== Proof.Spec.lean ====
import Idealize.ShloMosaic.PureOps.Ideal
import Idealize.ShloMosaic.Lib.ValueIdx

/-!
# Multi-head attention over the extended reals: the function both programs compute

Batch 4, sequence 2048, model width 1024 cut into 16 heads of 64 columns: column `c` belongs to
head `c / 64`. With `Q = q·Wqᵀ`, `K = k·Wkᵀ`, `V = v·Wvᵀ` (each weight indexed `[out, in]`), the
score of query row `t` against key row `k` in head `h` is `(Σ_d Q[t, 64h+d]·K[k, 64h+d]) / 8`, the
attention output in column `c` is `Σ_k softmax_k(score)·V[k, c]` with the softmax taken over all
2048 keys, and the result is that array times `Woᵀ` plus the bias.
-/

noncomputable section

open scoped BigOperators
open Idealize.ShloMosaic

namespace Cert.Mha

/-- An array `[batch, row, column]`. -/
abbrev Arr3 : Type := Fin 4 → Fin 2048 → Fin 1024 → EReal
/-- A weight matrix `[out, in]`. -/
abbrev Mat : Type := Fin 1024 → Fin 1024 → EReal

/-- `x·Wᵀ`: entry `[b, t, o]` is `Σ_c x[b, t, c]·W[o, c]`. -/
def proj (x : Arr3) (w : Mat) : Arr3 := fun b t o => ∑ c : Fin 1024, x b t c * w o c

/-- Column `64h + d` of head `h`. -/
def col (h : Fin 16) (d : Fin 64) : Fin 1024 := ⟨h.val * 64 + d.val, by omega⟩

/-- The head a column belongs to. -/
def headOf (c : Fin 1024) : Fin 16 := ⟨c.val / 64, by omega⟩

/-- The scaled score of query row `t` against key row `k` in head `h`: the dot product over the
head's 64 columns, times 1/8. -/
def score (Q K : Arr3) (b : Fin 4) (h : Fin 16) (t k : Fin 2048) : EReal :=
  (∑ d : Fin 64, Q b t (col h d) * K b k (col h d)) * (((1 : ℝ) / 8 : ℝ) : EReal)

/-- Softmax attention in column `c`: with `S k` the scores of row `t` in `c`'s head, `M` their
maximum and `L = Σ_k exp(S k − M)`, the sum `Σ_k (exp(S k − M) / L)·V[b, k, c]`. -/
def attn (Q K V : Arr3) (b : Fin 4) (t : Fin 2048) (c : Fin 1024) : EReal :=
  let S : Fin 2048 → EReal := fun k => score Q K b (headOf c) t k
  let M : EReal := (Finset.univ : Finset (Fin 2048)).fold max ⊥ S
  let L : EReal := ∑ k : Fin 2048, Ideal.exp (S k - M)
  ∑ k : Fin 2048, Ideal.div (Ideal.exp (S k - M)) L * V b k c

/-- The whole layer: attention of the three projections, projected by `Wo`, plus the bias. -/
def out (q k v : Arr3) (Wq Wk Wv Wo : Mat) (bo : Fin 1024 → EReal) : Arr3 :=
  fun b t o => (∑ c : Fin 1024, attn (proj q Wq) (proj k Wk) (proj v Wv) b t c * Wo o c) + bo o

/-- A rank-3 buffer read as `[b, t, c]`. -/
def arr3 (f : (⟨3, ![4, 2048, 1024]⟩ : Shape).Idx → EReal) : Arr3 :=
  fun b t c => f (ValueIdx.ix3 b t c)
/-- A rank-2 buffer read as `[o, c]`. -/
def mat (f : (⟨2, ![1024, 1024]⟩ : Shape).Idx → EReal) : Mat :=
  fun o c => f (ValueIdx.ix2 o c)
/-- A rank-1 buffer read as `[o]`. -/
def vec (f : (⟨1, ![1024]⟩ : Shape).Idx → EReal) : Fin 1024 → EReal :=
  fun o => f (ValueIdx.ix1 o)

/-- The result buffer as a function of the eight argument buffers. -/
def G (q k v : (⟨3, ![4, 2048, 1024]⟩ : Shape).Idx → EReal)
    (Wq Wk Wv Wo : (⟨2, ![1024, 1024]⟩ : Shape).Idx → EReal)
    (bo : (⟨1, ![1024]⟩ : Shape).Idx → EReal) :
    (⟨3, ![4, 2048, 1024]⟩ : Shape).Idx → EReal :=
  fun i => out (arr3 q) (arr3 k) (arr3 v) (mat Wq) (mat Wk) (mat Wv) (mat Wo) (vec bo) (i 0) (i 1) (i 2)

end Cert.Mha

end
-- ==== Proof.LibOnlineSoftmax.lean ====
import Idealize.ShloMosaic.PureOps.Ideal

/-!
# Online softmax equals one-pass softmax

Scores are cut into B blocks of K entries. The online recurrence keeps a running maximum m,
a running sum l = Σ exp(s − m) and a running weighted sum a = Σ exp(s − m)·v; absorbing a block
replaces m by m' = max m (block maximum) and rescales the two sums by exp(m − m').
After all B blocks, a / l is the softmax-weighted sum Σ (exp(s − M) / L)·v with M the global
maximum and L = Σ exp(s − M).

Values are extended reals; the scores and weights fed in are real. The start state is
(−∞, 0, 0): there exp(−∞ − m') = 0 and 0·0 = 0, so the first block is absorbed correctly.

The file ends with two re-indexing lemmas that cut a flat index i < B·K into (b, j) with
i = b·K + j, for sums and for folded maxima.
-/

noncomputable section

open scoped BigOperators
open Idealize.ShloMosaic

namespace Cert.OnlineSoftmax

variable {B K : ℕ}

/-! ## The online-softmax recurrence -/

/-- One block's update of (running max, running sum, running weighted sum):
m' = max m (max of the block), α = exp(m − m'),
l' = α·l + Σ_j exp(s_j − m'), a' = α·a + Σ_j exp(s_j − m')·v_j. -/
def step (sb vb : Fin K → EReal) (st : EReal × EReal × EReal) : EReal × EReal × EReal :=
  let m' := max st.1 ((Finset.univ : Finset (Fin K)).fold max ⊥ sb)
  let α := Ideal.exp (st.1 - m')
  (m', α * st.2.1 + ∑ j : Fin K, Ideal.exp (sb j - m'),
    α * st.2.2 + ∑ j : Fin K, Ideal.exp (sb j - m') * vb j)

/-- The state after the first n blocks, from (−∞, 0, 0). -/
def run (s v : Fin B → Fin K → EReal) : ℕ → EReal × EReal × EReal
  | 0 => (⊥, 0, 0)
  | n+1 => if h : n < B then step (s ⟨n, h⟩) (v ⟨n, h⟩) (run s v n) else run s v n

/-- The run starts from (−∞, 0, 0). -/
theorem run_zero (s v : Fin B → Fin K → EReal) : run s v 0 = (⊥, 0, 0) := rfl

/-- The run absorbs block n at step n + 1. -/
theorem run_succ (s v : Fin B → Fin K → EReal) {n : ℕ} (h : n < B) :
    run s v (n+1) = step (s ⟨n, h⟩) (v ⟨n, h⟩) (run s v n) := by
  rw [run, dif_pos h]

/-- The maximum of all scores, taken block by block. -/
def gmax (S : Fin B → Fin K → EReal) : EReal :=
  (Finset.univ : Finset (Fin B)).fold max ⊥
    (fun b => (Finset.univ : Finset (Fin K)).fold max ⊥ (S b))

/-- The softmax denominator Σ_b Σ_j exp(S b j − max). -/
def gsum (S : Fin B → Fin K → EReal) : EReal :=
  ∑ b : Fin B, ∑ j : Fin K, Ideal.exp (S b j - gmax S)

/-! ## Coercion helpers -/

/-- A finite sum of reals, seen in the extended reals, is the sum of the images. -/
theorem coe_sum {ι : Type*} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The maximum, folded from −∞, of finitely many finite values over a nonempty index set is
finite: it is below +∞ because every value is, and above −∞ because one value is. -/
theorem fold_max_real {ι : Type*} (s : Finset ι) (hs : s.Nonempty) (f : ι → EReal)
    (hf : ∀ i ∈ s, f i ≠ ⊥ ∧ f i ≠ ⊤) : ∃ r : ℝ, s.fold max ⊥ f = (r : EReal) := by
  have htop : s.fold max ⊥ f ≠ ⊤ := by
    apply ne_of_lt
    rw [Finset.fold_max_lt]
    exact ⟨bot_lt_top, fun i hi => lt_top_iff_ne_top.2 (hf i hi).2⟩
  have hbot : s.fold max ⊥ f ≠ ⊥ := by
    have : ⊥ < s.fold max ⊥ f := by
      rw [Finset.lt_fold_max]
      obtain ⟨i, hi⟩ := hs
      exact Or.inr ⟨i, hi, bot_lt_iff_ne_bot.2 (hf i hi).1⟩
    exact this.ne'
  exact ⟨(s.fold max ⊥ f).toReal, (EReal.coe_toReal htop hbot).symm⟩

/-- The maximum of a nonempty block of real scores is real. -/
theorem bmax_real (hK : 0 < K) (sb : Fin K → ℝ) :
    ∃ r : ℝ, (Finset.univ : Finset (Fin K)).fold max ⊥ (fun j => (sb j : EReal)) = (r : EReal) :=
  fold_max_real _ ⟨⟨0, hK⟩, Finset.mem_univ _⟩ _
    (fun j _ => ⟨EReal.coe_ne_bot _, EReal.coe_ne_top _⟩)

/-- Rescaling the sum: exp(m − m')·Σ exp(f − m) = Σ exp(f − m'), by exp(x)·exp(y) = exp(x + y). -/
theorem rescale_sum {ι : Type*} (T : Finset ι) (f : ι → Fin K → ℝ) (m m' : ℝ) :
    Ideal.exp ((m : EReal) - m') * ∑ b ∈ T, ∑ j : Fin K, Ideal.exp ((f b j : EReal) - m)
      = ∑ b ∈ T, ∑ j : Fin K, Ideal.exp ((f b j : EReal) - m') := by
  simp only [← EReal.coe_sub, Ideal.exp_coe, coe_sum, ← EReal.coe_mul]
  congr 1
  rw [Finset.mul_sum]
  refine Finset.sum_congr rfl (fun b _ => ?_)
  rw [Finset.mul_sum]
  refine Finset.sum_congr rfl (fun j _ => ?_)
  rw [← Real.exp_add]; congr 1; ring

/-- Rescaling the weighted sum: exp(m − m')·Σ exp(f − m)·g = Σ exp(f − m')·g. -/
theorem rescale_wsum {ι : Type*} (T : Finset ι) (f g : ι → Fin K → ℝ) (m m' : ℝ) :
    Ideal.exp ((m : EReal) - m') *
        ∑ b ∈ T, ∑ j : Fin K, Ideal.exp ((f b j : EReal) - m) * (g b j : EReal)
      = ∑ b ∈ T, ∑ j : Fin K, Ideal.exp ((f b j : EReal) - m') * (g b j : EReal) := by
  simp only [← EReal.coe_sub, Ideal.exp_coe, ← EReal.coe_mul, coe_sum]
  congr 1
  rw [Finset.mul_sum]
  refine Finset.sum_congr rfl (fun b _ => ?_)
  rw [Finset.mul_sum]
  refine Finset.sum_congr rfl (fun j _ => ?_)
  rw [← mul_assoc, ← Real.exp_add]; congr 2; ring

/-! ## The invariant of one step

For a set T of blocks already absorbed, the state is
(max over T, Σ_{b∈T} Σ_j exp(s b j − max), Σ_{b∈T} Σ_j exp(s b j − max)·v b j);
absorbing a new block a ∉ T gives the same triple for insert a T. -/

/-- The maximum of the scores of the blocks in T (−∞ for no block). -/
def fmax (S : Fin B → Fin K → EReal) (T : Finset (Fin B)) : EReal :=
  T.fold max ⊥ (fun b => (Finset.univ : Finset (Fin K)).fold max ⊥ (S b))

/-- Σ_{b∈T} Σ_j exp(S b j − x). -/
def fsum (S : Fin B → Fin K → EReal) (T : Finset (Fin B)) (x : EReal) : EReal :=
  ∑ b ∈ T, ∑ j : Fin K, Ideal.exp (S b j - x)

/-- Σ_{b∈T} Σ_j exp(S b j − x)·V b j. -/
def fwsum (S V : Fin B → Fin K → EReal) (T : Finset (Fin B)) (x : EReal) : EReal :=
  ∑ b ∈ T, ∑ j : Fin K, Ideal.exp (S b j - x) * V b j

/-- Real entries seen as extended reals. -/
abbrev cS (s : Fin B → Fin K → ℝ) : Fin B → Fin K → EReal := fun b j => (s b j : EReal)

/-- The maximum over a nonempty set of nonempty blocks of real scores is real. -/
theorem fmax_real (hK : 0 < K) (s : Fin B → Fin K → ℝ) (T : Finset (Fin B)) (hT : T.Nonempty) :
    ∃ r : ℝ, fmax (cS s) T = (r : EReal) := by
  refine fold_max_real T hT _ (fun b _ => ?_)
  obtain ⟨r, hr⟩ := bmax_real hK (s b)
  show (Finset.univ : Finset (Fin K)).fold max ⊥ (fun j => (s b j : EReal)) ≠ ⊥ ∧
    (Finset.univ : Finset (Fin K)).fold max ⊥ (fun j => (s b j : EReal)) ≠ ⊤
  rw [hr]
  exact ⟨EReal.coe_ne_bot _, EReal.coe_ne_top _⟩

/-- Absorbing block a ∉ T turns the invariant triple of T into that of insert a T.
For T empty the old sums are 0 and α·0 = 0; otherwise both maxima are real and the old sums
are rescaled by exp(m − m'). -/
theorem step_invariant (hK : 0 < K) (s v : Fin B → Fin K → ℝ) (T : Finset (Fin B))
    (a : Fin B) (ha : a ∉ T) :
    step (cS s a) (cS v a) (fmax (cS s) T, fsum (cS s) T (fmax (cS s) T),
        fwsum (cS s) (cS v) T (fmax (cS s) T))
      = (fmax (cS s) (insert a T), fsum (cS s) (insert a T) (fmax (cS s) (insert a T)),
          fwsum (cS s) (cS v) (insert a T) (fmax (cS s) (insert a T))) := by
  classical
  have hm' : max (fmax (cS s) T) ((Finset.univ : Finset (Fin K)).fold max ⊥ (cS s a))
      = fmax (cS s) (insert a T) := by
    rw [fmax, fmax, Finset.fold_insert ha, max_comm]
  obtain ⟨r', hr'⟩ := fmax_real hK s (insert a T) (Finset.insert_nonempty a T)
  simp only [step, hm']
  rcases T.eq_empty_or_nonempty with hT | hT
  · subst hT
    simp [fsum, fwsum]
  · obtain ⟨r, hr⟩ := fmax_real hK s T hT
    rw [hr, hr']
    have h1 : Ideal.exp ((r : EReal) - r') * fsum (cS s) T r = fsum (cS s) T r' :=
      rescale_sum T s r r'
    have h2 : Ideal.exp ((r : EReal) - r') * fwsum (cS s) (cS v) T r
        = fwsum (cS s) (cS v) T r' :=
      rescale_wsum T s v r r'
    rw [h1, h2]
    simp only [fsum, fwsum, Finset.sum_insert ha]
    rw [add_comm (∑ b ∈ T, ∑ j : Fin K, Ideal.exp (cS s b j - r')),
      add_comm (∑ b ∈ T, ∑ j : Fin K, Ideal.exp (cS s b j - r') * cS v b j)]

/-! ## The invariant of the run -/

/-- The first n blocks. -/
def pre (B : ℕ) (n : ℕ) : Finset (Fin B) := Finset.univ.filter (fun b => b.val < n)

/-- No block comes before block 0. -/
theorem pre_zero : pre B 0 = ∅ := by
  ext b; simp [pre]

/-- The first n + 1 blocks are block n and the first n blocks. -/
theorem pre_succ {n : ℕ} (h : n < B) : pre B (n+1) = insert ⟨n, h⟩ (pre B n) := by
  ext b
  simp only [pre, Finset.mem_filter, Finset.mem_univ, true_and, Finset.mem_insert, Fin.ext_iff]
  omega

/-- Block n is not among the first n blocks. -/
theorem not_mem_pre {n : ℕ} (h : n < B) : (⟨n, h⟩ : Fin B) ∉ pre B n := by
  simp [pre]

/-- The first B blocks are all blocks. -/
theorem pre_all : pre B B = Finset.univ := by
  ext b; simp [pre, b.isLt]

/-- After n ≤ B blocks the state is the invariant triple of the first n blocks. -/
theorem run_invariant (hK : 0 < K) (s v : Fin B → Fin K → ℝ) (n : ℕ) (hn : n ≤ B) :
    run (cS s) (cS v) n = (fmax (cS s) (pre B n), fsum (cS s) (pre B n) (fmax (cS s) (pre B n)),
      fwsum (cS s) (cS v) (pre B n) (fmax (cS s) (pre B n))) := by
  induction n with
  | zero => simp [run, pre_zero, fmax, fsum, fwsum]
  | succ n ih =>
    have h : n < B := hn
    rw [run, dif_pos h, ih (le_of_lt h), pre_succ h]
    exact step_invariant hK s v (pre B n) ⟨n, h⟩ (not_mem_pre h)

/-! ## The final state and the softmax identity -/

/-- After all B blocks the state is (M, L, Σ_b Σ_j exp(s b j − M)·v b j) with M the global
maximum and L the softmax denominator. -/
theorem run_final (hK : 0 < K) (s v : Fin B → Fin K → ℝ) :
    run (cS s) (cS v) B = (gmax (cS s), gsum (cS s),
      ∑ b : Fin B, ∑ j : Fin K, Ideal.exp (cS s b j - gmax (cS s)) * cS v b j) := by
  rw [run_invariant hK s v B le_rfl, pre_all]
  rfl

/-- The global maximum of a nonempty family of nonempty blocks of real scores is real. -/
theorem gmax_real (hB : 0 < B) (hK : 0 < K) (s : Fin B → Fin K → ℝ) :
    ∃ r : ℝ, gmax (cS s) = (r : EReal) :=
  fmax_real hK s Finset.univ ⟨⟨0, hB⟩, Finset.mem_univ _⟩

/-- The online recurrence computes softmax attention: the final weighted sum divided by the
final sum is Σ_b Σ_j (exp(s b j − M) / L)·v b j. The denominator L is a positive real (a
nonempty sum of exponentials), so both divisions are products with 1/L and the identity is
(Σ e·v)·(1/L) = Σ (e·(1/L))·v over the reals. -/
theorem run_eq_softmax (hB : 0 < B) (hK : 0 < K) (s v : Fin B → Fin K → ℝ) :
    Ideal.div (run (cS s) (cS v) B).2.2 (run (cS s) (cS v) B).2.1
      = ∑ b : Fin B, ∑ j : Fin K,
          Ideal.div (Ideal.exp (cS s b j - gmax (cS s))) (gsum (cS s)) * cS v b j := by
  rw [run_final hK s v]
  obtain ⟨M, hM⟩ := gmax_real hB hK s
  have hL : gsum (cS s) = ((∑ b : Fin B, ∑ j : Fin K, Real.exp (s b j - M) : ℝ) : EReal) := by
    simp only [gsum, hM, ← EReal.coe_sub, Ideal.exp_coe, coe_sum]
  have hpos : 0 < ∑ b : Fin B, ∑ j : Fin K, Real.exp (s b j - M) := by
    haveI : Nonempty (Fin B) := ⟨⟨0, hB⟩⟩
    haveI : Nonempty (Fin K) := ⟨⟨0, hK⟩⟩
    exact Finset.sum_pos
      (fun b _ => Finset.sum_pos (fun j _ => Real.exp_pos _) Finset.univ_nonempty)
      Finset.univ_nonempty
  simp only [hL, hM, Ideal.div_coe hpos.ne', ← EReal.coe_sub, Ideal.exp_coe, ← EReal.coe_mul,
    coe_sum]
  congr 1
  rw [Finset.sum_mul]
  refine Finset.sum_congr rfl (fun b _ => ?_)
  rw [Finset.sum_mul]
  refine Finset.sum_congr rfl (fun j _ => ?_)
  ring

/-- The same statement with the maximum and the denominator spelled out. -/
theorem run_eq_softmax_let (hB : 0 < B) (hK : 0 < K) (s v : Fin B → Fin K → ℝ) :
    let S : Fin B → Fin K → EReal := fun b j => (s b j : EReal)
    let V : Fin B → Fin K → EReal := fun b j => (v b j : EReal)
    let M : EReal := (Finset.univ : Finset (Fin B)).fold max ⊥
      (fun b => (Finset.univ : Finset (Fin K)).fold max ⊥ (S b))
    let L : EReal := ∑ b : Fin B, ∑ j : Fin K, Ideal.exp (S b j - M)
    Ideal.div (run S V B).2.2 (run S V B).2.1
      = ∑ b : Fin B, ∑ j : Fin K, Ideal.div (Ideal.exp (S b j - M)) L * V b j := by
  intro S V M L
  exact run_eq_softmax hB hK s v

/-- The same statement for extended-real scores and weights all of whose entries are finite. -/
theorem run_eq_softmax_of_finite (hB : 0 < B) (hK : 0 < K) (S V : Fin B → Fin K → EReal)
    (hS : ∀ b j, S b j ≠ ⊥ ∧ S b j ≠ ⊤) (hV : ∀ b j, V b j ≠ ⊥ ∧ V b j ≠ ⊤) :
    Ideal.div (run S V B).2.2 (run S V B).2.1
      = ∑ b : Fin B, ∑ j : Fin K, Ideal.div (Ideal.exp (S b j - gmax S)) (gsum S) * V b j := by
  have hs : S = cS (fun b j => (S b j).toReal) := by
    funext b j
    exact (EReal.coe_toReal (hS b j).2 (hS b j).1).symm
  have hv : V = cS (fun b j => (V b j).toReal) := by
    funext b j
    exact (EReal.coe_toReal (hV b j).2 (hV b j).1).symm
  rw [hs, hv]
  exact run_eq_softmax hB hK _ _

/-! ## Cutting a flat index into blocks -/

/-- For b < B and j < K, b·K + j < B·K. -/
theorem blockIdx_lt (b : Fin B) (j : Fin K) : b.val * K + j.val < B * K := by
  calc b.val * K + j.val < b.val * K + K := Nat.add_lt_add_left j.isLt _
    _ = (b.val + 1) * K := by ring
    _ ≤ B * K := Nat.mul_le_mul_right _ b.isLt

/-- A sum over i < B·K is the sum over blocks b < B of the sums over j < K at i = b·K + j. -/
theorem sum_blocks {M : Type*} [AddCommMonoid M] (f : Fin (B*K) → M) :
    ∑ i : Fin (B*K), f i
      = ∑ b : Fin B, ∑ j : Fin K, f ⟨b.val*K + j.val, blockIdx_lt b j⟩ := by
  rw [← finProdFinEquiv.sum_comp, Fintype.sum_prod_type]
  refine Finset.sum_congr rfl (fun b _ => Finset.sum_congr rfl (fun j _ => ?_))
  congr 1
  ext
  simp [finProdFinEquiv, Nat.mul_comm, Nat.add_comm]

/-- A maximum over i < B·K is the maximum over blocks of the block maxima at i = b·K + j
(in any linear order with a least element; each side is below the other). -/
theorem fold_max_blocks_gen {α : Type*} [LinearOrder α] [OrderBot α] (f : Fin (B*K) → α) :
    (Finset.univ : Finset (Fin (B*K))).fold max ⊥ f
      = (Finset.univ : Finset (Fin B)).fold max ⊥ (fun b =>
          (Finset.univ : Finset (Fin K)).fold max ⊥
            (fun j => f ⟨b.val*K + j.val, blockIdx_lt b j⟩)) := by
  apply le_antisymm
  · rw [Finset.fold_max_le]
    refine ⟨bot_le, fun i _ => ?_⟩
    obtain ⟨⟨b, j⟩, rfl⟩ := finProdFinEquiv.surjective i
    rw [Finset.le_fold_max]
    refine Or.inr ⟨b, Finset.mem_univ _, ?_⟩
    rw [Finset.le_fold_max]
    refine Or.inr ⟨j, Finset.mem_univ _, le_of_eq ?_⟩
    congr 1
    ext
    simp [finProdFinEquiv, Nat.mul_comm, Nat.add_comm]
  · rw [Finset.fold_max_le]
    refine ⟨bot_le, fun b _ => ?_⟩
    rw [Finset.fold_max_le]
    refine ⟨bot_le, fun j _ => ?_⟩
    rw [Finset.le_fold_max]
    exact Or.inr ⟨_, Finset.mem_univ _, le_rfl⟩

/-- The block decomposition of a maximum, for extended reals. -/
theorem fold_max_blocks (f : Fin (B*K) → EReal) :
    (Finset.univ : Finset (Fin (B*K))).fold max ⊥ f
      = (Finset.univ : Finset (Fin B)).fold max ⊥ (fun b =>
          (Finset.univ : Finset (Fin K)).fold max ⊥
            (fun j => f ⟨b.val*K + j.val, blockIdx_lt b j⟩)) :=
  fold_max_blocks_gen f

/-- The block decomposition of a sum at 8192 = 16·512. -/
theorem sum_blocks_8192 {M : Type*} [AddCommMonoid M] (f : Fin 8192 → M) :
    ∑ i : Fin 8192, f i
      = ∑ b : Fin 16, ∑ j : Fin 512, f ⟨b.val*512 + j.val, by omega⟩ :=
  sum_blocks (B := 16) (K := 512) f

/-- The block decomposition of a maximum at 8192 = 16·512. -/
theorem fold_max_blocks_8192 (f : Fin 8192 → EReal) :
    (Finset.univ : Finset (Fin 8192)).fold max ⊥ f
      = (Finset.univ : Finset (Fin 16)).fold max ⊥ (fun b =>
          (Finset.univ : Finset (Fin 512)).fold max ⊥
            (fun j => f ⟨b.val*512 + j.val, by omega⟩)) :=
  fold_max_blocks (B := 16) (K := 512) f

end Cert.OnlineSoftmax
-- ==== Proof.AttnMath.lean ====
import proofs.«181089_j2508260901282_2_alg».proof.Proof.Spec
import proofs.«181089_j2508260901282_2_alg».proof.Proof.LibOnlineSoftmax

/-!
# The two-block online softmax of one row is the specification's attention

The 2048 keys are cut into two blocks of 1024. For a query row `t` and an output column `c`, the
online recurrence run over the two blocks of scores (of `c`'s head) and the two blocks of values
(in column `c`) ends with a weighted sum and a denominator whose quotient is `Cert.Mha.attn`.

Finiteness is needed: the recurrence rescales by `exp (m − m')`, which is only the right factor
when the maxima are real. A score is a finite sum of products of finite entries times 1/8, hence
finite; the same argument shows a projection of finite arrays is finite.
-/

noncomputable section

open scoped BigOperators
open Idealize.ShloMosaic

namespace Cert.Proof.Attn

open Cert.Mha Cert.OnlineSoftmax

/-! ## Finiteness -/

/-- A finite extended real is the image of a real. -/
theorem eq_coe_of_finite {x : EReal} (h : x ≠ ⊥ ∧ x ≠ ⊤) : x = ((x.toReal : ℝ) : EReal) :=
  (EReal.coe_toReal h.2 h.1).symm

/-- A finite sum of products of finite extended reals is the image of the real sum of products. -/
theorem sum_mul_eq_coe {ι : Type*} (s : Finset ι) (f g : ι → EReal)
    (hf : ∀ i, f i ≠ ⊥ ∧ f i ≠ ⊤) (hg : ∀ i, g i ≠ ⊥ ∧ g i ≠ ⊤) :
    ∑ i ∈ s, f i * g i = ((∑ i ∈ s, (f i).toReal * (g i).toReal : ℝ) : EReal) := by
  rw [← coe_sum]
  refine Finset.sum_congr rfl fun i _ => ?_
  rw [EReal.coe_mul, ← eq_coe_of_finite (hf i), ← eq_coe_of_finite (hg i)]

/-- A finite sum of products of finite extended reals is finite. -/
theorem sum_mul_finite {ι : Type*} (s : Finset ι) (f g : ι → EReal)
    (hf : ∀ i, f i ≠ ⊥ ∧ f i ≠ ⊤) (hg : ∀ i, g i ≠ ⊥ ∧ g i ≠ ⊤) :
    ∑ i ∈ s, f i * g i ≠ ⊥ ∧ ∑ i ∈ s, f i * g i ≠ ⊤ := by
  rw [sum_mul_eq_coe s f g hf hg]
  exact ⟨EReal.coe_ne_bot _, EReal.coe_ne_top _⟩

/-- A projection of finite arrays is finite. -/
theorem proj_finite (x : Arr3) (w : Mat) (hx : ∀ b t c, x b t c ≠ ⊥ ∧ x b t c ≠ ⊤)
    (hw : ∀ o c, w o c ≠ ⊥ ∧ w o c ≠ ⊤) (b : Fin 4) (t : Fin 2048) (o : Fin 1024) :
    proj x w b t o ≠ ⊥ ∧ proj x w b t o ≠ ⊤ :=
  sum_mul_finite Finset.univ (fun c => x b t c) (fun c => w o c) (fun c => hx b t c) (fun c => hw o c)

/-- A score of finite arrays is finite. -/
theorem score_finite (Q K : Arr3) (hQ : ∀ b t c, Q b t c ≠ ⊥ ∧ Q b t c ≠ ⊤)
    (hK : ∀ b t c, K b t c ≠ ⊥ ∧ K b t c ≠ ⊤) (b : Fin 4) (h : Fin 16) (t k : Fin 2048) :
    score Q K b h t k ≠ ⊥ ∧ score Q K b h t k ≠ ⊤ := by
  unfold score
  rw [sum_mul_eq_coe Finset.univ (fun d => Q b t (col h d)) (fun d => K b k (col h d))
    (fun d => hQ b t (col h d)) (fun d => hK b k (col h d)), ← EReal.coe_mul]
  exact ⟨EReal.coe_ne_bot _, EReal.coe_ne_top _⟩

/-! ## The two blocks -/

/-- The scores of row `t` in head `h`, cut into two blocks of 1024 keys. -/
def blockScores (Q K : Arr3) (b : Fin 4) (h : Fin 16) (t : Fin 2048) : Fin 2 → Fin 1024 → EReal :=
  fun blk j => score Q K b h t ⟨blk.val * 1024 + j.val, by omega⟩

/-- Column `c` of the values, cut into two blocks of 1024 keys. -/
def blockValues (V : Arr3) (b : Fin 4) (c : Fin 1024) : Fin 2 → Fin 1024 → EReal :=
  fun blk j => V b ⟨blk.val * 1024 + j.val, by omega⟩ c

/-- A sum over 2048 keys is the sum over the two blocks. -/
theorem sum_blocks_2048 {M : Type*} [AddCommMonoid M] (f : Fin 2048 → M) :
    ∑ k : Fin 2048, f k = ∑ blk : Fin 2, ∑ j : Fin 1024, f ⟨blk.val * 1024 + j.val, by omega⟩ :=
  sum_blocks (B := 2) (K := 1024) f

/-- A maximum over 2048 keys is the maximum of the two block maxima. -/
theorem fold_max_blocks_2048 (f : Fin 2048 → EReal) :
    (Finset.univ : Finset (Fin 2048)).fold max ⊥ f
      = (Finset.univ : Finset (Fin 2)).fold max ⊥ (fun blk =>
          (Finset.univ : Finset (Fin 1024)).fold max ⊥
            (fun j => f ⟨blk.val * 1024 + j.val, by omega⟩)) :=
  fold_max_blocks (B := 2) (K := 1024) f

/-- The block maximum of the block scores is the maximum over all keys. -/
theorem gmax_blockScores (Q K : Arr3) (b : Fin 4) (h : Fin 16) (t : Fin 2048) :
    gmax (blockScores Q K b h t)
      = (Finset.univ : Finset (Fin 2048)).fold max ⊥ (fun k => score Q K b h t k) :=
  (fold_max_blocks_2048 (fun k => score Q K b h t k)).symm

/-- The block denominator of the block scores is the denominator over all keys. -/
theorem gsum_blockScores (Q K : Arr3) (b : Fin 4) (h : Fin 16) (t : Fin 2048) :
    gsum (blockScores Q K b h t)
      = ∑ k : Fin 2048, Ideal.exp (score Q K b h t k
          - (Finset.univ : Finset (Fin 2048)).fold max ⊥ (fun k => score Q K b h t k)) := by
  rw [sum_blocks_2048, ← gmax_blockScores]
  rfl

/-- The online recurrence over the two blocks computes the specification's attention. -/
theorem run_eq_attn (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (t : Fin 2048) (c : Fin 1024) :
    Ideal.div (run (blockScores Q K b (headOf c) t) (blockValues V b c) 2).2.2
        (run (blockScores Q K b (headOf c) t) (blockValues V b c) 2).2.1
      = attn Q K V b t c := by
  rw [run_eq_softmax_of_finite (B := 2) (K := 1024) (by norm_num) (by norm_num)
    (blockScores Q K b (headOf c) t) (blockValues V b c)
    (fun blk j => score_finite Q K hQ hK b (headOf c) t _) (fun blk j => hV b _ c)]
  rw [gsum_blockScores, gmax_blockScores]
  exact (sum_blocks_2048 (fun k => Ideal.div (Ideal.exp (score Q K b (headOf c) t k
    - (Finset.univ : Finset (Fin 2048)).fold max ⊥ (fun k => score Q K b (headOf c) t k)))
    (∑ k : Fin 2048, Ideal.exp (score Q K b (headOf c) t k
      - (Finset.univ : Finset (Fin 2048)).fold max ⊥ (fun k => score Q K b (headOf c) t k)))
    * V b k c)).symm

/-- Two steps of the recurrence from `(−∞, 0, 0)` are its run over two blocks. -/
theorem run_two (S Vb : Fin 2 → Fin 1024 → EReal) :
    run S Vb 2 = step (S 1) (Vb 1) (step (S 0) (Vb 0) (⊥, 0, 0)) := by
  rw [run_succ S Vb (by norm_num : 1 < 2), run_succ S Vb (by norm_num : 0 < 2), run_zero]
  rfl

/-- The same, with the two blocks given as four functions: if `s0`, `s1` are the scores of row `t`
against keys `j` and `1024 + j` in `c`'s head and `v0`, `v1` the values of those keys in column `c`,
two steps from `(−∞, 0, 0)` end with weighted sum over denominator equal to the attention. -/
theorem two_steps_eq_attn (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (t : Fin 2048) (c : Fin 1024) (s0 s1 v0 v1 : Fin 1024 → EReal)
    (hs0 : ∀ j : Fin 1024, s0 j = score Q K b (headOf c) t ⟨j.val, by omega⟩)
    (hs1 : ∀ j : Fin 1024, s1 j = score Q K b (headOf c) t ⟨1024 + j.val, by omega⟩)
    (hv0 : ∀ j : Fin 1024, v0 j = V b ⟨j.val, by omega⟩ c)
    (hv1 : ∀ j : Fin 1024, v1 j = V b ⟨1024 + j.val, by omega⟩ c) :
    Ideal.div (step s1 v1 (step s0 v0 (⊥, 0, 0))).2.2 (step s1 v1 (step s0 v0 (⊥, 0, 0))).2.1
      = attn Q K V b t c := by
  have e0 : s0 = blockScores Q K b (headOf c) t 0 := funext fun j => (hs0 j).trans
    (congrArg (score Q K b (headOf c) t) (Fin.ext (by simp)))
  have e1 : s1 = blockScores Q K b (headOf c) t 1 := funext fun j => (hs1 j).trans
    (congrArg (score Q K b (headOf c) t) (Fin.ext (by simp)))
  have f0 : v0 = blockValues V b c 0 := funext fun j => (hv0 j).trans
    (congrArg (fun k => V b k c) (Fin.ext (by simp)))
  have f1 : v1 = blockValues V b c 1 := funext fun j => (hv1 j).trans
    (congrArg (fun k => V b k c) (Fin.ext (by simp)))
  rw [e0, e1, f0, f1, ← run_two]
  exact run_eq_attn Q K V hQ hK hV b t c

end Cert.Proof.Attn

end
-- ==== Proof.ValueRunA.lean ====
import proofs.«181089_j2508260901282_2_alg».proof.Proof.FrameRun
import proofs.«181089_j2508260901282_2_alg».proof.Proof.ValueMM0
import proofs.«181089_j2508260901282_2_alg».proof.Proof.ValueMM1
import proofs.«181089_j2508260901282_2_alg».proof.Proof.ValueMM2
import proofs.«181089_j2508260901282_2_alg».proof.Proof.HostShape
import proofs.«181089_j2508260901282_2_alg».proof.Proof.AttnMath
import proofs.«181089_j2508260901282_2_alg».proof.Proof.Spec

/-!
# The three projected arrays, as the attention region finds them

Following the unscoped buffers through @main: the first host lines flatten `q`, `k`, `v` to
`[8192, 1024]`; each projection region leaves `x·Wᵀ` in its output array; the next host lines cut
the rows back into `[4, 2048, ·]`. So the attention region finds `proj q Wq`, `proj k Wk`,
`proj v Wv` of the specification, and these are finite when the arguments are.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Mha
open scoped BigOperators

variable (m : (ℓ : Loc nD τ sig) → Buf (Elt Ideal) ℓ) (ρ : Dev nD → PrngReg) (c : Dev nD)

/-- Argument `K` as launched. -/
abbrev argA (b : Ref sig .tc) : Buf (Elt Ideal) ((c : Thread nD τ).loc b) := m ((c : Thread nD τ).loc b)

/-! ## The flattened inputs and the weights, at each projection region's entry -/

theorem U1_v0 (R : Fin 8192) (k : Fin 1024) :
    U1 m ρ c main_v0 (ix2 R k) = argA m c main_arg0 (ix3 ⟨R.val / 2048, by have := R.isLt; omega⟩ ⟨R.val % 2048, Nat.mod_lt _ (by norm_num)⟩ k) :=
  v0_apply (W0 m ρ c) R k
theorem U1_arg3 : U1 m ρ c main_arg3 = argA m c main_arg3 := W1_keep m ρ c main_arg3 (by decide)

theorem U2_v1 (R : Fin 8192) (k : Fin 1024) :
    U2 m ρ c main_v1 (ix2 R k) = argA m c main_arg1 (ix3 ⟨R.val / 2048, by have := R.isLt; omega⟩ ⟨R.val % 2048, Nat.mod_lt _ (by norm_num)⟩ k) :=
  (congrFun (W2_keep m ρ c main_v1 (by decide)) _).trans (v1_apply (W0 m ρ c) R k)
theorem U2_arg4 : U2 m ρ c main_arg4 = argA m c main_arg4 :=
  (W2_keep m ρ c main_arg4 (by decide)).trans (W1_keep m ρ c main_arg4 (by decide))

theorem U3_v2 (R : Fin 8192) (k : Fin 1024) :
    U3 m ρ c main_v2 (ix2 R k) = argA m c main_arg2 (ix3 ⟨R.val / 2048, by have := R.isLt; omega⟩ ⟨R.val % 2048, Nat.mod_lt _ (by norm_num)⟩ k) :=
  (congrFun ((W3_keep m ρ c main_v2 (by decide)).trans (W2_keep m ρ c main_v2 (by decide))) _).trans (v2_apply (W0 m ρ c) R k)
theorem U3_arg5 : U3 m ρ c main_arg5 = argA m c main_arg5 :=
  (W3_keep m ρ c main_arg5 (by decide)).trans ((W2_keep m ρ c main_arg5 (by decide)).trans (W1_keep m ρ c main_arg5 (by decide)))

/-! ## What the projection regions leave -/

/-- Row `R` of `x·Wᵀ` is row `(R / 2048, R mod 2048)` of the specification's projection. -/
theorem proj_flat (x : S8192x1024.Idx → EReal) (w : S1024x1024.Idx → EReal) (a : S4x2048x1024.Idx → EReal)
    (hx : ∀ (R : Fin 8192) (k : Fin 1024), x (ix2 R k) = a (ix3 ⟨R.val / 2048, by have := R.isLt; omega⟩ ⟨R.val % 2048, Nat.mod_lt _ (by norm_num)⟩ k))
    (R : Fin 8192) (o : Fin 1024) :
    (∑ k : Fin 1024, x (ix2 R k) * w (ix2 o k))
      = proj (arr3 a) (mat w) ⟨R.val / 2048, by have := R.isLt; omega⟩ ⟨R.val % 2048, Nat.mod_lt _ (by norm_num)⟩ o :=
  Finset.sum_congr rfl fun k _ => by rw [hx R k]; rfl

theorem W2_v3 (R : Fin 8192) (o : Fin 1024) :
    W2 m ρ c (Proc.devRef .tc main_v3) (ix2 R o)
      = proj (arr3 (argA m c main_arg0)) (mat (argA m c main_arg3)) ⟨R.val / 2048, by have := R.isLt; omega⟩ ⟨R.val % 2048, Nat.mod_lt _ (by norm_num)⟩ o := by
  have e := (W2_arr m ρ c 2).trans (final0 (U1 m ρ) c)
  refine (congrFun e (ix2 R o)).trans ?_
  rw [proj0_apply, U1_arg3]
  exact proj_flat _ _ _ (U1_v0 m ρ c) R o

theorem W3_v4 (R : Fin 8192) (o : Fin 1024) :
    W3 m ρ c (Proc.devRef .tc main_v4) (ix2 R o)
      = proj (arr3 (argA m c main_arg1)) (mat (argA m c main_arg4)) ⟨R.val / 2048, by have := R.isLt; omega⟩ ⟨R.val % 2048, Nat.mod_lt _ (by norm_num)⟩ o := by
  have e := (W3_arr m ρ c 2).trans (final1 (U2 m ρ) c)
  refine (congrFun e (ix2 R o)).trans ?_
  rw [proj1_apply, U2_arg4]
  exact proj_flat _ _ _ (U2_v1 m ρ c) R o

theorem W4_v5 (R : Fin 8192) (o : Fin 1024) :
    W4 m ρ c (Proc.devRef .tc main_v5) (ix2 R o)
      = proj (arr3 (argA m c main_arg2)) (mat (argA m c main_arg5)) ⟨R.val / 2048, by have := R.isLt; omega⟩ ⟨R.val % 2048, Nat.mod_lt _ (by norm_num)⟩ o := by
  have e := (W4_arr m ρ c 2).trans (final2 (U3 m ρ) c)
  refine (congrFun e (ix2 R o)).trans ?_
  rw [proj2_apply, U3_arg5]
  exact proj_flat _ _ _ (U3_v2 m ρ c) R o

/-! ## The three arrays the attention region finds -/

theorem unflat (b : Fin 4) (t : Fin 2048) (f : Fin 4 → Fin 2048 → EReal) :
    f ⟨(b.val * 2048 + t.val) / 2048, by have := b.isLt; have := t.isLt; omega⟩ ⟨(b.val * 2048 + t.val) % 2048, Nat.mod_lt _ (by norm_num)⟩ = f b t := by
  congr 1
  · apply Fin.ext; show (b.val * 2048 + t.val) / 2048 = b.val; have := t.isLt; omega
  · apply Fin.ext; show (b.val * 2048 + t.val) % 2048 = t.val; have := t.isLt; omega

theorem U5_v6 : arr3 (U5 m ρ c main_v6) = proj (arr3 (argA m c main_arg0)) (mat (argA m c main_arg3)) := by
  funext b t o
  refine (v6_apply (W4 m ρ c) b t o).trans ?_
  rw [show W4 m ρ c (Proc.devRef .tc main_v3) = W2 m ρ c (Proc.devRef .tc main_v3) from
    (W4_keep m ρ c main_v3 (by decide)).trans (W3_keep m ρ c main_v3 (by decide))]
  exact (W2_v3 m ρ c _ o).trans (unflat b t fun b t => proj _ _ b t o)

theorem U5_v7 : arr3 (U5 m ρ c main_v7) = proj (arr3 (argA m c main_arg1)) (mat (argA m c main_arg4)) := by
  funext b t o
  refine (v7_apply (W4 m ρ c) b t o).trans ?_
  rw [show W4 m ρ c (Proc.devRef .tc main_v4) = W3 m ρ c (Proc.devRef .tc main_v4) from W4_keep m ρ c main_v4 (by decide)]
  exact (W3_v4 m ρ c _ o).trans (unflat b t fun b t => proj _ _ b t o)

theorem U5_v8 : arr3 (U5 m ρ c main_v8) = proj (arr3 (argA m c main_arg2)) (mat (argA m c main_arg5)) := by
  funext b t o
  refine (v8_apply (W4 m ρ c) b t o).trans ?_
  exact (W4_v5 m ρ c _ o).trans (unflat b t fun b t => proj _ _ b t o)

end Cert.KernelIdeal.Hand

end
-- ==== Proof.ValueMM4.lean ====
/-
  Region 4 of @main, read on the extended reals: after the region the result array holds, at row r and
  column n, the sum over k of x(r, k) · Wo(n, k), plus b(0, n) — the output projection y = x·Woᵀ + b of the
  arrays as the region finds them.

  The steps: the body's stored value at an entry (the format changes are the identity on the extended reals, the
  matrix unit into the zero accumulator contracts the second axis of both operands, and the bias row is
  repeated down the rows); the four windows' block indices at a grid point (x and the output move with the
  point down the rows, the weight and the bias row stay); what a point writes back is its row block of the
  projection with bias; the eight row blocks cover the result array.
-/
import proofs.«181089_j2508260901282_2_alg».proof.Proof.FrameMM4
import proofs.«181089_j2508260901282_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))
/-! ## The stored value at an entry -/

/-- Entry (p, q) of what the body stores: the sum over k of lhs(p, k) · rhs(q, k), plus the bias at column q. -/
theorem pay4_apply (x0 : Vec Ideal S1024x1024 .bf16) (x1 : Vec Ideal S1024x1024 .f32) (x2 : Vec Ideal S1x1024 .f32)
    (p q : Fin 1024) :
    k4_pay1 x0 x1 x2 (ix2 p q) = (∑ k : Fin 1024, x0 (ix2 p k) * x1 (ix2 q k)) + x2 (ix2 (0 : Fin 1) q) := by
  unfold k4_pay1
  simp only [shapeCast_self]
  rw [addf_apply]
  rw [broadcastTo_apply x2 broadcasts_S1x1024_S1024x1024 (ix2 p q) (ix2 (0 : Fin 1) q)
    (fun a => by match a with | ⟨0, _⟩ => rfl | ⟨1, _⟩ => rfl)]
  refine congrArg (· + x2 (ix2 (0 : Fin 1) q)) ?_
  exact RowOps.matmulT_zero_apply (φ₁ := .bf16) (φ₂ := .bf16) dot_S1024x1024_S1024x1024_S1024x1024_1_1_0_0_n_n none rfl rfl
    (fun _ _ => rfl) (fun _ _ => rfl) (fun _ _ => rfl) (fun _ _ => rfl)
    x0 (truncf .bf16 x1 bitsLt_bf16_f32) p q

/-! ## The windows' block indices -/

/-- At grid point `t`: x's block and the output's block are row block `t`, column block 0; the weight's and the
    bias row's block is always block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's rectangles start at the origin. -/
theorem origin4 : (![0, 0] : Fin 2 → Nat) = fun _ => 0 := funext fun a => by fin_cases a <;> rfl

/-! ## The projection with bias -/

/-- The projection of an [8192,1024] array `x` by a [1024,1024] weight `w`, plus a bias row `b`, index by index:
    entry (r, n) is the sum over k of x(r, k) · w(n, k), plus b(0, n). -/
def proj4 (x : S8192x1024.Idx → Elt Ideal .bf16) (w : S1024x1024.Idx → Elt Ideal .f32) (b : S1x1024.Idx → Elt Ideal .f32) :
    S8192x1024.Idx → Elt Ideal .f32 :=
  fun i => (∑ k : Fin 1024, x (ix2 (i 0) k) * w (ix2 (i 1) k)) + b (ix2 (0 : Fin 1) (i 1))

/-- `proj4` at an index. -/
theorem proj4_apply (x : S8192x1024.Idx → Elt Ideal .bf16) (w : S1024x1024.Idx → Elt Ideal .f32) (b : S1x1024.Idx → Elt Ideal .f32)
    (i : S8192x1024.Idx) :
    proj4 x w b i = (∑ k : Fin 1024, x (ix2 (i 0) k) * w (ix2 (i 1) k)) + b (ix2 (0 : Fin 1) (i 1)) := rfl

/-- The stored value at block entry (p, q) is the projection with bias at array index `i`, when row p of the
    x block is row `i 0` of `x`, row q of the weight block is row `i 1` of `w`, and entry q of the bias block
    is entry `i 1` of `b`. -/
theorem pay4_read (x : S8192x1024.Idx → Elt Ideal .bf16) (w : S1024x1024.Idx → Elt Ideal .f32) (b : S1x1024.Idx → Elt Ideal .f32)
    (x0 : Vec Ideal S1024x1024 .bf16) (x1 : Vec Ideal S1024x1024 .f32) (x2 : Vec Ideal S1x1024 .f32)
    (p q : Fin 1024) (i : S8192x1024.Idx)
    (hx : ∀ k : Fin 1024, x0 (ix2 p k) = x (ix2 (i 0) k))
    (hw : ∀ k : Fin 1024, x1 (ix2 q k) = w (ix2 (i 1) k))
    (hb : x2 (ix2 (0 : Fin 1) q) = b (ix2 (0 : Fin 1) (i 1))) :
    k4_pay1 x0 x1 x2 (ix2 p q) = proj4 x w b i := by
  rw [pay4_apply, hb]
  unfold proj4
  exact congrArg (· + b (ix2 (0 : Fin 1) (i 1))) (Finset.sum_congr rfl fun k _ => by rw [hx k, hw k])

/-! ## What a point writes back -/

/-- What point `t` writes back is row block `t` of the projection with bias of the arrays as the region finds
    them: a block's coordinate in its array is block index × block size + the coordinate inside the block. -/
theorem flushed4_eq (c : Dev nD) (t : Fin cfg4.N) :
    (dat4 V c).flushed 3 t
      = ((cfg4.win 3).blk t).view.read (Elt Ideal) (proj4 (V c main_v10) (V c main_arg6) (V c main_v11)) := by
  show (cfg4.win 3).cut (grid4.coords t) ((dat4 V c).after 3 t) = _
  rw [after4_3]
  unfold out4_3
  rw [View.canon_unit_zero origin4]
  simp only [View.ld_unit_zero (S := S1024x1024) origin4, View.ld_unit_zero (S := S1x1024) origin4]
  obtain ⟨e0, e1, e2, e3, e4, e5, e6, e7⟩ := idx_facts4 t
  funext j
  have h0 : (j 0).val < 1024 := (j 0).isLt
  have h1 : (j 1).val < 1024 := (j 1).isLt
  have hy : (win4 3).xinj (grid4.coords t) j = ix2 (⟨(j 0).val, h0⟩ : Fin 1024) (⟨(j 1).val, h1⟩ : Fin 1024) := by
    funext a
    match a with
    | ⟨0, _⟩ => rfl
    | ⟨1, _⟩ => rfl
  refine (congrArg (k4_pay1 (iblk4 V c 0 t) (iblk4 V c 1 t) (iblk4 V c 2 t)) hy).trans ?_
  refine pay4_read (V c main_v10) (V c main_arg6) (V c main_v11) (iblk4 V c 0 t) (iblk4 V c 1 t) (iblk4 V c 2 t)
    ⟨(j 0).val, h0⟩ ⟨(j 1).val, h1⟩ (((cfg4.win 3).blk t).view.emb j) (fun k => ?_) (fun k => ?_) ?_
  · show V c main_v10 (((cfg4.win 0).blk t).view.emb (ix2 _ k)) = V c main_v10 _
    refine congrArg (V c main_v10) (funext fun a => Fin.ext ?_)
    match a with
    | ⟨0, _⟩ => show win4_0.index t (0 : Fin 2) * 1024 + 1 * (j 0).val = win4_3.index t (0 : Fin 2) * 1024 + 1 * (j 0).val; omega
    | ⟨1, _⟩ => show win4_0.index t (1 : Fin 2) * 1024 + 1 * k.val = k.val; omega
  · show V c main_arg6 (((cfg4.win 1).blk t).view.emb (ix2 _ k)) = V c main_arg6 _
    refine congrArg (V c main_arg6) (funext fun a => Fin.ext ?_)
    match a with
    | ⟨0, _⟩ => show win4_1.index t (0 : Fin 2) * 1024 + 1 * (j 1).val = win4_3.index t (1 : Fin 2) * 1024 + 1 * (j 1).val; omega
    | ⟨1, _⟩ => show win4_1.index t (1 : Fin 2) * 1024 + 1 * k.val = k.val; omega
  · show V c main_v11 (((cfg4.win 2).blk t).view.emb (ix2 _ _)) = V c main_v11 _
    refine congrArg (V c main_v11) (funext fun a => Fin.ext ?_)
    match a with
    | ⟨0, _⟩ => show win4_2.index t (0 : Fin 2) * 1 + 1 * 0 = 0; omega
    | ⟨1, _⟩ => show win4_2.index t (1 : Fin 2) * 1024 + 1 * (j 1).val = win4_3.index t (1 : Fin 2) * 1024 + 1 * (j 1).val; omega

/-! ## The blocks cover the result array -/

/-- An index of the result array is in point `t`'s output block iff each coordinate is in the block's range. -/
theorem mem_blk4 (t : Fin cfg4.N) (i : S8192x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v12).slice (win4_3.rect t)).set ↔ _
  rw [View.set_slice_whole, Rect.mem_set_unit]
  exact Iff.rfl

/-- Every index of the result array is in the output block of the point its row names: row `r` is written
    back at point `r / 1024`. -/
theorem cover4 (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have ht : (i 0).val / 1024 < grid4.N := by rw [N_4]; omega
  refine ⟨⟨(i 0).val / 1024, ht⟩, flush4_3 _, ?_⟩
  rw [mem_blk4]
  obtain ⟨-, -, -, -, -, -, e6, e7⟩ := idx_facts4 ⟨(i 0).val / 1024, ht⟩
  have e6' : win4_3.index ⟨(i 0).val / 1024, ht⟩ (0 : Fin 2) = (i 0).val / 1024 := e6
  intro a
  match a with
  | ⟨0, _⟩ =>
    show win4_3.index ⟨(i 0).val / 1024, ht⟩ (0 : Fin 2) * 1024 ≤ (i 0).val
      ∧ (i 0).val < win4_3.index ⟨(i 0).val / 1024, ht⟩ (0 : Fin 2) * 1024 + 1024
    omega
  | ⟨1, _⟩ =>
    show win4_3.index ⟨(i 0).val / 1024, ht⟩ (1 : Fin 2) * 1024 ≤ (i 1).val
      ∧ (i 1).val < win4_3.index ⟨(i 0).val / 1024, ht⟩ (1 : Fin 2) * 1024 + 1024
    omega

/-! ## The result array after the region -/

/-- The result array after the region is the projection with bias of the region-entry arrays, index by index. -/
theorem final4 (c : Dev nD) :
    (dat4 (F := Ideal) V c).arrAt 3 cfg4.N = proj4 (V c main_v10) (V c main_arg6) (V c main_v11) :=
  (dat4 V c).arrAt_eq_of_cover 3 (proj4 (V c main_v10) (V c main_arg6) (V c main_v11))
    (fun t _ => flushed4_eq V c t) cover4

end Cert.KernelIdeal.Hand

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.AttnLayout.lean ====
import proofs.«181089_j2508260901282_2_alg».proof.Proof.Gen.KernelIdeal.Skeleton
import proofs.«181089_j2508260901282_2_alg».proof.Proof.LibKeepdims

/-!
# The attention kernel's layout operations read at an entry

A block `[1, n, 128]` holds two heads of 64 columns. The kernel drops the leading unit axis and
cuts the two halves of the columns; each lemma reads one of these at explicit coordinates.
-/

noncomputable section

open scoped BigOperators
open Idealize.ShloMosaic Idealize.ShloMosaic.ValueIdx
open Cert.KernelIdeal Cert.KernelIdeal.Gen

namespace Cert.Proof.Attn

/-- Columns 0–63 of a 128-column block: the block's first head. -/
abbrev colLo (d : Fin 64) : Fin 128 := ⟨d.val, by omega⟩
/-- Columns 64–127 of a 128-column block: the block's second head. -/
abbrev colHi (d : Fin 64) : Fin 128 := ⟨64 + d.val, by omega⟩

/-! ## Dropping the leading unit axis -/

/-- The query block without its unit axis, at `(r, c)`. -/
theorem pay7_apply (q : Vec Ideal S1x2048x128 .bf16) (r : Fin 2048) (c : Fin 128) :
    k3_pay7 (F := Ideal) q (ix2 r c) = q (ix3 (0 : Fin 1) r c) :=
  shapeCast_1ab_ab_apply q shapeCasts_S1x2048x128_S2048x128 r c

/-- The key block without its unit axis, at `(j, c)`. -/
theorem pay8_apply (kk : Vec Ideal S1x1024x128 .bf16) (j : Fin 1024) (c : Fin 128) :
    k3_pay8 (F := Ideal) kk (ix2 j c) = kk (ix3 (0 : Fin 1) j c) :=
  shapeCast_1ab_ab_apply kk shapeCasts_S1x1024x128_S1024x128 j c

/-- The value block without its unit axis, at `(j, c)`. -/
theorem pay9_apply (vv : Vec Ideal S1x1024x128 .bf16) (j : Fin 1024) (c : Fin 128) :
    k3_pay9 (F := Ideal) vv (ix2 j c) = vv (ix3 (0 : Fin 1) j c) :=
  shapeCast_1ab_ab_apply vv shapeCasts_S1x1024x128_S1024x128 j c

/-! ## The two halves of the columns -/

/-- The first 64 columns of a `[2048, 128]` array, at `(r, d)`. -/
theorem sliceLo2048_apply (x : FVec Ideal S2048x128 .bf16) (r : Fin 2048) (d : Fin 64) :
    extractStridedSlice S2048x64 ![0, 0] x slices_S2048x128_o0_0_S2048x64 (ix2 r d) = x (ix2 r (colLo d)) :=
  slice2_axis1_apply 0 x slices_S2048x128_o0_0_S2048x64 r d (colLo d) (Nat.zero_add _).symm

/-- The last 64 columns of a `[2048, 128]` array, at `(r, d)`. -/
theorem sliceHi2048_apply (x : FVec Ideal S2048x128 .bf16) (r : Fin 2048) (d : Fin 64) :
    extractStridedSlice S2048x64 ![0, 64] x slices_S2048x128_o0_64_S2048x64 (ix2 r d) = x (ix2 r (colHi d)) :=
  slice2_axis1_apply 64 x slices_S2048x128_o0_64_S2048x64 r d (colHi d) rfl

/-- The first 64 columns of a `[1024, 128]` array, at `(j, d)`. -/
theorem sliceLo1024_apply (x : FVec Ideal S1024x128 .bf16) (j : Fin 1024) (d : Fin 64) :
    extractStridedSlice S1024x64 ![0, 0] x slices_S1024x128_o0_0_S1024x64 (ix2 j d) = x (ix2 j (colLo d)) :=
  slice2_axis1_apply 0 x slices_S1024x128_o0_0_S1024x64 j d (colLo d) (Nat.zero_add _).symm

/-- The last 64 columns of a `[1024, 128]` array, at `(j, d)`. -/
theorem sliceHi1024_apply (x : FVec Ideal S1024x128 .bf16) (j : Fin 1024) (d : Fin 64) :
    extractStridedSlice S1024x64 ![0, 64] x slices_S1024x128_o0_64_S1024x64 (ix2 j d) = x (ix2 j (colHi d)) :=
  slice2_axis1_apply 64 x slices_S1024x128_o0_64_S1024x64 j d (colHi d) rfl

/-- The first head's values: the value block's first 64 columns, at `(j, d)`. -/
theorem pay10_apply (vv : Vec Ideal S1x1024x128 .bf16) (j : Fin 1024) (d : Fin 64) :
    k3_pay10 (F := Ideal) vv (ix2 j d) = vv (ix3 (0 : Fin 1) j (colLo d)) :=
  (sliceLo1024_apply (k3_pay9 (F := Ideal) vv) j d).trans (pay9_apply vv j (colLo d))

/-- The second head's values: the last 64 columns, at `(j, d)`. -/
theorem pay18_apply (v8 : FVec Ideal S1024x128 .bf16) (j : Fin 1024) (d : Fin 64) :
    k3_pay18 (F := Ideal) v8 (ix2 j d) = v8 (ix2 j (colHi d)) :=
  sliceHi1024_apply v8 j d

/-- The second head's values of the value block, at `(j, d)`. -/
theorem pay18_pay9_apply (vv : Vec Ideal S1x1024x128 .bf16) (j : Fin 1024) (d : Fin 64) :
    k3_pay18 (F := Ideal) (k3_pay9 (F := Ideal) vv) (ix2 j d) = vv (ix3 (0 : Fin 1) j (colHi d)) :=
  (pay18_apply _ j d).trans (pay9_apply vv j (colHi d))

/-! ## Casts to the same shape -/

/-- A cast of a `[2048, 1]` column to its own shape is the column. -/
theorem pay17_eq (x : FVec Ideal S2048x1 .f32) : k3_pay17 (F := Ideal) x = x :=
  shapeCast_self x shapeCasts_S2048x1_S2048x1

/-- A cast of a `[2048, 1]` column to its own shape is the column. -/
theorem pay2_eq (x : FVec Ideal S2048x1 .f32) : k3_pay2 (F := Ideal) x = x :=
  shapeCast_self x shapeCasts_S2048x1_S2048x1

end Cert.Proof.Attn

end
-- ==== Proof.AttnBlocks.lean ====
import proofs.«181089_j2508260901282_2_alg».proof.Proof.FrameAttnBody
import proofs.«181089_j2508260901282_2_alg».proof.Proof.AttnLayout
import proofs.«181089_j2508260901282_2_alg».proof.Proof.Spec
import proofs.«181089_j2508260901282_2_alg».proof.Proof.LibOnlineSoftmax
import Idealize.ShloMosaic.Lib.Pipeline.Value

/-!
# The attention region's blocks

At position `t` of the grid the batch is `t / 16`, the head pair `(t / 2) mod 8` and the key block
`t mod 2`. The query and output blocks are rows 0–2047 and columns `128p … 128p + 127` of their
batch; the key and value blocks are rows `1024·(t mod 2) …` of the same columns. The output blocks
of the odd positions tile the output array.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Attn Cert.Mha Cert.OnlineSoftmax

variable (V : (c : Dev nD) → (b : Ref sig .tc) → Buf (Elt Ideal) ((c : Thread nD τ).loc b))

/-- The windows' block indices at position `t`. -/
theorem idx_facts3 : ∀ t : Fin cfg3.N,
    win3_0.index t (0 : Fin 3) = t.val / 16 ∧ win3_0.index t (1 : Fin 3) = 0 ∧ win3_0.index t (2 : Fin 3) = t.val / 2 % 8
    ∧ win3_1.index t (0 : Fin 3) = t.val / 16 ∧ win3_1.index t (1 : Fin 3) = t.val % 2 ∧ win3_1.index t (2 : Fin 3) = t.val / 2 % 8
    ∧ win3_2.index t (0 : Fin 3) = t.val / 16 ∧ win3_2.index t (1 : Fin 3) = t.val % 2 ∧ win3_2.index t (2 : Fin 3) = t.val / 2 % 8
    ∧ win3_3.index t (0 : Fin 3) = t.val / 16 ∧ win3_3.index t (1 : Fin 3) = 0 ∧ win3_3.index t (2 : Fin 3) = t.val / 2 % 8 :=
  (by decide +kernel : ∀ t : Fin grid3.N, _)

/-- The array index of entry `(0, y, cc)` of the query block at position `t`. -/
theorem emb_q (t : Fin cfg3.N) (y : Fin 2048) (cc : Fin 128) (bb : Fin 4) (hb : bb.val = t.val / 16) (x : Fin 1024) (hx : x.val = t.val / 2 % 8 * 128 + cc.val) :
    ((cfg3.win 0).blk t).view.emb (ix3 (0 : Fin 1) y cc) = ix3 bb y x := by
  obtain ⟨e00, e01, e02, -⟩ := idx_facts3 t
  funext a; apply Fin.ext
  match a with
  | ⟨0, _⟩ => show win3_0.index t (0 : Fin 3) * 1 + 1 * 0 = bb.val; omega
  | ⟨1, _⟩ => show win3_0.index t (1 : Fin 3) * 2048 + 1 * y.val = y.val; omega
  | ⟨2, _⟩ => show win3_0.index t (2 : Fin 3) * 128 + 1 * cc.val = x.val; omega

/-- The array index of entry `(0, j, cc)` of the key block at position `t`. -/
theorem emb_k (t : Fin cfg3.N) (j : Fin 1024) (cc : Fin 128) (bb : Fin 4) (hb : bb.val = t.val / 16) (kr : Fin 2048) (hk : kr.val = t.val % 2 * 1024 + j.val)
    (x : Fin 1024) (hx : x.val = t.val / 2 % 8 * 128 + cc.val) :
    ((cfg3.win 1).blk t).view.emb (ix3 (0 : Fin 1) j cc) = ix3 bb kr x := by
  obtain ⟨-, -, -, e10, e11, e12, -⟩ := idx_facts3 t
  funext a; apply Fin.ext
  match a with
  | ⟨0, _⟩ => show win3_1.index t (0 : Fin 3) * 1 + 1 * 0 = bb.val; omega
  | ⟨1, _⟩ => show win3_1.index t (1 : Fin 3) * 1024 + 1 * j.val = kr.val; omega
  | ⟨2, _⟩ => show win3_1.index t (2 : Fin 3) * 128 + 1 * cc.val = x.val; omega

/-- The array index of entry `(0, j, cc)` of the value block at position `t`. -/
theorem emb_v (t : Fin cfg3.N) (j : Fin 1024) (cc : Fin 128) (bb : Fin 4) (hb : bb.val = t.val / 16) (kr : Fin 2048) (hk : kr.val = t.val % 2 * 1024 + j.val)
    (x : Fin 1024) (hx : x.val = t.val / 2 % 8 * 128 + cc.val) :
    ((cfg3.win 2).blk t).view.emb (ix3 (0 : Fin 1) j cc) = ix3 bb kr x := by
  obtain ⟨-, -, -, -, -, -, e20, e21, e22, -⟩ := idx_facts3 t
  funext a; apply Fin.ext
  match a with
  | ⟨0, _⟩ => show win3_2.index t (0 : Fin 3) * 1 + 1 * 0 = bb.val; omega
  | ⟨1, _⟩ => show win3_2.index t (1 : Fin 3) * 1024 + 1 * j.val = kr.val; omega
  | ⟨2, _⟩ => show win3_2.index t (2 : Fin 3) * 128 + 1 * cc.val = x.val; omega

/-- The array index of entry `(0, y, cc)` of the output block at position `t`. -/
theorem emb_o (t : Fin cfg3.N) (y : Fin 2048) (cc : Fin 128) (bb : Fin 4) (hb : bb.val = t.val / 16) (x : Fin 1024) (hx : x.val = t.val / 2 % 8 * 128 + cc.val) :
    ((cfg3.win 3).blk t).view.emb (ix3 (0 : Fin 1) y cc) = ix3 bb y x := by
  obtain ⟨-, -, -, -, -, -, -, -, -, e30, e31, e32⟩ := idx_facts3 t
  funext a; apply Fin.ext
  match a with
  | ⟨0, _⟩ => show win3_3.index t (0 : Fin 3) * 1 + 1 * 0 = bb.val; omega
  | ⟨1, _⟩ => show win3_3.index t (1 : Fin 3) * 2048 + 1 * y.val = y.val; omega
  | ⟨2, _⟩ => show win3_3.index t (2 : Fin 3) * 128 + 1 * cc.val = x.val; omega

/-- The query block's entries are the query array's. -/
theorem blk_q (c : Dev nD) (t : Fin cfg3.N) (y : Fin 2048) (cc : Fin 128) (bb : Fin 4) (hb : bb.val = t.val / 16) (x : Fin 1024) (hx : x.val = t.val / 2 % 8 * 128 + cc.val) :
    iblk3 V c 0 t (ix3 (0 : Fin 1) y cc) = arr3 (V c main_v6) bb y x := by
  show V c main_v6 (((cfg3.win 0).blk t).view.emb (ix3 (0 : Fin 1) y cc)) = V c main_v6 (ix3 bb y x)
  rw [emb_q t y cc bb hb x hx]
theorem blk_k (c : Dev nD) (t : Fin cfg3.N) (j : Fin 1024) (cc : Fin 128) (bb : Fin 4) (hb : bb.val = t.val / 16) (kr : Fin 2048) (hk : kr.val = t.val % 2 * 1024 + j.val)
    (x : Fin 1024) (hx : x.val = t.val / 2 % 8 * 128 + cc.val) :
    iblk3 V c 1 t (ix3 (0 : Fin 1) j cc) = arr3 (V c main_v7) bb kr x := by
  show V c main_v7 (((cfg3.win 1).blk t).view.emb (ix3 (0 : Fin 1) j cc)) = V c main_v7 (ix3 bb kr x)
  rw [emb_k t j cc bb hb kr hk x hx]
theorem blk_v (c : Dev nD) (t : Fin cfg3.N) (j : Fin 1024) (cc : Fin 128) (bb : Fin 4) (hb : bb.val = t.val / 16) (kr : Fin 2048) (hk : kr.val = t.val % 2 * 1024 + j.val)
    (x : Fin 1024) (hx : x.val = t.val / 2 % 8 * 128 + cc.val) :
    iblk3 V c 2 t (ix3 (0 : Fin 1) j cc) = arr3 (V c main_v8) bb kr x := by
  show V c main_v8 (((cfg3.win 2).blk t).view.emb (ix3 (0 : Fin 1) j cc)) = V c main_v8 (ix3 bb kr x)
  rw [emb_v t j cc bb hb kr hk x hx]

/-- An index of the output array is in position `t`'s block iff each coordinate is in the block's range. -/
theorem mem_blk3 (t : Fin cfg3.N) (i : S4x2048x1024.Idx) :
    i ∈ ((cfg3.win 3).blk t).view.set ↔ ∀ a : Fin 3, win3_3.index t a * S1x2048x128.size a ≤ (i a).val ∧ (i a).val < win3_3.index t a * S1x2048x128.size a + S1x2048x128.size a := by
  show i ∈ ((View.whole main_v9).slice (win3_3.rect t)).set ↔ _
  rw [View.set_slice_whole, Rect.mem_set_unit]
  exact Iff.rfl

/-- Every entry `(b, r, x)` of the output array is in the block written back at position `2(8b + x / 128) + 1`. -/
theorem cover3 (i : S4x2048x1024.Idx) :
    ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  have hN : cfg3.N = 64 := N_3
  obtain ⟨t, htv⟩ : ∃ t : Fin cfg3.N, t.val = ((i 0).val * 8 + (i 2).val / 128) * 2 + 1 := ⟨⟨_, by rw [hN]; omega⟩, rfl⟩
  obtain ⟨-, -, -, -, -, -, -, -, -, e30, e31, e32⟩ := idx_facts3 t
  refine ⟨t, (flush3_3 t).mpr (by omega), ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 2048 ≤ (i 1).val ∧ (i 1).val < win3_3.index t (1 : Fin 3) * 2048 + 2048; omega
  | ⟨2, _⟩ => show win3_3.index t (2 : Fin 3) * 128 ≤ (i 2).val ∧ (i 2).val < win3_3.index t (2 : Fin 3) * 128 + 128; omega

/-- `outsAt3` does not depend on how its position is spelt. -/
theorem outsAt3_congr {F : FTy → Type} [FloatOps F] (V : (c : Dev nD) → (b : Ref sig .tc) → Buf (Elt F) ((c : Thread nD τ).loc b))
    (c : Dev nD) (n n' : ℕ) (h : n = n') (hn : n < cfg3.N) (hn' : n' < cfg3.N) :
    outsAt3 V c n hn = outsAt3 V c n' hn' := by subst h; rfl

end Cert.KernelIdeal.Hand

end
-- ==== Proof.AttnPieces.lean ====
import proofs.«181089_j2508260901282_2_alg».proof.Proof.Gen.KernelIdeal.Skeleton
import proofs.«181089_j2508260901282_2_alg».proof.Proof.AttnLayout
import Idealize.ShloMosaic.Lib.Pipeline.FrameBody
import Idealize.ShloMosaic.Lib.Pipeline.Value

/-!
# Reading the running buffers of the attention kernel through their column rectangles

The row maxima and row sums live in `[2048, 2]` buffers, one column per head of the pair; the
weighted sums in a `[2048, 128]` buffer, 64 columns per head. Every store and load goes through
one of four rectangles (column 0, column 1, columns 0–63, columns 64–127, all rows) or through the
whole buffer. Here: where each rectangle places its indices, which buffer indices it misses, and
from these what a list of stored pieces holds, and what a load reads, at explicit coordinates.
-/

noncomputable section

open Idealize.ShloMosaic Idealize.ShloMosaic.ValueIdx
open Cert.KernelIdeal Cert.KernelIdeal.Gen

namespace Cert.Proof.Attn

variable {Val : EltTy → Type}

/-! ## The four rectangles -/

/-- Column 0 of a `[2048, 2]` buffer. -/
abbrev col0 : Rect S2048x2 := Rect.unit (s := S2048x2) ![0, 0] S2048x1.size inb_S2048x2_S2048x1_0_0
/-- Column 1 of a `[2048, 2]` buffer. -/
abbrev col1 : Rect S2048x2 := Rect.unit (s := S2048x2) ![0, 1] S2048x1.size inb_S2048x2_S2048x1_0_1
/-- Columns 0–63 of a `[2048, 128]` buffer. -/
abbrev loR : Rect S2048x128 := Rect.unit (s := S2048x128) ![0, 0] S2048x64.size inb_S2048x128_S2048x64_0_0
/-- Columns 64–127 of a `[2048, 128]` buffer. -/
abbrev hiR : Rect S2048x128 := Rect.unit (s := S2048x128) ![0, 64] S2048x64.size inb_S2048x128_S2048x64_0_64

theorem zero2 : (![0, 0] : Fin 2 → ℕ) = fun _ => 0 := by
  funext a; match a with
  | ⟨0, _⟩ => rfl
  | ⟨1, _⟩ => rfl

theorem zero3 : (![0, 0, 0] : Fin 3 → ℕ) = fun _ => 0 := by
  funext a; match a with
  | ⟨0, _⟩ => rfl
  | ⟨1, _⟩ => rfl
  | ⟨2, _⟩ => rfl

/-! ## Where each rectangle places its indices -/

theorem col0_idx (r : Fin 2048) (u : Fin 1) : col0.toLoadRect.idx (ix2 r u) = ix2 r (0 : Fin 2) := by
  funext a; apply Fin.ext; match a with
  | ⟨0, _⟩ => show 0 + 1 * r.val = r.val; omega
  | ⟨1, _⟩ => show 0 + 1 * u.val = 0; omega

theorem col1_idx (r : Fin 2048) (u : Fin 1) : col1.toLoadRect.idx (ix2 r u) = ix2 r (1 : Fin 2) := by
  funext a; apply Fin.ext; match a with
  | ⟨0, _⟩ => show 0 + 1 * r.val = r.val; omega
  | ⟨1, _⟩ => show 1 + 1 * u.val = 1; omega

theorem loR_idx (r : Fin 2048) (d : Fin 64) : loR.toLoadRect.idx (ix2 r d) = ix2 r (colLo d) := by
  funext a; apply Fin.ext; match a with
  | ⟨0, _⟩ => show 0 + 1 * r.val = r.val; omega
  | ⟨1, _⟩ => show 0 + 1 * d.val = d.val; omega

theorem hiR_idx (r : Fin 2048) (d : Fin 64) : hiR.toLoadRect.idx (ix2 r d) = ix2 r (colHi d) := by
  funext a; apply Fin.ext; match a with
  | ⟨0, _⟩ => show 0 + 1 * r.val = r.val; omega
  | ⟨1, _⟩ => show 64 + 1 * d.val = 64 + d.val; omega

/-! ## Which buffer indices each rectangle misses -/

theorem col0_miss (r : Fin 2048) : ix2 r (1 : Fin 2) ∉ col0.set := fun h => by
  have h1 := (Rect.mem_set_unit.mp h) 1
  change 0 ≤ 1 ∧ 1 < 0 + 1 at h1
  omega

theorem col1_miss (r : Fin 2048) : ix2 r (0 : Fin 2) ∉ col1.set := fun h => by
  have h1 := (Rect.mem_set_unit.mp h) 1
  change 1 ≤ 0 ∧ 0 < 1 + 1 at h1
  omega

theorem loR_miss (r : Fin 2048) (d : Fin 64) : ix2 r (colHi d) ∉ loR.set := fun h => by
  have h1 := (Rect.mem_set_unit.mp h) 1
  change 0 ≤ 64 + d.val ∧ 64 + d.val < 0 + 64 at h1
  omega

theorem hiR_miss (r : Fin 2048) (d : Fin 64) : ix2 r (colLo d) ∉ hiR.set := fun h => by
  have h1 := (Rect.mem_set_unit.mp h) 1
  change 64 ≤ d.val ∧ d.val < 64 + 64 at h1
  omega

/-! ## What a list of stored pieces holds -/

section Canon
variable [∀ e, Nonempty (Val e)] {e : EltTy}

/-- A last store into column 0 is what column 0 holds. -/
theorem canon_col0_hit (w : col0.shape.Idx → Val e) (L : List (View.Piece Val S2048x2 e)) (r : Fin 2048) :
    View.canon (⟨col0, w⟩ :: L) (ix2 r (0 : Fin 2)) = w (ix2 r (0 : Fin 1)) :=
  (congrArg (View.canon (⟨col0, w⟩ :: L)) (col0_idx r 0).symm).trans (View.canon_cons_emb col0 w L (ix2 r (0 : Fin 1)))

/-- A store into column 0 leaves column 1 as it was. -/
theorem canon_col0_miss (w : col0.shape.Idx → Val e) (L : List (View.Piece Val S2048x2 e)) (r : Fin 2048) :
    View.canon (⟨col0, w⟩ :: L) (ix2 r (1 : Fin 2)) = View.canon L (ix2 r (1 : Fin 2)) :=
  View.canon_cons_of_not_mem ⟨col0, w⟩ L (col0_miss r)

/-- A last store into column 1 is what column 1 holds. -/
theorem canon_col1_hit (w : col1.shape.Idx → Val e) (L : List (View.Piece Val S2048x2 e)) (r : Fin 2048) :
    View.canon (⟨col1, w⟩ :: L) (ix2 r (1 : Fin 2)) = w (ix2 r (0 : Fin 1)) :=
  (congrArg (View.canon (⟨col1, w⟩ :: L)) (col1_idx r 0).symm).trans (View.canon_cons_emb col1 w L (ix2 r (0 : Fin 1)))

/-- A store into column 1 leaves column 0 as it was. -/
theorem canon_col1_miss (w : col1.shape.Idx → Val e) (L : List (View.Piece Val S2048x2 e)) (r : Fin 2048) :
    View.canon (⟨col1, w⟩ :: L) (ix2 r (0 : Fin 2)) = View.canon L (ix2 r (0 : Fin 2)) :=
  View.canon_cons_of_not_mem ⟨col1, w⟩ L (col1_miss r)

/-- A last store into columns 0–63 is what they hold. -/
theorem canon_lo_hit (w : loR.shape.Idx → Val e) (L : List (View.Piece Val S2048x128 e)) (r : Fin 2048) (d : Fin 64) :
    View.canon (⟨loR, w⟩ :: L) (ix2 r (colLo d)) = w (ix2 r d) :=
  (congrArg (View.canon (⟨loR, w⟩ :: L)) (loR_idx r d).symm).trans (View.canon_cons_emb loR w L (ix2 r d))

/-- A store into columns 0–63 leaves columns 64–127 as they were. -/
theorem canon_lo_miss (w : loR.shape.Idx → Val e) (L : List (View.Piece Val S2048x128 e)) (r : Fin 2048) (d : Fin 64) :
    View.canon (⟨loR, w⟩ :: L) (ix2 r (colHi d)) = View.canon L (ix2 r (colHi d)) :=
  View.canon_cons_of_not_mem ⟨loR, w⟩ L (loR_miss r d)

/-- A last store into columns 64–127 is what they hold. -/
theorem canon_hi_hit (w : hiR.shape.Idx → Val e) (L : List (View.Piece Val S2048x128 e)) (r : Fin 2048) (d : Fin 64) :
    View.canon (⟨hiR, w⟩ :: L) (ix2 r (colHi d)) = w (ix2 r d) :=
  (congrArg (View.canon (⟨hiR, w⟩ :: L)) (hiR_idx r d).symm).trans (View.canon_cons_emb hiR w L (ix2 r d))

/-- A store into columns 64–127 leaves columns 0–63 as they were. -/
theorem canon_hi_miss (w : hiR.shape.Idx → Val e) (L : List (View.Piece Val S2048x128 e)) (r : Fin 2048) (d : Fin 64) :
    View.canon (⟨hiR, w⟩ :: L) (ix2 r (colLo d)) = View.canon L (ix2 r (colLo d)) :=
  View.canon_cons_of_not_mem ⟨hiR, w⟩ L (hiR_miss r d)

/-- A last store of a whole `[2048, 2]` buffer is what it holds. -/
theorem canon_whole2 (inb : ∀ a, (![0, 0] : Fin 2 → ℕ) a + S2048x2.size a ≤ S2048x2.size a)
    (w : S2048x2.Idx → Val e) (L : List (View.Piece Val S2048x2 e)) :
    View.canon ((⟨Rect.unit (s := S2048x2) ![0, 0] S2048x2.size inb, w⟩ : View.Piece Val S2048x2 e) :: L) = w :=
  View.canon_cons_unit_zero zero2 inb w L

/-- A last store of a whole `[2048, 128]` buffer is what it holds. -/
theorem canon_whole128 (inb : ∀ a, (![0, 0] : Fin 2 → ℕ) a + S2048x128.size a ≤ S2048x128.size a)
    (w : S2048x128.Idx → Val e) (L : List (View.Piece Val S2048x128 e)) :
    View.canon ((⟨Rect.unit (s := S2048x128) ![0, 0] S2048x128.size inb, w⟩ : View.Piece Val S2048x128 e) :: L) = w :=
  View.canon_cons_unit_zero zero2 inb w L

/-- A last store of a whole `[1, 2048, 128]` block is what it holds. -/
theorem canon_whole3 (inb : ∀ a, (![0, 0, 0] : Fin 3 → ℕ) a + S1x2048x128.size a ≤ S1x2048x128.size a)
    (w : S1x2048x128.Idx → Val e) (L : List (View.Piece Val S1x2048x128 e)) :
    View.canon ((⟨Rect.unit (s := S1x2048x128) ![0, 0, 0] S1x2048x128.size inb, w⟩ : View.Piece Val S1x2048x128 e) :: L) = w :=
  View.canon_cons_unit_zero zero3 inb w L

/-! ## What a load after stores reads -/

variable {sig : RefSig} {κ : Kind} {sp : Space}

theorem readCov_col0 (v : View sig κ sp S2048x2 e) (L : List (View.Piece Val S2048x2 e)) (r : Fin 2048) (u : Fin 1) :
    v.readCov L col0.toLoadRect (ix2 r u) = View.canon L (ix2 r (0 : Fin 2)) :=
  (congrFun (View.readCov_eq_canon' v L col0.toLoadRect) (ix2 r u)).trans (congrArg (View.canon L) (col0_idx r u))

theorem readCov_col1 (v : View sig κ sp S2048x2 e) (L : List (View.Piece Val S2048x2 e)) (r : Fin 2048) (u : Fin 1) :
    v.readCov L col1.toLoadRect (ix2 r u) = View.canon L (ix2 r (1 : Fin 2)) :=
  (congrFun (View.readCov_eq_canon' v L col1.toLoadRect) (ix2 r u)).trans (congrArg (View.canon L) (col1_idx r u))

theorem readCov_lo (v : View sig κ sp S2048x128 e) (L : List (View.Piece Val S2048x128 e)) (r : Fin 2048) (d : Fin 64) :
    v.readCov L loR.toLoadRect (ix2 r d) = View.canon L (ix2 r (colLo d)) :=
  (congrFun (View.readCov_eq_canon' v L loR.toLoadRect) (ix2 r d)).trans (congrArg (View.canon L) (loR_idx r d))

theorem readCov_hi (v : View sig κ sp S2048x128 e) (L : List (View.Piece Val S2048x128 e)) (r : Fin 2048) (d : Fin 64) :
    v.readCov L hiR.toLoadRect (ix2 r d) = View.canon L (ix2 r (colHi d)) :=
  (congrFun (View.readCov_eq_canon' v L hiR.toLoadRect) (ix2 r d)).trans (congrArg (View.canon L) (hiR_idx r d))

end Canon

/-! ## What a load of a buffer held whole reads -/

variable {sig : RefSig} {κ : Kind} {sp : Space} {e : EltTy}

/-- A load through the whole-shape rectangle of a buffer held at `X` reads `X`. -/
theorem readAt_whole {S : Shape} (m : Memref sig κ sp S e) (h : m.IsWhole) {off : Fin S.rank → ℕ}
    (hz : off = fun _ => 0) (inb : ∀ a, off a + S.size a ≤ S.size a) (X : S.Idx → Val e) :
    View.readAt Val m.view (Rect.unit off S.size inb).toLoadRect (h.unread X) = X := by
  rw [View.readAt_eq_ld, h.read_unread, View.ld_unit_zero hz]

theorem readAt_col0 (m : Memref sig κ sp S2048x2 e) (h : m.IsWhole) (X : S2048x2.Idx → Val e) (r : Fin 2048) (u : Fin 1) :
    View.readAt Val m.view col0.toLoadRect (h.unread X) (ix2 r u) = X (ix2 r (0 : Fin 2)) := by
  rw [View.readAt_eq_ld, h.read_unread]; exact congrArg X (col0_idx r u)

theorem readAt_col1 (m : Memref sig κ sp S2048x2 e) (h : m.IsWhole) (X : S2048x2.Idx → Val e) (r : Fin 2048) (u : Fin 1) :
    View.readAt Val m.view col1.toLoadRect (h.unread X) (ix2 r u) = X (ix2 r (1 : Fin 2)) := by
  rw [View.readAt_eq_ld, h.read_unread]; exact congrArg X (col1_idx r u)

theorem readAt_lo (m : Memref sig κ sp S2048x128 e) (h : m.IsWhole) (X : S2048x128.Idx → Val e) (r : Fin 2048) (d : Fin 64) :
    View.readAt Val m.view loR.toLoadRect (h.unread X) (ix2 r d) = X (ix2 r (colLo d)) := by
  rw [View.readAt_eq_ld, h.read_unread]; exact congrArg X (loR_idx r d)

theorem readAt_hi (m : Memref sig κ sp S2048x128 e) (h : m.IsWhole) (X : S2048x128.Idx → Val e) (r : Fin 2048) (d : Fin 64) :
    View.readAt Val m.view hiR.toLoadRect (h.unread X) (ix2 r d) = X (ix2 r (colHi d)) := by
  rw [View.readAt_eq_ld, h.read_unread]; exact congrArg X (hiR_idx r d)

end Cert.Proof.Attn

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.AttnDots.lean ====
import proofs.«181089_j2508260901282_2_alg».proof.Proof.Gen.KernelIdeal.Skeleton
import proofs.«181089_j2508260901282_2_alg».proof.Proof.LibRowOps
import proofs.«181089_j2508260901282_2_alg».proof.Proof.LibPlainDot

/-!
# The attention kernel's two matrix products and its scale, read at an entry

The score product contracts the 64 columns of a head: query rows against key rows, "left times
right transposed". The value product contracts the 1024 keys of a block: probabilities against
value rows, a plain product. Both accumulate into zero, so at an entry each is the contraction
sum. The scale word `0x3E000000` denotes 1/8.
-/

noncomputable section

open scoped BigOperators
open Idealize.ShloMosaic Idealize.ShloMosaic.ValueIdx
open Cert.KernelIdeal Cert.KernelIdeal.Gen

namespace Cert.Proof.Attn

/-- The binary32 word `0x3E000000` denotes 1/8. -/
theorem ofBits_eighth : Ideal.ofBits .f32 0x3E000000#32 = ((((1 : ℝ) / 8 : ℝ)) : EReal) := by
  simp [Ideal.ofBits, Ideal.ieee, -EReal.coe_mul]; norm_num

/-! ## The score product: rows of the left operand against rows of the right -/

theorem qk_l0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide),
    dif_pos (show (0 : Fin S2048x64.rank) ∈ dot_S2048x64_S1024x64_S2048x1024_1_1_0_0_n_n.lhsNonContracting by decide)]
  rfl

theorem qk_l1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q

theorem qk_r0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide),
    dif_pos (show (0 : Fin S1024x64.rank) ∈ dot_S2048x64_S1024x64_S2048x1024_1_1_0_0_n_n.rhsNonContracting by decide)]
  rfl

theorem qk_r1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- The score product into the zero accumulator at entry `(r, j)`: the dot product of row `r` of
the left operand and row `j` of the right. -/
theorem qk_apply (lhs : FVec Ideal S2048x64 .bf16) (rhs : FVec Ideal S1024x64 .bf16)
    (r : Fin 2048) (j : Fin 1024) :
    matmul dot_S2048x64_S1024x64_S2048x1024_1_1_0_0_n_n none lhs rhs
        (constant (F := Ideal) S2048x1024 .f32 0x00000000#32) (ix2 r j)
      = ∑ d : Fin 64, lhs (ix2 r d) * rhs (ix2 j d) :=
  RowOps.matmulT_zero_apply dot_S2048x64_S1024x64_S2048x1024_1_1_0_0_n_n none rfl rfl
    qk_l0 qk_l1 qk_r0 qk_r1 lhs rhs r j

/-! ## The value product: rows of the left operand against columns of the right -/

theorem pv_l0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide),
    dif_pos (show (0 : Fin S2048x1024.rank) ∈ dot_S2048x1024_S1024x64_S2048x64_1_0_0_1_n_n.lhsNonContracting by decide)]
  rfl

theorem pv_l1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q

theorem pv_r0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q

theorem pv_r1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide),
    dif_pos (show (1 : Fin S1024x64.rank) ∈ dot_S2048x1024_S1024x64_S2048x64_1_0_0_1_n_n.rhsNonContracting by decide)]
  rfl

/-- The value product into the zero accumulator at entry `(r, d)`: the sum over the block's keys of
the left operand's row `r` times the right operand's column `d`. -/
theorem pv_apply (lhs : FVec Ideal S2048x1024 .bf16) (rhs : FVec Ideal S1024x64 .bf16)
    (r : Fin 2048) (d : Fin 64) :
    matmul dot_S2048x1024_S1024x64_S2048x64_1_0_0_1_n_n none lhs rhs
        (constant (F := Ideal) S2048x64 .f32 0x00000000#32) (ix2 r d)
      = ∑ j : Fin 1024, lhs (ix2 r j) * rhs (ix2 j d) :=
  PlainDot.matmul_zero_apply dot_S2048x1024_S1024x64_S2048x64_1_0_0_1_n_n none rfl rfl
    pv_l0 pv_l1 pv_r0 pv_r1 lhs rhs r d

end Cert.Proof.Attn

end
-- ==== Proof.AttnPay0.lean ====
import proofs.«181089_j2508260901282_2_alg».proof.Proof.Gen.KernelIdeal.Skeleton
import proofs.«181089_j2508260901282_2_alg».proof.Proof.LibRowOps
import proofs.«181089_j2508260901282_2_alg».proof.Proof.LibKeepdims
import proofs.«181089_j2508260901282_2_alg».proof.Proof.AttnDots
import proofs.«181089_j2508260901282_2_alg».proof.Proof.AttnLayout

/-!
# The first head's arithmetic in one pass of the attention kernel, entry by entry

For query row `r`, key `j` of the current block and column `d` of the head: the scaled score, the
new running maximum, the rescaling factor, the exponentials, the new running sum and the new
running weighted sum, each as a formula in the entries of the blocks and of the carried state.
-/

noncomputable section

open scoped BigOperators
open Idealize.ShloMosaic Idealize.ShloMosaic.ValueIdx
open Cert.KernelIdeal Cert.KernelIdeal.Gen

namespace Cert.Proof.Attn

/-- The scaled score of query row `r` against key `j` in the block's first head. -/
theorem pay11_apply (q : Vec Ideal S1x2048x128 .bf16) (kk : Vec Ideal S1x1024x128 .bf16)
    (r : Fin 2048) (j : Fin 1024) :
    k3_pay11 (F := Ideal) q kk (ix2 r j)
      = (∑ d : Fin 64, q (ix3 (0 : Fin 1) r (colLo d)) * kk (ix3 (0 : Fin 1) j (colLo d)))
          * ((((1 : ℝ) / 8 : ℝ)) : EReal) := by
  unfold k3_pay11
  refine (mulf_apply _ _ _).trans ?_
  refine congrArg₂ (· * ·) ?_ ofBits_eighth
  refine (qk_apply _ _ r j).trans ?_
  refine Finset.sum_congr rfl fun d _ => ?_
  exact congrArg₂ (· * ·)
    ((sliceLo2048_apply _ r d).trans (pay7_apply q r (colLo d)))
    ((sliceLo1024_apply _ j d).trans (pay8_apply kk j (colLo d)))

/-- The new running maximum of row `r`: the old one against the block's largest score. -/
theorem pay12_apply (q : Vec Ideal S1x2048x128 .bf16) (kk : Vec Ideal S1x1024x128 .bf16)
    (m0 : Vec Ideal S2048x1 .f32) (r : Fin 2048) :
    k3_pay12 (F := Ideal) q kk m0 (ix2 r (0 : Fin 1))
      = max (m0 (ix2 r (0 : Fin 1)))
          ((Finset.univ : Finset (Fin 1024)).fold max ⊥ fun j => k3_pay11 (F := Ideal) q kk (ix2 r j)) := by
  unfold k3_pay12
  refine (maximumf_apply _ _ _).trans ?_
  refine congrArg (max (m0 (ix2 r (0 : Fin 1)))) ?_
  refine (Keepdims.shapeCast_a_a1_apply _ shapeCasts_S2048_S2048x1 r (0 : Fin 1)).trans ?_
  exact RowOps.rowMax_apply (k3_pay11 (F := Ideal) q kk) reduces_S2048x1024_S2048 rfl r

/-- The rescaling factor of row `r`: `exp (old maximum − new maximum)`. -/
theorem pay13_apply (q : Vec Ideal S1x2048x128 .bf16) (kk : Vec Ideal S1x1024x128 .bf16)
    (m0 : Vec Ideal S2048x1 .f32) (i : S2048x1.Idx) :
    k3_pay13 (F := Ideal) q kk m0 i = Ideal.exp (m0 i - k3_pay12 (F := Ideal) q kk m0 i) := rfl

/-- The exponential of a score less the new running maximum of its row. -/
theorem pay14_apply (q : Vec Ideal S1x2048x128 .bf16) (kk : Vec Ideal S1x1024x128 .bf16)
    (m0 : Vec Ideal S2048x1 .f32) (r : Fin 2048) (j : Fin 1024) :
    k3_pay14 (F := Ideal) q kk m0 (ix2 r j)
      = Ideal.exp (k3_pay11 (F := Ideal) q kk (ix2 r j) - k3_pay12 (F := Ideal) q kk m0 (ix2 r (0 : Fin 1))) := by
  unfold k3_pay14
  show Ideal.exp (k3_pay11 (F := Ideal) q kk (ix2 r j)
    - broadcastTo S2048x1024 (k3_pay12 (F := Ideal) q kk m0) broadcasts_S2048x1_S2048x1024 (ix2 r j)) = _
  exact congrArg (fun x => Ideal.exp (k3_pay11 (F := Ideal) q kk (ix2 r j) - x))
    (Keepdims.broadcastTo_a1_ab_apply _ broadcasts_S2048x1_S2048x1024 r j)

/-- The new running sum of row `r`: the old one rescaled, plus the block's exponentials. -/
theorem pay15_apply (q : Vec Ideal S1x2048x128 .bf16) (kk : Vec Ideal S1x1024x128 .bf16)
    (m0 l0 : Vec Ideal S2048x1 .f32) (r : Fin 2048) :
    k3_pay15 (F := Ideal) q kk m0 l0 (ix2 r (0 : Fin 1))
      = k3_pay13 (F := Ideal) q kk m0 (ix2 r (0 : Fin 1)) * l0 (ix2 r (0 : Fin 1))
          + ∑ j : Fin 1024, k3_pay14 (F := Ideal) q kk m0 (ix2 r j) := by
  unfold k3_pay15
  refine (congrFun (shapeCast_self _ shapeCasts_S2048x1_S2048x1) _).trans ?_
  refine (addf_apply _ _ _).trans ?_
  refine congrArg₂ (· + ·) (mulf_apply _ _ _) ?_
  refine (Keepdims.shapeCast_a_a1_apply _ shapeCasts_S2048_S2048x1 r (0 : Fin 1)).trans ?_
  exact Keepdims.rowSum_apply (k3_pay14 (F := Ideal) q kk m0) reduces_S2048x1024_S2048 rfl r

/-- The new running weighted sum at `(r, d)`: the old one rescaled by the row's factor, plus the
block's weights against column `d` of the block's values. -/
theorem pay16_apply (v11 : FVec Ideal S1024x64 .bf16) (acc : Vec Ideal S2048x64 .f32)
    (a : FVec Ideal S2048x1 .f32) (p : FVec Ideal S2048x1024 .f32) (r : Fin 2048) (d : Fin 64) :
    k3_pay16 (F := Ideal) v11 acc a p (ix2 r d)
      = a (ix2 r (0 : Fin 1)) * acc (ix2 r d) + ∑ j : Fin 1024, p (ix2 r j) * v11 (ix2 j d) := by
  unfold k3_pay16
  refine (congrFun (shapeCast_self _ shapeCasts_S2048x64_S2048x64) _).trans ?_
  refine (addf_apply _ _ _).trans ?_
  refine congrArg₂ (· + ·) ?_ ?_
  · refine (mulf_apply _ _ _).trans ?_
    exact congrArg (· * acc (ix2 r d)) (Keepdims.broadcastTo_a1_ab_apply a broadcasts_S2048x1_S2048x64 r d)
  · exact pv_apply _ v11 r d

/-- The same with the first head's values read from the value block. -/
theorem pay16_pay10_apply (vv : Vec Ideal S1x1024x128 .bf16) (acc : Vec Ideal S2048x64 .f32)
    (a : FVec Ideal S2048x1 .f32) (p : FVec Ideal S2048x1024 .f32) (r : Fin 2048) (d : Fin 64) :
    k3_pay16 (F := Ideal) (k3_pay10 (F := Ideal) vv) acc a p (ix2 r d)
      = a (ix2 r (0 : Fin 1)) * acc (ix2 r d)
          + ∑ j : Fin 1024, p (ix2 r j) * vv (ix3 (0 : Fin 1) j (colLo d)) := by
  refine (pay16_apply _ acc a p r d).trans ?_
  refine congrArg (a (ix2 r (0 : Fin 1)) * acc (ix2 r d) + ·) ?_
  exact Finset.sum_congr rfl fun j _ => congrArg (p (ix2 r j) * ·) (pay10_apply vv j d)

end Cert.Proof.Attn

end
-- ==== Proof.AttnPay1.lean ====
import proofs.«181089_j2508260901282_2_alg».proof.Proof.Gen.KernelIdeal.Skeleton
import proofs.«181089_j2508260901282_2_alg».proof.Proof.LibRowOps
import proofs.«181089_j2508260901282_2_alg».proof.Proof.LibKeepdims
import proofs.«181089_j2508260901282_2_alg».proof.Proof.AttnDots
import proofs.«181089_j2508260901282_2_alg».proof.Proof.AttnLayout

/-!
# The second head's arithmetic in one pass of the attention kernel, entry by entry

The same formulas as for the first head, over columns 64–127 of the blocks. The query and key
blocks enter with their unit axis already dropped.
-/

noncomputable section

open scoped BigOperators
open Idealize.ShloMosaic Idealize.ShloMosaic.ValueIdx
open Cert.KernelIdeal Cert.KernelIdeal.Gen

namespace Cert.Proof.Attn

/-- The scaled score of query row `r` against key `j` in the second head. -/
theorem pay19_apply (v4 : FVec Ideal S2048x128 .bf16) (v6 : FVec Ideal S1024x128 .bf16)
    (r : Fin 2048) (j : Fin 1024) :
    k3_pay19 (F := Ideal) v4 v6 (ix2 r j)
      = (∑ d : Fin 64, v4 (ix2 r (colHi d)) * v6 (ix2 j (colHi d))) * ((((1 : ℝ) / 8 : ℝ)) : EReal) := by
  unfold k3_pay19
  refine (mulf_apply _ _ _).trans ?_
  refine congrArg₂ (· * ·) ?_ ofBits_eighth
  refine (qk_apply _ _ r j).trans ?_
  refine Finset.sum_congr rfl fun d _ => ?_
  exact congrArg₂ (· * ·) (sliceHi2048_apply v4 r d) (sliceHi1024_apply v6 j d)

/-- The same with the query and key blocks' unit axis dropped by the kernel's casts. -/
theorem pay19_blocks_apply (q : Vec Ideal S1x2048x128 .bf16) (kk : Vec Ideal S1x1024x128 .bf16)
    (r : Fin 2048) (j : Fin 1024) :
    k3_pay19 (F := Ideal) (k3_pay7 (F := Ideal) q) (k3_pay8 (F := Ideal) kk) (ix2 r j)
      = (∑ d : Fin 64, q (ix3 (0 : Fin 1) r (colHi d)) * kk (ix3 (0 : Fin 1) j (colHi d)))
          * ((((1 : ℝ) / 8 : ℝ)) : EReal) := by
  refine (pay19_apply _ _ r j).trans ?_
  refine congrArg (· * ((((1 : ℝ) / 8 : ℝ)) : EReal)) ?_
  exact Finset.sum_congr rfl fun d _ =>
    congrArg₂ (· * ·) (pay7_apply q r (colHi d)) (pay8_apply kk j (colHi d))

/-- The new running maximum of row `r`. -/
theorem pay20_apply (v4 : FVec Ideal S2048x128 .bf16) (v6 : FVec Ideal S1024x128 .bf16)
    (m1 : Vec Ideal S2048x1 .f32) (r : Fin 2048) :
    k3_pay20 (F := Ideal) v4 v6 m1 (ix2 r (0 : Fin 1))
      = max (m1 (ix2 r (0 : Fin 1)))
          ((Finset.univ : Finset (Fin 1024)).fold max ⊥ fun j => k3_pay19 (F := Ideal) v4 v6 (ix2 r j)) := by
  unfold k3_pay20
  refine (maximumf_apply _ _ _).trans ?_
  refine congrArg (max (m1 (ix2 r (0 : Fin 1)))) ?_
  refine (Keepdims.shapeCast_a_a1_apply _ shapeCasts_S2048_S2048x1 r (0 : Fin 1)).trans ?_
  exact RowOps.rowMax_apply (k3_pay19 (F := Ideal) v4 v6) reduces_S2048x1024_S2048 rfl r

/-- The rescaling factor of row `r`. -/
theorem pay21_apply (v4 : FVec Ideal S2048x128 .bf16) (v6 : FVec Ideal S1024x128 .bf16)
    (m1 : Vec Ideal S2048x1 .f32) (i : S2048x1.Idx) :
    k3_pay21 (F := Ideal) v4 v6 m1 i = Ideal.exp (m1 i - k3_pay20 (F := Ideal) v4 v6 m1 i) := rfl

/-- The exponential of a score less the new running maximum of its row. -/
theorem pay22_apply (v4 : FVec Ideal S2048x128 .bf16) (v6 : FVec Ideal S1024x128 .bf16)
    (m1 : Vec Ideal S2048x1 .f32) (r : Fin 2048) (j : Fin 1024) :
    k3_pay22 (F := Ideal) v4 v6 m1 (ix2 r j)
      = Ideal.exp (k3_pay19 (F := Ideal) v4 v6 (ix2 r j) - k3_pay20 (F := Ideal) v4 v6 m1 (ix2 r (0 : Fin 1))) := by
  unfold k3_pay22
  show Ideal.exp (k3_pay19 (F := Ideal) v4 v6 (ix2 r j)
    - broadcastTo S2048x1024 (k3_pay20 (F := Ideal) v4 v6 m1) broadcasts_S2048x1_S2048x1024 (ix2 r j)) = _
  exact congrArg (fun x => Ideal.exp (k3_pay19 (F := Ideal) v4 v6 (ix2 r j) - x))
    (Keepdims.broadcastTo_a1_ab_apply _ broadcasts_S2048x1_S2048x1024 r j)

/-- The new running sum of row `r`. -/
theorem pay23_apply (v4 : FVec Ideal S2048x128 .bf16) (v6 : FVec Ideal S1024x128 .bf16)
    (m1 l1 : Vec Ideal S2048x1 .f32) (r : Fin 2048) :
    k3_pay23 (F := Ideal) v4 v6 m1 l1 (ix2 r (0 : Fin 1))
      = k3_pay21 (F := Ideal) v4 v6 m1 (ix2 r (0 : Fin 1)) * l1 (ix2 r (0 : Fin 1))
          + ∑ j : Fin 1024, k3_pay22 (F := Ideal) v4 v6 m1 (ix2 r j) := by
  unfold k3_pay23
  refine (congrFun (shapeCast_self _ shapeCasts_S2048x1_S2048x1) _).trans ?_
  refine (addf_apply _ _ _).trans ?_
  refine congrArg₂ (· + ·) (mulf_apply _ _ _) ?_
  refine (Keepdims.shapeCast_a_a1_apply _ shapeCasts_S2048_S2048x1 r (0 : Fin 1)).trans ?_
  exact Keepdims.rowSum_apply (k3_pay22 (F := Ideal) v4 v6 m1) reduces_S2048x1024_S2048 rfl r

/-- The old running weighted sum rescaled by the row's factor, at `(r, d)`. -/
theorem pay24_apply (v4 : FVec Ideal S2048x128 .bf16) (v6 : FVec Ideal S1024x128 .bf16)
    (m1 : Vec Ideal S2048x1 .f32) (acc : Vec Ideal S2048x64 .f32) (r : Fin 2048) (d : Fin 64) :
    k3_pay24 (F := Ideal) v4 v6 m1 acc (ix2 r d)
      = k3_pay21 (F := Ideal) v4 v6 m1 (ix2 r (0 : Fin 1)) * acc (ix2 r d) := by
  unfold k3_pay24
  refine (mulf_apply _ _ _).trans ?_
  exact congrArg (· * acc (ix2 r d))
    (Keepdims.broadcastTo_a1_ab_apply (k3_pay21 (F := Ideal) v4 v6 m1) broadcasts_S2048x1_S2048x64 r d)

/-- The weights handed to the value product are the exponentials. -/
theorem pay25_apply (v4 : FVec Ideal S2048x128 .bf16) (v6 : FVec Ideal S1024x128 .bf16)
    (m1 : Vec Ideal S2048x1 .f32) (i : S2048x1024.Idx) :
    k3_pay25 (F := Ideal) v4 v6 m1 i = k3_pay22 (F := Ideal) v4 v6 m1 i := rfl

/-- The new running weighted sum at `(r, d)`: the rescaled old one plus the block's weights against
column `d` of the values; the product accumulates into zero. -/
theorem pay1_apply (v46 : FVec Ideal S1024x64 .bf16) (v69 : FVec Ideal S2048x64 .f32)
    (v70 : FVec Ideal S2048x1024 .bf16) (r : Fin 2048) (d : Fin 64) :
    k3_pay1 (F := Ideal) v46 v69 v70 (constant (F := Ideal) S2048x64 .f32 0x00000000#32) (ix2 r d)
      = v69 (ix2 r d) + ∑ j : Fin 1024, v70 (ix2 r j) * v46 (ix2 j d) := by
  unfold k3_pay1
  refine (congrFun (shapeCast_self _ shapeCasts_S2048x64_S2048x64) _).trans ?_
  refine (addf_apply _ _ _).trans ?_
  exact congrArg (v69 (ix2 r d) + ·) (pv_apply v70 v46 r d)

end Cert.Proof.Attn

end
-- ==== Proof.AttnStep.lean ====
import proofs.«181089_j2508260901282_2_alg».proof.Proof.Gen.KernelIdeal.Skeleton
import proofs.«181089_j2508260901282_2_alg».proof.Proof.LibOnlineSoftmax
import proofs.«181089_j2508260901282_2_alg».proof.Proof.AttnLayout
import proofs.«181089_j2508260901282_2_alg».proof.Proof.AttnPay0
import proofs.«181089_j2508260901282_2_alg».proof.Proof.AttnPay1

/-!
# One pass of the attention kernel is one step of the online softmax

For a query row `r` and a column `d` of a head, one pass of the kernel's body takes the carried
triple (running maximum of the row, running sum of the row, running weighted sum at `(r, d)`)
to `Cert.OnlineSoftmax.step` of the block's 1024 scores of row `r` and the block's values in
column `d`. The statement is for any carried state, so it can be applied pass after pass.
-/

noncomputable section

open scoped BigOperators
open Idealize.ShloMosaic Idealize.ShloMosaic.ValueIdx
open Cert.KernelIdeal Cert.KernelIdeal.Gen

namespace Cert.Proof.Attn

open Cert.OnlineSoftmax

/-- The scaled score of query row `r` against key `j` of the blocks' first head. -/
def scoreLo (q : Vec Ideal S1x2048x128 .bf16) (kk : Vec Ideal S1x1024x128 .bf16)
    (r : Fin 2048) (j : Fin 1024) : EReal :=
  (∑ d : Fin 64, q (ix3 (0 : Fin 1) r (colLo d)) * kk (ix3 (0 : Fin 1) j (colLo d)))
    * ((((1 : ℝ) / 8 : ℝ)) : EReal)

/-- The scaled score of query row `r` against key `j` of the blocks' second head. -/
def scoreHi (q : Vec Ideal S1x2048x128 .bf16) (kk : Vec Ideal S1x1024x128 .bf16)
    (r : Fin 2048) (j : Fin 1024) : EReal :=
  (∑ d : Fin 64, q (ix3 (0 : Fin 1) r (colHi d)) * kk (ix3 (0 : Fin 1) j (colHi d)))
    * ((((1 : ℝ) / 8 : ℝ)) : EReal)

/-- First head: the three values one pass stores — the new maximum and sum of row `r` and the new
weighted sum at `(r, d)` — are the online-softmax step of the carried triple. -/
theorem step_head0 (q : Vec Ideal S1x2048x128 .bf16) (kk vv : Vec Ideal S1x1024x128 .bf16)
    (m0 l0 : Vec Ideal S2048x1 .f32) (acc : Vec Ideal S2048x64 .f32) (r : Fin 2048) (d : Fin 64) :
    (k3_pay17 (F := Ideal) (k3_pay12 (F := Ideal) q kk m0) (ix2 r (0 : Fin 1)),
      k3_pay15 (F := Ideal) q kk m0 l0 (ix2 r (0 : Fin 1)),
      k3_pay16 (F := Ideal) (k3_pay10 (F := Ideal) vv) acc (k3_pay13 (F := Ideal) q kk m0)
        (k3_pay14 (F := Ideal) q kk m0) (ix2 r d))
      = step (fun j => scoreLo q kk r j) (fun j => vv (ix3 (0 : Fin 1) j (colLo d)))
          (m0 (ix2 r (0 : Fin 1)), l0 (ix2 r (0 : Fin 1)), acc (ix2 r d)) := by
  have hs : (fun j => k3_pay11 (F := Ideal) q kk (ix2 r j)) = fun j => scoreLo q kk r j :=
    funext fun j => pay11_apply q kk r j
  have h12 : k3_pay12 (F := Ideal) q kk m0 (ix2 r (0 : Fin 1))
      = max (m0 (ix2 r (0 : Fin 1)))
          ((Finset.univ : Finset (Fin 1024)).fold max ⊥ fun j => scoreLo q kk r j) :=
    (pay12_apply q kk m0 r).trans (by rw [hs])
  have h14 : ∀ j : Fin 1024, k3_pay14 (F := Ideal) q kk m0 (ix2 r j)
      = Ideal.exp (scoreLo q kk r j - max (m0 (ix2 r (0 : Fin 1)))
          ((Finset.univ : Finset (Fin 1024)).fold max ⊥ fun j => scoreLo q kk r j)) := fun j => by
    rw [pay14_apply, h12, pay11_apply]; rfl
  refine Prod.ext ?_ (Prod.ext ?_ ?_)
  · show k3_pay17 (F := Ideal) (k3_pay12 (F := Ideal) q kk m0) (ix2 r (0 : Fin 1)) = max _ _
    rw [pay17_eq]; exact h12
  · show k3_pay15 (F := Ideal) q kk m0 l0 (ix2 r (0 : Fin 1)) = Ideal.exp _ * _ + ∑ j : Fin 1024, Ideal.exp _
    rw [pay15_apply, pay13_apply, h12]
    exact congrArg (_ + ·) (Finset.sum_congr rfl fun j _ => h14 j)
  · show k3_pay16 (F := Ideal) (k3_pay10 (F := Ideal) vv) acc (k3_pay13 (F := Ideal) q kk m0)
        (k3_pay14 (F := Ideal) q kk m0) (ix2 r d) = Ideal.exp _ * _ + ∑ j : Fin 1024, Ideal.exp _ * _
    rw [pay16_pay10_apply, pay13_apply, h12]
    exact congrArg (_ + ·) (Finset.sum_congr rfl fun j _ => by rw [h14 j])

/-- Second head: the same, over columns 64–127 of the blocks. The weighted-sum product accumulates
into the zero array. -/
theorem step_head1 (q : Vec Ideal S1x2048x128 .bf16) (kk vv : Vec Ideal S1x1024x128 .bf16)
    (m1 l1 : Vec Ideal S2048x1 .f32) (acc : Vec Ideal S2048x64 .f32) (r : Fin 2048) (d : Fin 64) :
    (k3_pay2 (F := Ideal) (k3_pay20 (F := Ideal) (k3_pay7 (F := Ideal) q) (k3_pay8 (F := Ideal) kk) m1)
        (ix2 r (0 : Fin 1)),
      k3_pay23 (F := Ideal) (k3_pay7 (F := Ideal) q) (k3_pay8 (F := Ideal) kk) m1 l1 (ix2 r (0 : Fin 1)),
      k3_pay1 (F := Ideal) (k3_pay18 (F := Ideal) (k3_pay9 (F := Ideal) vv))
        (k3_pay24 (F := Ideal) (k3_pay7 (F := Ideal) q) (k3_pay8 (F := Ideal) kk) m1 acc)
        (k3_pay25 (F := Ideal) (k3_pay7 (F := Ideal) q) (k3_pay8 (F := Ideal) kk) m1)
        (constant (F := Ideal) S2048x64 .f32 0x00000000#32) (ix2 r d))
      = step (fun j => scoreHi q kk r j) (fun j => vv (ix3 (0 : Fin 1) j (colHi d)))
          (m1 (ix2 r (0 : Fin 1)), l1 (ix2 r (0 : Fin 1)), acc (ix2 r d)) := by
  have hs : (fun j => k3_pay19 (F := Ideal) (k3_pay7 (F := Ideal) q) (k3_pay8 (F := Ideal) kk) (ix2 r j))
      = fun j => scoreHi q kk r j := funext fun j => pay19_blocks_apply q kk r j
  have h20 : k3_pay20 (F := Ideal) (k3_pay7 (F := Ideal) q) (k3_pay8 (F := Ideal) kk) m1 (ix2 r (0 : Fin 1))
      = max (m1 (ix2 r (0 : Fin 1)))
          ((Finset.univ : Finset (Fin 1024)).fold max ⊥ fun j => scoreHi q kk r j) :=
    (pay20_apply _ _ m1 r).trans (by rw [hs])
  have h22 : ∀ j : Fin 1024,
      k3_pay22 (F := Ideal) (k3_pay7 (F := Ideal) q) (k3_pay8 (F := Ideal) kk) m1 (ix2 r j)
      = Ideal.exp (scoreHi q kk r j - max (m1 (ix2 r (0 : Fin 1)))
          ((Finset.univ : Finset (Fin 1024)).fold max ⊥ fun j => scoreHi q kk r j)) := fun j => by
    rw [pay22_apply, h20, pay19_blocks_apply]; rfl
  refine Prod.ext ?_ (Prod.ext ?_ ?_)
  · show k3_pay2 (F := Ideal) (k3_pay20 (F := Ideal) (k3_pay7 (F := Ideal) q) (k3_pay8 (F := Ideal) kk) m1)
      (ix2 r (0 : Fin 1)) = max _ _
    rw [pay2_eq]; exact h20
  · show k3_pay23 (F := Ideal) (k3_pay7 (F := Ideal) q) (k3_pay8 (F := Ideal) kk) m1 l1 (ix2 r (0 : Fin 1))
      = Ideal.exp _ * _ + ∑ j : Fin 1024, Ideal.exp _
    rw [pay23_apply, pay21_apply, h20]
    exact congrArg (_ + ·) (Finset.sum_congr rfl fun j _ => h22 j)
  · show k3_pay1 (F := Ideal) (k3_pay18 (F := Ideal) (k3_pay9 (F := Ideal) vv))
        (k3_pay24 (F := Ideal) (k3_pay7 (F := Ideal) q) (k3_pay8 (F := Ideal) kk) m1 acc)
        (k3_pay25 (F := Ideal) (k3_pay7 (F := Ideal) q) (k3_pay8 (F := Ideal) kk) m1)
        (constant (F := Ideal) S2048x64 .f32 0x00000000#32) (ix2 r d)
      = Ideal.exp _ * _ + ∑ j : Fin 1024, Ideal.exp _ * _
    rw [pay1_apply, pay24_apply, pay21_apply, h20]
    exact congrArg (_ + ·) (Finset.sum_congr rfl fun j _ => by
      rw [pay25_apply, h22 j, pay18_pay9_apply])

end Cert.Proof.Attn

end
-- ==== Proof.AttnEnds.lean ====
import proofs.«181089_j2508260901282_2_alg».proof.Proof.Gen.KernelIdeal.Skeleton
import proofs.«181089_j2508260901282_2_alg».proof.Proof.LibRowOps
import proofs.«181089_j2508260901282_2_alg».proof.Proof.LibKeepdims
import proofs.«181089_j2508260901282_2_alg».proof.Proof.AttnLayout

/-!
# The attention kernel's start state and its final quotient, entry by entry

Before the first key block the running maxima are `−∞` and both running sums are zero. After the
last block each output entry is the running weighted sum over the running sum of its row, the
two heads side by side in the 128 columns.
-/

noncomputable section

open scoped BigOperators
open Idealize.ShloMosaic Idealize.ShloMosaic.ValueIdx
open Cert.KernelIdeal Cert.KernelIdeal.Gen

namespace Cert.Proof.Attn

/-- The running maxima start at `−∞`. -/
theorem pay4_eq : k3_pay4 (F := Ideal) = fun _ => (⊥ : EReal) := by
  funext i
  unfold k3_pay4
  refine (congrFun (shapeCast_self _ shapeCasts_S2048x2_S2048x2) i).trans ?_
  exact RowOps.ofBits_neg_inf

/-- The running sums start at zero. -/
theorem pay5_eq : k3_pay5 (F := Ideal) = fun _ => (0 : EReal) := by
  funext i
  unfold k3_pay5
  refine (congrFun (shapeCast_self _ shapeCasts_S2048x2_S2048x2) i).trans ?_
  exact Ideal.ofBits_zero_f32

/-- The running weighted sums start at zero. -/
theorem pay6_eq : k3_pay6 (F := Ideal) = fun _ => (0 : EReal) := by
  funext i
  unfold k3_pay6
  refine (congrFun (shapeCast_self _ shapeCasts_S2048x128_S2048x128) i).trans ?_
  exact Ideal.ofBits_zero_f32

/-- The output block in its first 64 columns: the first head's weighted sum over its row's sum. -/
theorem pay3_lo_apply (a0 : Vec Ideal S2048x64 .f32) (l0 : Vec Ideal S2048x1 .f32)
    (a1 : Vec Ideal S2048x64 .f32) (l1 : Vec Ideal S2048x1 .f32) (r : Fin 2048) (d : Fin 64) :
    k3_pay3 (F := Ideal) a0 l0 a1 l1 (ix3 (0 : Fin 1) r (colLo d))
      = Ideal.div (a0 (ix2 r d)) (l0 (ix2 r (0 : Fin 1))) := by
  unfold k3_pay3
  refine (shapeCast_ab_1ab_apply _ shapeCasts_S2048x128_S1x2048x128 (0 : Fin 1) r (colLo d)).trans ?_
  refine (truncf_apply (ψ := .bf16) _ bitsLt_bf16_f32 _).trans ?_
  refine (concatenate_pair_apply_left (t := S2048x128) (s₁ := S2048x64) (s₂ := S2048x64) 1 _ _
    concatenates_S2048x64_S2048x64_S2048x128_d1 (ix2 r (colLo d)) rfl (ix2 r d) (fun b => by
      match b with
      | ⟨0, _⟩ => rfl
      | ⟨1, _⟩ => rfl)).trans ?_
  refine (divf_apply _ _ _).trans ?_
  exact congrArg (Ideal.div (a0 (ix2 r d))) (Keepdims.broadcastTo_a1_ab_apply l0 broadcasts_S2048x1_S2048x64 r d)

/-- The output block in its last 64 columns: the second head's weighted sum over its row's sum. -/
theorem pay3_hi_apply (a0 : Vec Ideal S2048x64 .f32) (l0 : Vec Ideal S2048x1 .f32)
    (a1 : Vec Ideal S2048x64 .f32) (l1 : Vec Ideal S2048x1 .f32) (r : Fin 2048) (d : Fin 64) :
    k3_pay3 (F := Ideal) a0 l0 a1 l1 (ix3 (0 : Fin 1) r (colHi d))
      = Ideal.div (a1 (ix2 r d)) (l1 (ix2 r (0 : Fin 1))) := by
  unfold k3_pay3
  refine (shapeCast_ab_1ab_apply _ shapeCasts_S2048x128_S1x2048x128 (0 : Fin 1) r (colHi d)).trans ?_
  refine (truncf_apply (ψ := .bf16) _ bitsLt_bf16_f32 _).trans ?_
  refine (concatenate_pair_apply_right (t := S2048x128) (s₁ := S2048x64) (s₂ := S2048x64) 1 _ _
    concatenates_S2048x64_S2048x64_S2048x128_d1 (ix2 r (colHi d)) rfl rfl (ix2 r d) (fun b hb => by
      match b with
      | ⟨0, _⟩ => rfl
      | ⟨1, _⟩ => exact absurd rfl hb) (by
      show d.val + 64 = 64 + d.val
      omega)).trans ?_
  refine (divf_apply _ _ _).trans ?_
  exact congrArg (Ideal.div (a1 (ix2 r d))) (Keepdims.broadcastTo_a1_ab_apply l1 broadcasts_S2048x1_S2048x64 r d)

end Cert.Proof.Attn

end
-- ==== Proof.AttnCaseA.lean ====
import proofs.«181089_j2508260901282_2_alg».proof.Proof.FrameAttn
import proofs.«181089_j2508260901282_2_alg».proof.Proof.AttnPieces
import proofs.«181089_j2508260901282_2_alg».proof.Proof.AttnStep
import proofs.«181089_j2508260901282_2_alg».proof.Proof.AttnEnds

/-!
# The running buffers after the first key block

At the first key block the body resets the running buffers to `(−∞, 0, 0)` and absorbs the block.
Read entry by entry through the rectangles of its stores and loads, what each head's column of the
maxima and the sums and each head's half of the weighted sums then hold is one online-softmax step
from `(−∞, 0, 0)`.
-/

set_option maxRecDepth 16384

noncomputable section

open scoped BigOperators
open Idealize.ShloMosaic Idealize.ShloMosaic.ValueIdx Idealize.ShloMosaic.Tactic
open Cert.KernelIdeal Cert.KernelIdeal.Gen Cert.KernelIdeal.Hand Cert.OnlineSoftmax

namespace Cert.Proof.Attn

section Reset
variable {sig : RefSig} {κ : Kind} {sp : Space}

/-- After the reset, a load of column 0 of the maxima reads `−∞`. -/
theorem reset_max_col0 (v : View sig κ sp S2048x2 .f32)
    (inb : ∀ a, (![0, 0] : Fin 2 → ℕ) a + S2048x2.size a ≤ S2048x2.size a) (r : Fin 2048) (u : Fin 1) :
    v.readCov (Val := Elt Ideal) [⟨Rect.unit (s := S2048x2) ![0, 0] S2048x2.size inb, k3_pay4 (F := Ideal)⟩]
      col0.toLoadRect (ix2 r u) = (⊥ : EReal) :=
  (readCov_col0 (Val := Elt Ideal) (e := .f32) v [⟨Rect.unit (s := S2048x2) ![0, 0] S2048x2.size inb, k3_pay4 (F := Ideal)⟩] r u).trans
    ((congrFun (canon_whole2 (Val := Elt Ideal) (e := .f32) inb (k3_pay4 (F := Ideal)) []) _).trans (congrFun pay4_eq _))

/-- After the reset and a store into column 0, a load of column 1 of the maxima reads `−∞`. -/
theorem reset_max_col1 (v : View sig κ sp S2048x2 .f32)
    (inb : ∀ a, (![0, 0] : Fin 2 → ℕ) a + S2048x2.size a ≤ S2048x2.size a) (P : FVec Ideal S2048x1 .f32)
    (r : Fin 2048) (u : Fin 1) :
    v.readCov (Val := Elt Ideal)
      [⟨col0, P⟩, ⟨Rect.unit (s := S2048x2) ![0, 0] S2048x2.size inb, k3_pay4 (F := Ideal)⟩]
      col1.toLoadRect (ix2 r u) = (⊥ : EReal) :=
  (readCov_col1 (Val := Elt Ideal) (e := .f32) v [⟨col0, P⟩, ⟨Rect.unit (s := S2048x2) ![0, 0] S2048x2.size inb, k3_pay4 (F := Ideal)⟩] r u).trans
    ((canon_col0_miss (Val := Elt Ideal) (e := .f32) P [⟨Rect.unit (s := S2048x2) ![0, 0] S2048x2.size inb, k3_pay4 (F := Ideal)⟩] r).trans
      ((congrFun (canon_whole2 (Val := Elt Ideal) (e := .f32) inb (k3_pay4 (F := Ideal)) []) _).trans (congrFun pay4_eq _)))

/-- After the reset, a load of column 0 of the sums reads zero. -/
theorem reset_sum_col0 (v : View sig κ sp S2048x2 .f32)
    (inb : ∀ a, (![0, 0] : Fin 2 → ℕ) a + S2048x2.size a ≤ S2048x2.size a) (r : Fin 2048) (u : Fin 1) :
    v.readCov (Val := Elt Ideal) [⟨Rect.unit (s := S2048x2) ![0, 0] S2048x2.size inb, k3_pay5 (F := Ideal)⟩]
      col0.toLoadRect (ix2 r u) = (0 : EReal) :=
  (readCov_col0 (Val := Elt Ideal) (e := .f32) v [⟨Rect.unit (s := S2048x2) ![0, 0] S2048x2.size inb, k3_pay5 (F := Ideal)⟩] r u).trans
    ((congrFun (canon_whole2 (Val := Elt Ideal) (e := .f32) inb (k3_pay5 (F := Ideal)) []) _).trans (congrFun pay5_eq _))

/-- After the reset and a store into column 0, a load of column 1 of the sums reads zero. -/
theorem reset_sum_col1 (v : View sig κ sp S2048x2 .f32)
    (inb : ∀ a, (![0, 0] : Fin 2 → ℕ) a + S2048x2.size a ≤ S2048x2.size a) (P : FVec Ideal S2048x1 .f32)
    (r : Fin 2048) (u : Fin 1) :
    v.readCov (Val := Elt Ideal)
      [⟨col0, P⟩, ⟨Rect.unit (s := S2048x2) ![0, 0] S2048x2.size inb, k3_pay5 (F := Ideal)⟩]
      col1.toLoadRect (ix2 r u) = (0 : EReal) :=
  (readCov_col1 (Val := Elt Ideal) (e := .f32) v [⟨col0, P⟩, ⟨Rect.unit (s := S2048x2) ![0, 0] S2048x2.size inb, k3_pay5 (F := Ideal)⟩] r u).trans
    ((canon_col0_miss (Val := Elt Ideal) (e := .f32) P [⟨Rect.unit (s := S2048x2) ![0, 0] S2048x2.size inb, k3_pay5 (F := Ideal)⟩] r).trans
      ((congrFun (canon_whole2 (Val := Elt Ideal) (e := .f32) inb (k3_pay5 (F := Ideal)) []) _).trans (congrFun pay5_eq _)))

/-- After the reset, a load of columns 0–63 of the weighted sums reads zero. -/
theorem reset_acc_lo (v : View sig κ sp S2048x128 .f32)
    (inb : ∀ a, (![0, 0] : Fin 2 → ℕ) a + S2048x128.size a ≤ S2048x128.size a) (r : Fin 2048) (d : Fin 64) :
    v.readCov (Val := Elt Ideal) [⟨Rect.unit (s := S2048x128) ![0, 0] S2048x128.size inb, k3_pay6 (F := Ideal)⟩]
      loR.toLoadRect (ix2 r d) = (0 : EReal) :=
  (readCov_lo (Val := Elt Ideal) (e := .f32) v [⟨Rect.unit (s := S2048x128) ![0, 0] S2048x128.size inb, k3_pay6 (F := Ideal)⟩] r d).trans
    ((congrFun (canon_whole128 (Val := Elt Ideal) (e := .f32) inb (k3_pay6 (F := Ideal)) []) _).trans (congrFun pay6_eq _))

/-- After the reset and a store into columns 0–63, a load of columns 64–127 of the weighted sums
reads zero. -/
theorem reset_acc_hi (v : View sig κ sp S2048x128 .f32)
    (inb : ∀ a, (![0, 0] : Fin 2 → ℕ) a + S2048x128.size a ≤ S2048x128.size a) (P : FVec Ideal S2048x64 .f32)
    (r : Fin 2048) (d : Fin 64) :
    v.readCov (Val := Elt Ideal)
      [⟨loR, P⟩, ⟨Rect.unit (s := S2048x128) ![0, 0] S2048x128.size inb, k3_pay6 (F := Ideal)⟩]
      hiR.toLoadRect (ix2 r d) = (0 : EReal) :=
  (readCov_hi (Val := Elt Ideal) (e := .f32) v [⟨loR, P⟩, ⟨Rect.unit (s := S2048x128) ![0, 0] S2048x128.size inb, k3_pay6 (F := Ideal)⟩] r d).trans
    ((canon_lo_miss (Val := Elt Ideal) (e := .f32) P [⟨Rect.unit (s := S2048x128) ![0, 0] S2048x128.size inb, k3_pay6 (F := Ideal)⟩] r d).trans
      ((congrFun (canon_whole128 (Val := Elt Ideal) (e := .f32) inb (k3_pay6 (F := Ideal)) []) _).trans (congrFun pay6_eq _)))

end Reset

/-- First head: after the first key block, column 0 of the maxima and of the sums at row `r` and
the weighted sum at `(r, d)` are one step from `(−∞, 0, 0)`. -/
theorem caseA_lo (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec Ideal S1x2048x128 .bf16) (x1 x2 : Vec Ideal S1x1024x128 .bf16) (r : Fin 2048) (d : Fin 64) :
    (sout3_A_0 (F := Ideal) c i arg3 harg3 arg4 harg4 arg5 harg5 arg6 harg6 arg7 harg7 arg8 harg8 arg9 harg9 hc0 hc1 x0 x1 x2 (ix2 r (0 : Fin 2)),
      sout3_A_1 (F := Ideal) c i arg3 harg3 arg4 harg4 arg5 harg5 arg6 harg6 arg7 harg7 arg8 harg8 arg9 harg9 hc0 hc1 x0 x1 x2 (ix2 r (0 : Fin 2)),
      sout3_A_2 (F := Ideal) c i arg3 harg3 arg4 harg4 arg5 harg5 arg6 harg6 arg7 harg7 arg8 harg8 arg9 harg9 hc0 hc1 x0 x1 x2 (ix2 r (colLo d)))
      = step (fun j => scoreLo x0 x1 r j) (fun j => x2 (ix3 (0 : Fin 1) j (colLo d))) (⊥, 0, 0) := by
  unfold sout3_A_0 sout3_A_1 sout3_A_2
  rw [View.read_writes_junk_eq_canon, View.read_writes_junk_eq_canon, View.read_writes_junk_eq_canon]
  unfold kernelRun3_A
  dsimp only
  sl_unfold_words
  rw [readAt_whole (Val := Elt Ideal) arg3 harg3 zero3 _ x0, readAt_whole (Val := Elt Ideal) arg4 harg4 zero3 _ x1,
    readAt_whole (Val := Elt Ideal) arg5 harg5 zero3 _ x2]
  have e := step_head0 x0 x1 x2
    (arg7.view.readCov (Val := Elt Ideal)
      [⟨Rect.unit (s := S2048x2) ![0, 0] S2048x2.size inb_S2048x2_S2048x2_0_0, k3_pay4 (F := Ideal)⟩] col0.toLoadRect)
    (arg8.view.readCov (Val := Elt Ideal)
      [⟨Rect.unit (s := S2048x2) ![0, 0] S2048x2.size inb_S2048x2_S2048x2_0_0, k3_pay5 (F := Ideal)⟩] col0.toLoadRect)
    (arg9.view.readCov (Val := Elt Ideal)
      [⟨Rect.unit (s := S2048x128) ![0, 0] S2048x128.size inb_S2048x128_S2048x128_0_0, k3_pay6 (F := Ideal)⟩] loR.toLoadRect)
    r d
  rw [reset_max_col0 arg7.view inb_S2048x2_S2048x2_0_0 r 0, reset_sum_col0 arg8.view inb_S2048x2_S2048x2_0_0 r 0,
    reset_acc_lo arg9.view inb_S2048x128_S2048x128_0_0 r d] at e
  refine Eq.trans ?_ e
  refine congrArg₂ Prod.mk ?_ (congrArg₂ Prod.mk ?_ ?_)
  · exact (canon_col1_miss (Val := Elt Ideal) (e := .f32) _ _ r).trans (canon_col0_hit (Val := Elt Ideal) (e := .f32) _ _ r)
  · exact (canon_col1_miss (Val := Elt Ideal) (e := .f32) _ _ r).trans (canon_col0_hit (Val := Elt Ideal) (e := .f32) _ _ r)
  · exact (canon_hi_miss (Val := Elt Ideal) (e := .f32) _ _ r d).trans (canon_lo_hit (Val := Elt Ideal) (e := .f32) _ _ r d)

/-- Second head: the same for column 1 of the maxima and of the sums and columns 64–127 of the
weighted sums. -/
theorem caseA_hi (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : cond3_0 i) (hc1 : ¬cond3_1 i)
    (x0 : Vec Ideal S1x2048x128 .bf16) (x1 x2 : Vec Ideal S1x1024x128 .bf16) (r : Fin 2048) (d : Fin 64) :
    (sout3_A_0 (F := Ideal) c i arg3 harg3 arg4 harg4 arg5 harg5 arg6 harg6 arg7 harg7 arg8 harg8 arg9 harg9 hc0 hc1 x0 x1 x2 (ix2 r (1 : Fin 2)),
      sout3_A_1 (F := Ideal) c i arg3 harg3 arg4 harg4 arg5 harg5 arg6 harg6 arg7 harg7 arg8 harg8 arg9 harg9 hc0 hc1 x0 x1 x2 (ix2 r (1 : Fin 2)),
      sout3_A_2 (F := Ideal) c i arg3 harg3 arg4 harg4 arg5 harg5 arg6 harg6 arg7 harg7 arg8 harg8 arg9 harg9 hc0 hc1 x0 x1 x2 (ix2 r (colHi d)))
      = step (fun j => scoreHi x0 x1 r j) (fun j => x2 (ix3 (0 : Fin 1) j (colHi d))) (⊥, 0, 0) := by
  unfold sout3_A_0 sout3_A_1 sout3_A_2
  rw [View.read_writes_junk_eq_canon, View.read_writes_junk_eq_canon, View.read_writes_junk_eq_canon]
  unfold kernelRun3_A
  dsimp only
  sl_unfold_words
  rw [readAt_whole (Val := Elt Ideal) arg3 harg3 zero3 _ x0, readAt_whole (Val := Elt Ideal) arg4 harg4 zero3 _ x1,
    readAt_whole (Val := Elt Ideal) arg5 harg5 zero3 _ x2]
  refine (congrArg₂ Prod.mk (canon_col1_hit (Val := Elt Ideal) (e := .f32) _ _ r)
    (congrArg₂ Prod.mk (canon_col1_hit (Val := Elt Ideal) (e := .f32) _ _ r) (canon_hi_hit (Val := Elt Ideal) (e := .f32) _ _ r d))).trans ?_
  refine (step_head1 x0 x1 x2 _ _ _ r d).trans ?_
  exact congrArg (step _ _) (congrArg₂ Prod.mk (reset_max_col1 arg7.view inb_S2048x2_S2048x2_0_0 _ r 0)
    (congrArg₂ Prod.mk (reset_sum_col1 arg8.view inb_S2048x2_S2048x2_0_0 _ r 0)
      (reset_acc_hi arg9.view inb_S2048x128_S2048x128_0_0 _ r d)))

end Cert.Proof.Attn

end
-- ==== Proof.AttnCaseB.lean ====
import proofs.«181089_j2508260901282_2_alg».proof.Proof.FrameAttn
import proofs.«181089_j2508260901282_2_alg».proof.Proof.AttnPieces
import proofs.«181089_j2508260901282_2_alg».proof.Proof.AttnStep
import proofs.«181089_j2508260901282_2_alg».proof.Proof.AttnEnds

/-!
# The output block after the second key block

At the second key block the body absorbs the block into the running buffers and stores, for each
head, the new weighted sums over the new row sums. Read entry by entry through the rectangles of
its stores and loads, the output entry at row `r` and column `d` of a head is the quotient of the
last two components of one online-softmax step applied to what the running buffers held.
-/

set_option maxRecDepth 16384

noncomputable section

open scoped BigOperators
open Idealize.ShloMosaic Idealize.ShloMosaic.ValueIdx Idealize.ShloMosaic.Tactic
open Cert.KernelIdeal Cert.KernelIdeal.Gen Cert.KernelIdeal.Hand Cert.OnlineSoftmax

namespace Cert.Proof.Attn

/-- The output block's entry in its first 64 columns, from the pieces stored into the sums and the
weighted sums: the first head's new weighted sum over its new row sum. -/
theorem outB_lo_of_pieces (v8 : View sig .tc .vmem S2048x2 .f32) (v9 : View sig .tc .vmem S2048x128 .f32)
    (P1 P16 : FVec Ideal S2048x64 .f32) (P23 P15 : FVec Ideal S2048x1 .f32) (r : Fin 2048) (d : Fin 64) :
    View.canon (Val := Elt Ideal) (s := S1x2048x128) (e := .bf16)
        [⟨Rect.unit (s := S1x2048x128) ![0, 0, 0] S1x2048x128.size inb_S1x2048x128_S1x2048x128_0_0_0,
          k3_pay3 (F := Ideal)
            (v9.readCov (Val := Elt Ideal) [⟨hiR, P1⟩, ⟨loR, P16⟩] loR.toLoadRect)
            (v8.readCov (Val := Elt Ideal) [⟨col1, P23⟩, ⟨col0, P15⟩] col0.toLoadRect)
            (v9.readCov (Val := Elt Ideal) [⟨hiR, P1⟩, ⟨loR, P16⟩] hiR.toLoadRect)
            (v8.readCov (Val := Elt Ideal) [⟨col1, P23⟩, ⟨col0, P15⟩] col1.toLoadRect)⟩]
        (ix3 (0 : Fin 1) r (colLo d))
      = Ideal.div (P16 (ix2 r d)) (P15 (ix2 r (0 : Fin 1))) := by
  refine (congrFun (canon_whole3 (Val := Elt Ideal) (e := .bf16) inb_S1x2048x128_S1x2048x128_0_0_0 _ []) _).trans ?_
  refine (pay3_lo_apply _ _ _ _ r d).trans ?_
  refine congrArg₂ Ideal.div ?_ ?_
  · exact (readCov_lo (Val := Elt Ideal) (e := .f32) v9 [⟨hiR, P1⟩, ⟨loR, P16⟩] r d).trans
      ((canon_hi_miss (Val := Elt Ideal) (e := .f32) P1 [⟨loR, P16⟩] r d).trans (canon_lo_hit (Val := Elt Ideal) (e := .f32) P16 [] r d))
  · exact (readCov_col0 (Val := Elt Ideal) (e := .f32) v8 [⟨col1, P23⟩, ⟨col0, P15⟩] r 0).trans
      ((canon_col1_miss (Val := Elt Ideal) (e := .f32) P23 [⟨col0, P15⟩] r).trans (canon_col0_hit (Val := Elt Ideal) (e := .f32) P15 [] r))

/-- The output block's entry in its last 64 columns: the second head's new weighted sum over its
new row sum. -/
theorem outB_hi_of_pieces (v8 : View sig .tc .vmem S2048x2 .f32) (v9 : View sig .tc .vmem S2048x128 .f32)
    (P1 P16 : FVec Ideal S2048x64 .f32) (P23 P15 : FVec Ideal S2048x1 .f32) (r : Fin 2048) (d : Fin 64) :
    View.canon (Val := Elt Ideal) (s := S1x2048x128) (e := .bf16)
        [⟨Rect.unit (s := S1x2048x128) ![0, 0, 0] S1x2048x128.size inb_S1x2048x128_S1x2048x128_0_0_0,
          k3_pay3 (F := Ideal)
            (v9.readCov (Val := Elt Ideal) [⟨hiR, P1⟩, ⟨loR, P16⟩] loR.toLoadRect)
            (v8.readCov (Val := Elt Ideal) [⟨col1, P23⟩, ⟨col0, P15⟩] col0.toLoadRect)
            (v9.readCov (Val := Elt Ideal) [⟨hiR, P1⟩, ⟨loR, P16⟩] hiR.toLoadRect)
            (v8.readCov (Val := Elt Ideal) [⟨col1, P23⟩, ⟨col0, P15⟩] col1.toLoadRect)⟩]
        (ix3 (0 : Fin 1) r (colHi d))
      = Ideal.div (P1 (ix2 r d)) (P23 (ix2 r (0 : Fin 1))) := by
  refine (congrFun (canon_whole3 (Val := Elt Ideal) (e := .bf16) inb_S1x2048x128_S1x2048x128_0_0_0 _ []) _).trans ?_
  refine (pay3_hi_apply _ _ _ _ r d).trans ?_
  refine congrArg₂ Ideal.div ?_ ?_
  · exact (readCov_hi (Val := Elt Ideal) (e := .f32) v9 [⟨hiR, P1⟩, ⟨loR, P16⟩] r d).trans (canon_hi_hit (Val := Elt Ideal) (e := .f32) P1 [⟨loR, P16⟩] r d)
  · exact (readCov_col1 (Val := Elt Ideal) (e := .f32) v8 [⟨col1, P23⟩, ⟨col0, P15⟩] r 0).trans
      (canon_col1_hit (Val := Elt Ideal) (e := .f32) P23 [⟨col0, P15⟩] r)

/-- First head: the output entry at row `r`, column `d` after the second key block is the step's
weighted sum over the step's row sum, the step taken from what the running buffers held. -/
theorem caseB_lo (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec Ideal S1x2048x128 .bf16) (x1 x2 : Vec Ideal S1x1024x128 .bf16)
    (xs0 xs1 : Vec Ideal S2048x2 .f32) (xs2 : Vec Ideal S2048x128 .f32) (r : Fin 2048) (d : Fin 64) :
    out3_B_3 (F := Ideal) c i arg3 harg3 arg4 harg4 arg5 harg5 arg6 harg6 arg7 harg7 arg8 harg8 arg9 harg9 hc0 hc1 x0 x1 x2 xs0 xs1 xs2 (ix3 (0 : Fin 1) r (colLo d))
      = Ideal.div
          (step (fun j => scoreLo x0 x1 r j) (fun j => x2 (ix3 (0 : Fin 1) j (colLo d)))
            (xs0 (ix2 r (0 : Fin 2)), xs1 (ix2 r (0 : Fin 2)), xs2 (ix2 r (colLo d)))).2.2
          (step (fun j => scoreLo x0 x1 r j) (fun j => x2 (ix3 (0 : Fin 1) j (colLo d)))
            (xs0 (ix2 r (0 : Fin 2)), xs1 (ix2 r (0 : Fin 2)), xs2 (ix2 r (colLo d)))).2.1 := by
  unfold out3_B_3
  rw [View.read_writes_junk_eq_canon]
  unfold kernelRun3_B
  dsimp only
  sl_unfold_words
  rw [readAt_whole (Val := Elt Ideal) arg3 harg3 zero3 _ x0, readAt_whole (Val := Elt Ideal) arg4 harg4 zero3 _ x1,
    readAt_whole (Val := Elt Ideal) arg5 harg5 zero3 _ x2]
  refine (outB_lo_of_pieces arg8.view arg9.view _ _ _ _ r d).trans ?_
  have e := step_head0 x0 x1 x2 (View.readAt (Elt Ideal) arg7.view col0.toLoadRect (harg7.unread xs0))
    (View.readAt (Elt Ideal) arg8.view col0.toLoadRect (harg8.unread xs1))
    (View.readAt (Elt Ideal) arg9.view loR.toLoadRect (harg9.unread xs2)) r d
  rw [readAt_col0 (Val := Elt Ideal) arg7 harg7 xs0 r 0, readAt_col0 (Val := Elt Ideal) arg8 harg8 xs1 r 0,
    readAt_lo (Val := Elt Ideal) arg9 harg9 xs2 r d] at e
  exact congrArg₂ Ideal.div (congrArg (fun s => s.2.2) e) (congrArg (fun s => s.2.1) e)

/-- Second head: the same in columns 64–127, from the second columns of the running maxima and
sums. -/
theorem caseB_hi (c : Dev nD) (i : grid3.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2048x128 .bf16) (harg6 : arg6.IsWhole) (arg7 : Memref sig .tc .vmem S2048x2 .f32) (harg7 : arg7.IsWhole) (arg8 : Memref sig .tc .vmem S2048x2 .f32) (harg8 : arg8.IsWhole) (arg9 : Memref sig .tc .vmem S2048x128 .f32) (harg9 : arg9.IsWhole) (hc0 : ¬cond3_0 i) (hc1 : cond3_1 i)
    (x0 : Vec Ideal S1x2048x128 .bf16) (x1 x2 : Vec Ideal S1x1024x128 .bf16)
    (xs0 xs1 : Vec Ideal S2048x2 .f32) (xs2 : Vec Ideal S2048x128 .f32) (r : Fin 2048) (d : Fin 64) :
    out3_B_3 (F := Ideal) c i arg3 harg3 arg4 harg4 arg5 harg5 arg6 harg6 arg7 harg7 arg8 harg8 arg9 harg9 hc0 hc1 x0 x1 x2 xs0 xs1 xs2 (ix3 (0 : Fin 1) r (colHi d))
      = Ideal.div
          (step (fun j => scoreHi x0 x1 r j) (fun j => x2 (ix3 (0 : Fin 1) j (colHi d)))
            (xs0 (ix2 r (1 : Fin 2)), xs1 (ix2 r (1 : Fin 2)), xs2 (ix2 r (colHi d)))).2.2
          (step (fun j => scoreHi x0 x1 r j) (fun j => x2 (ix3 (0 : Fin 1) j (colHi d)))
            (xs0 (ix2 r (1 : Fin 2)), xs1 (ix2 r (1 : Fin 2)), xs2 (ix2 r (colHi d)))).2.1 := by
  unfold out3_B_3
  rw [View.read_writes_junk_eq_canon]
  unfold kernelRun3_B
  dsimp only
  sl_unfold_words
  rw [readAt_whole (Val := Elt Ideal) arg3 harg3 zero3 _ x0, readAt_whole (Val := Elt Ideal) arg4 harg4 zero3 _ x1,
    readAt_whole (Val := Elt Ideal) arg5 harg5 zero3 _ x2]
  refine (outB_hi_of_pieces arg8.view arg9.view _ _ _ _ r d).trans ?_
  have e := step_head1 x0 x1 x2 (View.readAt (Elt Ideal) arg7.view col1.toLoadRect (harg7.unread xs0))
    (View.readAt (Elt Ideal) arg8.view col1.toLoadRect (harg8.unread xs1))
    (View.readAt (Elt Ideal) arg9.view hiR.toLoadRect (harg9.unread xs2)) r d
  rw [readAt_col1 (Val := Elt Ideal) arg7 harg7 xs0 r 0, readAt_col1 (Val := Elt Ideal) arg8 harg8 xs1 r 0,
    readAt_hi (Val := Elt Ideal) arg9 harg9 xs2 r d] at e
  exact congrArg₂ Ideal.div (congrArg (fun s => s.2.2) e) (congrArg (fun s => s.2.1) e)

end Cert.Proof.Attn

end
-- ==== Proof.AttnRow.lean ====
import proofs.«181089_j2508260901282_2_alg».proof.Proof.Spec
import proofs.«181089_j2508260901282_2_alg».proof.Proof.LibOnlineSoftmax
import proofs.«181089_j2508260901282_2_alg».proof.Proof.AttnMath
import proofs.«181089_j2508260901282_2_alg».proof.Proof.AttnLayout
import proofs.«181089_j2508260901282_2_alg».proof.Proof.AttnStep

/-!
# Two passes of the attention kernel over a row give the specification's attention

Fix a query row and a column of a head. If the query block and the two key and value blocks hold
the entries of finite arrays `Q`, `K`, `V` (keys `j` and `1024 + j`), and the carried state starts
at `(−∞, 0, 0)` and is handed from the first pass to the second, then after the second pass the
running weighted sum over the running sum is `Cert.Mha.attn Q K V` at that row and column.
-/

noncomputable section

open scoped BigOperators
open Idealize.ShloMosaic Idealize.ShloMosaic.ValueIdx
open Cert.KernelIdeal Cert.KernelIdeal.Gen

namespace Cert.Proof.Attn

open Cert.Mha Cert.OnlineSoftmax

/-- Column `64h + d` belongs to head `h`. -/
theorem headOf_col (h : Fin 16) (d : Fin 64) : headOf (col h d) = h := by
  apply Fin.ext
  show (h.val * 64 + d.val) / 64 = h.val
  omega

/-- A first-head block score is the specification's score once the blocks' entries are named. -/
theorem scoreLo_eq_score (q : Vec Ideal S1x2048x128 .bf16) (kk : Vec Ideal S1x1024x128 .bf16)
    (Q K : Arr3) (b : Fin 4) (h : Fin 16) (t k : Fin 2048) (r : Fin 2048) (j : Fin 1024)
    (hq : ∀ d : Fin 64, q (ix3 (0 : Fin 1) r (colLo d)) = Q b t (col h d))
    (hk : ∀ d : Fin 64, kk (ix3 (0 : Fin 1) j (colLo d)) = K b k (col h d)) :
    scoreLo q kk r j = score Q K b h t k := by
  unfold scoreLo score
  exact congrArg (· * ((((1 : ℝ) / 8 : ℝ)) : EReal))
    (Finset.sum_congr rfl fun d _ => by rw [hq d, hk d])

/-- A second-head block score is the specification's score once the blocks' entries are named. -/
theorem scoreHi_eq_score (q : Vec Ideal S1x2048x128 .bf16) (kk : Vec Ideal S1x1024x128 .bf16)
    (Q K : Arr3) (b : Fin 4) (h : Fin 16) (t k : Fin 2048) (r : Fin 2048) (j : Fin 1024)
    (hq : ∀ d : Fin 64, q (ix3 (0 : Fin 1) r (colHi d)) = Q b t (col h d))
    (hk : ∀ d : Fin 64, kk (ix3 (0 : Fin 1) j (colHi d)) = K b k (col h d)) :
    scoreHi q kk r j = score Q K b h t k := by
  unfold scoreHi score
  exact congrArg (· * ((((1 : ℝ) / 8 : ℝ)) : EReal))
    (Finset.sum_congr rfl fun d _ => by rw [hq d, hk d])

/-- Two steps from `(−∞, 0, 0)` over block scores and values that name the entries of `Q`, `K`, `V`
in head `h` and column `64h + d` end with the attention at that column. -/
theorem two_steps_eq_attn_col (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (h : Fin 16) (t : Fin 2048) (d : Fin 64) (s0 s1 v0 v1 : Fin 1024 → EReal)
    (hs0 : ∀ j : Fin 1024, s0 j = score Q K b h t ⟨j.val, by omega⟩)
    (hs1 : ∀ j : Fin 1024, s1 j = score Q K b h t ⟨1024 + j.val, by omega⟩)
    (hv0 : ∀ j : Fin 1024, v0 j = V b ⟨j.val, by omega⟩ (col h d))
    (hv1 : ∀ j : Fin 1024, v1 j = V b ⟨1024 + j.val, by omega⟩ (col h d)) :
    Ideal.div (step s1 v1 (step s0 v0 (⊥, 0, 0))).2.2 (step s1 v1 (step s0 v0 (⊥, 0, 0))).2.1
      = attn Q K V b t (col h d) :=
  two_steps_eq_attn Q K V hQ hK hV b t (col h d) s0 s1 v0 v1
    (fun j => by rw [headOf_col]; exact hs0 j) (fun j => by rw [headOf_col]; exact hs1 j) hv0 hv1

/-- First head, two passes. `m0 l0 a0` is the state the first pass loads (`−∞`, 0, 0 at this row
and column), `m1 l1 a1` what the second pass loads (what the first stored), `l2 a2` what the second
stores. The quotient of the last two is the attention in column `64h + d`. -/
theorem head0_two_passes (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (h : Fin 16) (t : Fin 2048)
    (q : Vec Ideal S1x2048x128 .bf16) (kk0 vv0 kk1 vv1 : Vec Ideal S1x1024x128 .bf16)
    (m0 l0 m1 l1 l2 : Vec Ideal S2048x1 .f32) (a0 a1 a2 : Vec Ideal S2048x64 .f32)
    (r : Fin 2048) (d : Fin 64)
    (hq : ∀ d' : Fin 64, q (ix3 (0 : Fin 1) r (colLo d')) = Q b t (col h d'))
    (hk0 : ∀ (j : Fin 1024) (d' : Fin 64),
      kk0 (ix3 (0 : Fin 1) j (colLo d')) = K b ⟨j.val, by omega⟩ (col h d'))
    (hk1 : ∀ (j : Fin 1024) (d' : Fin 64),
      kk1 (ix3 (0 : Fin 1) j (colLo d')) = K b ⟨1024 + j.val, by omega⟩ (col h d'))
    (hv0 : ∀ j : Fin 1024, vv0 (ix3 (0 : Fin 1) j (colLo d)) = V b ⟨j.val, by omega⟩ (col h d))
    (hv1 : ∀ j : Fin 1024, vv1 (ix3 (0 : Fin 1) j (colLo d)) = V b ⟨1024 + j.val, by omega⟩ (col h d))
    (hm0 : m0 (ix2 r (0 : Fin 1)) = ⊥) (hl0 : l0 (ix2 r (0 : Fin 1)) = 0) (ha0 : a0 (ix2 r d) = 0)
    (hm1 : m1 (ix2 r (0 : Fin 1))
      = k3_pay17 (F := Ideal) (k3_pay12 (F := Ideal) q kk0 m0) (ix2 r (0 : Fin 1)))
    (hl1 : l1 (ix2 r (0 : Fin 1)) = k3_pay15 (F := Ideal) q kk0 m0 l0 (ix2 r (0 : Fin 1)))
    (ha1 : a1 (ix2 r d) = k3_pay16 (F := Ideal) (k3_pay10 (F := Ideal) vv0) a0
      (k3_pay13 (F := Ideal) q kk0 m0) (k3_pay14 (F := Ideal) q kk0 m0) (ix2 r d))
    (hl2 : l2 (ix2 r (0 : Fin 1)) = k3_pay15 (F := Ideal) q kk1 m1 l1 (ix2 r (0 : Fin 1)))
    (ha2 : a2 (ix2 r d) = k3_pay16 (F := Ideal) (k3_pay10 (F := Ideal) vv1) a1
      (k3_pay13 (F := Ideal) q kk1 m1) (k3_pay14 (F := Ideal) q kk1 m1) (ix2 r d)) :
    Ideal.div (a2 (ix2 r d)) (l2 (ix2 r (0 : Fin 1))) = attn Q K V b t (col h d) := by
  have e1 : (m1 (ix2 r (0 : Fin 1)), l1 (ix2 r (0 : Fin 1)), a1 (ix2 r d))
      = step (fun j => scoreLo q kk0 r j) (fun j => vv0 (ix3 (0 : Fin 1) j (colLo d))) (⊥, 0, 0) := by
    rw [hm1, hl1, ha1, step_head0 q kk0 vv0 m0 l0 a0 r d, hm0, hl0, ha0]
  have e2 := step_head0 q kk1 vv1 m1 l1 a1 r d
  rw [e1] at e2
  rw [ha2.trans (congrArg (fun s => s.2.2) e2), hl2.trans (congrArg (fun s => s.2.1) e2)]
  exact two_steps_eq_attn_col Q K V hQ hK hV b h t d _ _ _ _
    (fun j => scoreLo_eq_score q kk0 Q K b h t _ r j hq (hk0 j))
    (fun j => scoreLo_eq_score q kk1 Q K b h t _ r j hq (hk1 j)) hv0 hv1

/-- Second head, two passes: the same over columns 64–127 of the blocks. -/
theorem head1_two_passes (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (h : Fin 16) (t : Fin 2048)
    (q : Vec Ideal S1x2048x128 .bf16) (kk0 vv0 kk1 vv1 : Vec Ideal S1x1024x128 .bf16)
    (m0 l0 m1 l1 l2 : Vec Ideal S2048x1 .f32) (a0 a1 a2 : Vec Ideal S2048x64 .f32)
    (r : Fin 2048) (d : Fin 64)
    (hq : ∀ d' : Fin 64, q (ix3 (0 : Fin 1) r (colHi d')) = Q b t (col h d'))
    (hk0 : ∀ (j : Fin 1024) (d' : Fin 64),
      kk0 (ix3 (0 : Fin 1) j (colHi d')) = K b ⟨j.val, by omega⟩ (col h d'))
    (hk1 : ∀ (j : Fin 1024) (d' : Fin 64),
      kk1 (ix3 (0 : Fin 1) j (colHi d')) = K b ⟨1024 + j.val, by omega⟩ (col h d'))
    (hv0 : ∀ j : Fin 1024, vv0 (ix3 (0 : Fin 1) j (colHi d)) = V b ⟨j.val, by omega⟩ (col h d))
    (hv1 : ∀ j : Fin 1024, vv1 (ix3 (0 : Fin 1) j (colHi d)) = V b ⟨1024 + j.val, by omega⟩ (col h d))
    (hm0 : m0 (ix2 r (0 : Fin 1)) = ⊥) (hl0 : l0 (ix2 r (0 : Fin 1)) = 0) (ha0 : a0 (ix2 r d) = 0)
    (hm1 : m1 (ix2 r (0 : Fin 1)) = k3_pay2 (F := Ideal)
      (k3_pay20 (F := Ideal) (k3_pay7 (F := Ideal) q) (k3_pay8 (F := Ideal) kk0) m0) (ix2 r (0 : Fin 1)))
    (hl1 : l1 (ix2 r (0 : Fin 1)) = k3_pay23 (F := Ideal) (k3_pay7 (F := Ideal) q)
      (k3_pay8 (F := Ideal) kk0) m0 l0 (ix2 r (0 : Fin 1)))
    (ha1 : a1 (ix2 r d) = k3_pay1 (F := Ideal) (k3_pay18 (F := Ideal) (k3_pay9 (F := Ideal) vv0))
      (k3_pay24 (F := Ideal) (k3_pay7 (F := Ideal) q) (k3_pay8 (F := Ideal) kk0) m0 a0)
      (k3_pay25 (F := Ideal) (k3_pay7 (F := Ideal) q) (k3_pay8 (F := Ideal) kk0) m0)
      (constant (F := Ideal) S2048x64 .f32 0x00000000#32) (ix2 r d))
    (hl2 : l2 (ix2 r (0 : Fin 1)) = k3_pay23 (F := Ideal) (k3_pay7 (F := Ideal) q)
      (k3_pay8 (F := Ideal) kk1) m1 l1 (ix2 r (0 : Fin 1)))
    (ha2 : a2 (ix2 r d) = k3_pay1 (F := Ideal) (k3_pay18 (F := Ideal) (k3_pay9 (F := Ideal) vv1))
      (k3_pay24 (F := Ideal) (k3_pay7 (F := Ideal) q) (k3_pay8 (F := Ideal) kk1) m1 a1)
      (k3_pay25 (F := Ideal) (k3_pay7 (F := Ideal) q) (k3_pay8 (F := Ideal) kk1) m1)
      (constant (F := Ideal) S2048x64 .f32 0x00000000#32) (ix2 r d)) :
    Ideal.div (a2 (ix2 r d)) (l2 (ix2 r (0 : Fin 1))) = attn Q K V b t (col h d) := by
  have e1 : (m1 (ix2 r (0 : Fin 1)), l1 (ix2 r (0 : Fin 1)), a1 (ix2 r d))
      = step (fun j => scoreHi q kk0 r j) (fun j => vv0 (ix3 (0 : Fin 1) j (colHi d))) (⊥, 0, 0) := by
    rw [hm1, hl1, ha1, step_head1 q kk0 vv0 m0 l0 a0 r d, hm0, hl0, ha0]
  have e2 := step_head1 q kk1 vv1 m1 l1 a1 r d
  rw [e1] at e2
  rw [ha2.trans (congrArg (fun s => s.2.2) e2), hl2.trans (congrArg (fun s => s.2.1) e2)]
  exact two_steps_eq_attn_col Q K V hQ hK hV b h t d _ _ _ _
    (fun j => scoreHi_eq_score q kk0 Q K b h t _ r j hq (hk0 j))
    (fun j => scoreHi_eq_score q kk1 Q K b h t _ r j hq (hk1 j)) hv0 hv1

end Cert.Proof.Attn

end
-- ==== Proof.AttnTwo.lean ====
import proofs.«181089_j2508260901282_2_alg».proof.Proof.FrameAttn
import proofs.«181089_j2508260901282_2_alg».proof.Proof.AttnCaseA
import proofs.«181089_j2508260901282_2_alg».proof.Proof.AttnCaseB
import proofs.«181089_j2508260901282_2_alg».proof.Proof.AttnRow

/-!
# The output block after both key blocks

The second key block's body runs over what the first left in the running buffers. Entry by entry
the output is then the quotient of two online-softmax steps from `(−∞, 0, 0)`, and, once the
blocks' entries are named as entries of finite arrays `Q`, `K`, `V`, the specification's attention.
-/

set_option maxRecDepth 16384

noncomputable section

open scoped BigOperators
open Idealize.ShloMosaic Idealize.ShloMosaic.ValueIdx Idealize.ShloMosaic.Tactic
open Cert.KernelIdeal Cert.KernelIdeal.Gen Cert.KernelIdeal.Hand Cert.OnlineSoftmax

namespace Cert.Proof.Attn

open Cert.Mha

/-- First head: the output entry after the two key blocks, as two steps from `(−∞, 0, 0)`. -/
theorem two_blocks_lo (cA : Dev nD) (iA : grid3.Coords) (a3A : Memref sig .tc .vmem S1x2048x128 .bf16) (h3A : a3A.IsWhole) (a4A : Memref sig .tc .vmem S1x1024x128 .bf16) (h4A : a4A.IsWhole) (a5A : Memref sig .tc .vmem S1x1024x128 .bf16) (h5A : a5A.IsWhole) (a6A : Memref sig .tc .vmem S1x2048x128 .bf16) (h6A : a6A.IsWhole) (a7A : Memref sig .tc .vmem S2048x2 .f32) (h7A : a7A.IsWhole) (a8A : Memref sig .tc .vmem S2048x2 .f32) (h8A : a8A.IsWhole) (a9A : Memref sig .tc .vmem S2048x128 .f32) (h9A : a9A.IsWhole) (hc0A : cond3_0 iA) (hc1A : ¬cond3_1 iA)
    (cB : Dev nD) (iB : grid3.Coords) (a3B : Memref sig .tc .vmem S1x2048x128 .bf16) (h3B : a3B.IsWhole) (a4B : Memref sig .tc .vmem S1x1024x128 .bf16) (h4B : a4B.IsWhole) (a5B : Memref sig .tc .vmem S1x1024x128 .bf16) (h5B : a5B.IsWhole) (a6B : Memref sig .tc .vmem S1x2048x128 .bf16) (h6B : a6B.IsWhole) (a7B : Memref sig .tc .vmem S2048x2 .f32) (h7B : a7B.IsWhole) (a8B : Memref sig .tc .vmem S2048x2 .f32) (h8B : a8B.IsWhole) (a9B : Memref sig .tc .vmem S2048x128 .f32) (h9B : a9B.IsWhole) (hc0B : ¬cond3_0 iB) (hc1B : cond3_1 iB)
    (xA0 xB0 : Vec Ideal S1x2048x128 .bf16) (xA1 xA2 xB1 xB2 : Vec Ideal S1x1024x128 .bf16)
    (r : Fin 2048) (d : Fin 64) :
    out3_B_3 (F := Ideal) cB iB a3B h3B a4B h4B a5B h5B a6B h6B a7B h7B a8B h8B a9B h9B hc0B hc1B xB0 xB1 xB2
        (sout3_A_0 (F := Ideal) cA iA a3A h3A a4A h4A a5A h5A a6A h6A a7A h7A a8A h8A a9A h9A hc0A hc1A xA0 xA1 xA2)
        (sout3_A_1 (F := Ideal) cA iA a3A h3A a4A h4A a5A h5A a6A h6A a7A h7A a8A h8A a9A h9A hc0A hc1A xA0 xA1 xA2)
        (sout3_A_2 (F := Ideal) cA iA a3A h3A a4A h4A a5A h5A a6A h6A a7A h7A a8A h8A a9A h9A hc0A hc1A xA0 xA1 xA2)
        (ix3 (0 : Fin 1) r (colLo d))
      = Ideal.div
          (step (fun j => scoreLo xB0 xB1 r j) (fun j => xB2 (ix3 (0 : Fin 1) j (colLo d)))
            (step (fun j => scoreLo xA0 xA1 r j) (fun j => xA2 (ix3 (0 : Fin 1) j (colLo d))) (⊥, 0, 0))).2.2
          (step (fun j => scoreLo xB0 xB1 r j) (fun j => xB2 (ix3 (0 : Fin 1) j (colLo d)))
            (step (fun j => scoreLo xA0 xA1 r j) (fun j => xA2 (ix3 (0 : Fin 1) j (colLo d))) (⊥, 0, 0))).2.1 := by
  rw [caseB_lo, caseA_lo]

/-- Second head: the same in columns 64–127. -/
theorem two_blocks_hi (cA : Dev nD) (iA : grid3.Coords) (a3A : Memref sig .tc .vmem S1x2048x128 .bf16) (h3A : a3A.IsWhole) (a4A : Memref sig .tc .vmem S1x1024x128 .bf16) (h4A : a4A.IsWhole) (a5A : Memref sig .tc .vmem S1x1024x128 .bf16) (h5A : a5A.IsWhole) (a6A : Memref sig .tc .vmem S1x2048x128 .bf16) (h6A : a6A.IsWhole) (a7A : Memref sig .tc .vmem S2048x2 .f32) (h7A : a7A.IsWhole) (a8A : Memref sig .tc .vmem S2048x2 .f32) (h8A : a8A.IsWhole) (a9A : Memref sig .tc .vmem S2048x128 .f32) (h9A : a9A.IsWhole) (hc0A : cond3_0 iA) (hc1A : ¬cond3_1 iA)
    (cB : Dev nD) (iB : grid3.Coords) (a3B : Memref sig .tc .vmem S1x2048x128 .bf16) (h3B : a3B.IsWhole) (a4B : Memref sig .tc .vmem S1x1024x128 .bf16) (h4B : a4B.IsWhole) (a5B : Memref sig .tc .vmem S1x1024x128 .bf16) (h5B : a5B.IsWhole) (a6B : Memref sig .tc .vmem S1x2048x128 .bf16) (h6B : a6B.IsWhole) (a7B : Memref sig .tc .vmem S2048x2 .f32) (h7B : a7B.IsWhole) (a8B : Memref sig .tc .vmem S2048x2 .f32) (h8B : a8B.IsWhole) (a9B : Memref sig .tc .vmem S2048x128 .f32) (h9B : a9B.IsWhole) (hc0B : ¬cond3_0 iB) (hc1B : cond3_1 iB)
    (xA0 xB0 : Vec Ideal S1x2048x128 .bf16) (xA1 xA2 xB1 xB2 : Vec Ideal S1x1024x128 .bf16)
    (r : Fin 2048) (d : Fin 64) :
    out3_B_3 (F := Ideal) cB iB a3B h3B a4B h4B a5B h5B a6B h6B a7B h7B a8B h8B a9B h9B hc0B hc1B xB0 xB1 xB2
        (sout3_A_0 (F := Ideal) cA iA a3A h3A a4A h4A a5A h5A a6A h6A a7A h7A a8A h8A a9A h9A hc0A hc1A xA0 xA1 xA2)
        (sout3_A_1 (F := Ideal) cA iA a3A h3A a4A h4A a5A h5A a6A h6A a7A h7A a8A h8A a9A h9A hc0A hc1A xA0 xA1 xA2)
        (sout3_A_2 (F := Ideal) cA iA a3A h3A a4A h4A a5A h5A a6A h6A a7A h7A a8A h8A a9A h9A hc0A hc1A xA0 xA1 xA2)
        (ix3 (0 : Fin 1) r (colHi d))
      = Ideal.div
          (step (fun j => scoreHi xB0 xB1 r j) (fun j => xB2 (ix3 (0 : Fin 1) j (colHi d)))
            (step (fun j => scoreHi xA0 xA1 r j) (fun j => xA2 (ix3 (0 : Fin 1) j (colHi d))) (⊥, 0, 0))).2.2
          (step (fun j => scoreHi xB0 xB1 r j) (fun j => xB2 (ix3 (0 : Fin 1) j (colHi d)))
            (step (fun j => scoreHi xA0 xA1 r j) (fun j => xA2 (ix3 (0 : Fin 1) j (colHi d))) (⊥, 0, 0))).2.1 := by
  rw [caseB_hi, caseA_hi]

/-- First head: with the query block (as found at either key block) holding row `t` of `Q` in head
`h`, the two key blocks holding keys `j` and `1024 + j` of `K`, the two value blocks those of `V`,
all finite, the output entry is the attention at row `t`, column `64h + d`. -/
theorem two_blocks_lo_attn (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (h : Fin 16) (t : Fin 2048)
    (cA : Dev nD) (iA : grid3.Coords) (a3A : Memref sig .tc .vmem S1x2048x128 .bf16) (h3A : a3A.IsWhole) (a4A : Memref sig .tc .vmem S1x1024x128 .bf16) (h4A : a4A.IsWhole) (a5A : Memref sig .tc .vmem S1x1024x128 .bf16) (h5A : a5A.IsWhole) (a6A : Memref sig .tc .vmem S1x2048x128 .bf16) (h6A : a6A.IsWhole) (a7A : Memref sig .tc .vmem S2048x2 .f32) (h7A : a7A.IsWhole) (a8A : Memref sig .tc .vmem S2048x2 .f32) (h8A : a8A.IsWhole) (a9A : Memref sig .tc .vmem S2048x128 .f32) (h9A : a9A.IsWhole) (hc0A : cond3_0 iA) (hc1A : ¬cond3_1 iA)
    (cB : Dev nD) (iB : grid3.Coords) (a3B : Memref sig .tc .vmem S1x2048x128 .bf16) (h3B : a3B.IsWhole) (a4B : Memref sig .tc .vmem S1x1024x128 .bf16) (h4B : a4B.IsWhole) (a5B : Memref sig .tc .vmem S1x1024x128 .bf16) (h5B : a5B.IsWhole) (a6B : Memref sig .tc .vmem S1x2048x128 .bf16) (h6B : a6B.IsWhole) (a7B : Memref sig .tc .vmem S2048x2 .f32) (h7B : a7B.IsWhole) (a8B : Memref sig .tc .vmem S2048x2 .f32) (h8B : a8B.IsWhole) (a9B : Memref sig .tc .vmem S2048x128 .f32) (h9B : a9B.IsWhole) (hc0B : ¬cond3_0 iB) (hc1B : cond3_1 iB)
    (xA0 xB0 : Vec Ideal S1x2048x128 .bf16) (xA1 xA2 xB1 xB2 : Vec Ideal S1x1024x128 .bf16)
    (r : Fin 2048) (d : Fin 64)
    (hqA : ∀ d' : Fin 64, xA0 (ix3 (0 : Fin 1) r (colLo d')) = Q b t (col h d'))
    (hqB : ∀ d' : Fin 64, xB0 (ix3 (0 : Fin 1) r (colLo d')) = Q b t (col h d'))
    (hkA : ∀ (j : Fin 1024) (d' : Fin 64),
      xA1 (ix3 (0 : Fin 1) j (colLo d')) = K b ⟨j.val, by omega⟩ (col h d'))
    (hkB : ∀ (j : Fin 1024) (d' : Fin 64),
      xB1 (ix3 (0 : Fin 1) j (colLo d')) = K b ⟨1024 + j.val, by omega⟩ (col h d'))
    (hvA : ∀ j : Fin 1024, xA2 (ix3 (0 : Fin 1) j (colLo d)) = V b ⟨j.val, by omega⟩ (col h d))
    (hvB : ∀ j : Fin 1024, xB2 (ix3 (0 : Fin 1) j (colLo d)) = V b ⟨1024 + j.val, by omega⟩ (col h d)) :
    out3_B_3 (F := Ideal) cB iB a3B h3B a4B h4B a5B h5B a6B h6B a7B h7B a8B h8B a9B h9B hc0B hc1B xB0 xB1 xB2
        (sout3_A_0 (F := Ideal) cA iA a3A h3A a4A h4A a5A h5A a6A h6A a7A h7A a8A h8A a9A h9A hc0A hc1A xA0 xA1 xA2)
        (sout3_A_1 (F := Ideal) cA iA a3A h3A a4A h4A a5A h5A a6A h6A a7A h7A a8A h8A a9A h9A hc0A hc1A xA0 xA1 xA2)
        (sout3_A_2 (F := Ideal) cA iA a3A h3A a4A h4A a5A h5A a6A h6A a7A h7A a8A h8A a9A h9A hc0A hc1A xA0 xA1 xA2)
        (ix3 (0 : Fin 1) r (colLo d))
      = attn Q K V b t (col h d) :=
  (two_blocks_lo cA iA a3A h3A a4A h4A a5A h5A a6A h6A a7A h7A a8A h8A a9A h9A hc0A hc1A cB iB a3B h3B a4B h4B a5B h5B a6B h6B a7B h7B a8B h8B a9B h9B hc0B hc1B xA0 xB0 xA1 xA2 xB1 xB2 r d).trans
    (two_steps_eq_attn_col Q K V hQ hK hV b h t d _ _ _ _
      (fun j => scoreLo_eq_score xA0 xA1 Q K b h t _ r j hqA (hkA j))
      (fun j => scoreLo_eq_score xB0 xB1 Q K b h t _ r j hqB (hkB j)) hvA hvB)

/-- Second head: the same in columns 64–127 of the blocks. -/
theorem two_blocks_hi_attn (Q K V : Arr3) (hQ : ∀ b t c, Q b t c ≠ ⊥ ∧ Q b t c ≠ ⊤)
    (hK : ∀ b t c, K b t c ≠ ⊥ ∧ K b t c ≠ ⊤) (hV : ∀ b t c, V b t c ≠ ⊥ ∧ V b t c ≠ ⊤)
    (b : Fin 4) (h : Fin 16) (t : Fin 2048)
    (cA : Dev nD) (iA : grid3.Coords) (a3A : Memref sig .tc .vmem S1x2048x128 .bf16) (h3A : a3A.IsWhole) (a4A : Memref sig .tc .vmem S1x1024x128 .bf16) (h4A : a4A.IsWhole) (a5A : Memref sig .tc .vmem S1x1024x128 .bf16) (h5A : a5A.IsWhole) (a6A : Memref sig .tc .vmem S1x2048x128 .bf16) (h6A : a6A.IsWhole) (a7A : Memref sig .tc .vmem S2048x2 .f32) (h7A : a7A.IsWhole) (a8A : Memref sig .tc .vmem S2048x2 .f32) (h8A : a8A.IsWhole) (a9A : Memref sig .tc .vmem S2048x128 .f32) (h9A : a9A.IsWhole) (hc0A : cond3_0 iA) (hc1A : ¬cond3_1 iA)
    (cB : Dev nD) (iB : grid3.Coords) (a3B : Memref sig .tc .vmem S1x2048x128 .bf16) (h3B : a3B.IsWhole) (a4B : Memref sig .tc .vmem S1x1024x128 .bf16) (h4B : a4B.IsWhole) (a5B : Memref sig .tc .vmem S1x1024x128 .bf16) (h5B : a5B.IsWhole) (a6B : Memref sig .tc .vmem S1x2048x128 .bf16) (h6B : a6B.IsWhole) (a7B : Memref sig .tc .vmem S2048x2 .f32) (h7B : a7B.IsWhole) (a8B : Memref sig .tc .vmem S2048x2 .f32) (h8B : a8B.IsWhole) (a9B : Memref sig .tc .vmem S2048x128 .f32) (h9B : a9B.IsWhole) (hc0B : ¬cond3_0 iB) (hc1B : cond3_1 iB)
    (xA0 xB0 : Vec Ideal S1x2048x128 .bf16) (xA1 xA2 xB1 xB2 : Vec Ideal S1x1024x128 .bf16)
    (r : Fin 2048) (d : Fin 64)
    (hqA : ∀ d' : Fin 64, xA0 (ix3 (0 : Fin 1) r (colHi d')) = Q b t (col h d'))
    (hqB : ∀ d' : Fin 64, xB0 (ix3 (0 : Fin 1) r (colHi d')) = Q b t (col h d'))
    (hkA : ∀ (j : Fin 1024) (d' : Fin 64),
      xA1 (ix3 (0 : Fin 1) j (colHi d')) = K b ⟨j.val, by omega⟩ (col h d'))
    (hkB : ∀ (j : Fin 1024) (d' : Fin 64),
      xB1 (ix3 (0 : Fin 1) j (colHi d')) = K b ⟨1024 + j.val, by omega⟩ (col h d'))
    (hvA : ∀ j : Fin 1024, xA2 (ix3 (0 : Fin 1) j (colHi d)) = V b ⟨j.val, by omega⟩ (col h d))
    (hvB : ∀ j : Fin 1024, xB2 (ix3 (0 : Fin 1) j (colHi d)) = V b ⟨1024 + j.val, by omega⟩ (col h d)) :
    out3_B_3 (F := Ideal) cB iB a3B h3B a4B h4B a5B h5B a6B h6B a7B h7B a8B h8B a9B h9B hc0B hc1B xB0 xB1 xB2
        (sout3_A_0 (F := Ideal) cA iA a3A h3A a4A h4A a5A h5A a6A h6A a7A h7A a8A h8A a9A h9A hc0A hc1A xA0 xA1 xA2)
        (sout3_A_1 (F := Ideal) cA iA a3A h3A a4A h4A a5A h5A a6A h6A a7A h7A a8A h8A a9A h9A hc0A hc1A xA0 xA1 xA2)
        (sout3_A_2 (F := Ideal) cA iA a3A h3A a4A h4A a5A h5A a6A h6A a7A h7A a8A h8A a9A h9A hc0A hc1A xA0 xA1 xA2)
        (ix3 (0 : Fin 1) r (colHi d))
      = attn Q K V b t (col h d) :=
  (two_blocks_hi cA iA a3A h3A a4A h4A a5A h5A a6A h6A a7A h7A a8A h8A a9A h9A hc0A hc1A cB iB a3B h3B a4B h4B a5B h5B a6B h6B a7B h7B a8B h8B a9B h9B hc0B hc1B xA0 xB0 xA1 xA2 xB1 xB2 r d).trans
    (two_steps_eq_attn_col Q K V hQ hK hV b h t d _ _ _ _
      (fun j => scoreHi_eq_score xA0 xA1 Q K b h t _ r j hqA (hkA j))
      (fun j => scoreHi_eq_score xB0 xB1 Q K b h t _ r j hqB (hkB j)) hvA hvB)

end Cert.Proof.Attn

end
-- ==== Proof.AttnFinal.lean ====
import proofs.«181089_j2508260901282_2_alg».proof.Proof.AttnBlocks
import proofs.«181089_j2508260901282_2_alg».proof.Proof.AttnTwo

/-!
# The attention region's output array

The output block of batch `b` and head pair `p` is written back at the position with key block 1.
There the body has absorbed both key blocks into running buffers that started at (−∞, 0, 0), so
each entry of the block is the weighted sum over the row sum after two steps of the online-softmax
recurrence: the softmax attention of the specification at row `r` and column `128p + c`, provided
the three projected arrays are finite. The blocks of the odd positions tile the array.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Attn Cert.Mha Cert.OnlineSoftmax

variable (V : (c : Dev nD) → (b : Ref sig .tc) → Buf (Elt Ideal) ((c : Thread nD τ).loc b))

/-- Softmax attention of three `[4, 2048, 1024]` buffers, as a buffer. -/
def attnG (q k v : S4x2048x1024.Idx → EReal) : S4x2048x1024.Idx → EReal :=
  fun i => attn (arr3 q) (arr3 k) (arr3 v) (i 0) (i 1) (i 2)

section
variable (c : Dev nD)
  (hQ : ∀ b t k, arr3 (V c main_v6) b t k ≠ ⊥ ∧ arr3 (V c main_v6) b t k ≠ ⊤)
  (hK : ∀ b t k, arr3 (V c main_v7) b t k ≠ ⊥ ∧ arr3 (V c main_v7) b t k ≠ ⊤)
  (hV : ∀ b t k, arr3 (V c main_v8) b t k ≠ ⊥ ∧ arr3 (V c main_v8) b t k ≠ ⊤)

include hQ hK hV in
set_option maxHeartbeats 1000000 in
/-- What an odd position writes back is its block of the attention array. -/
theorem flushed3_eq (t : Fin cfg3.N) (hf : (cfg3.win 3).flush t = true) :
    (dat3 (F := Ideal) V c).flushed 3 t
      = ((cfg3.win 3).blk t).view.read (Elt Ideal) (attnG (V c main_v6) (V c main_v7) (V c main_v8)) := by
  have h1 : t.val % 2 = 1 := (flush3_3 t).mp hf
  have h0 : ¬t.val % 2 = 0 := by omega
  have hN : t.val < 64 := lt_of_lt_of_eq t.isLt (show cfg3.N = 64 from N_3)
  obtain ⟨tp, htp⟩ : ∃ tp : Fin cfg3.N, tp.val = t.val - 1 := ⟨⟨t.val - 1, Nat.lt_of_le_of_lt (Nat.sub_le _ _) t.isLt⟩, rfl⟩
  have hp0 : tp.val % 2 = 0 := by omega
  have hp1 : ¬tp.val % 2 = 1 := by omega
  obtain ⟨bb, hbb⟩ : ∃ bb : Fin 4, bb.val = t.val / 16 := ⟨⟨_, by omega⟩, rfl⟩
  show (cfg3.win 3).cut (grid3.coords t) ((dat3 V c).after 3 t) = _
  rw [after3_3, outsAt3_B V c t h0 h1]
  rw [outsAt3_congr V c (t.val - 1) tp.val htp.symm _ tp.isLt, outsAt3_A V c tp hp0 hp1]
  dsimp only
  funext j
  obtain ⟨u, r, cc, rfl⟩ : ∃ (u : Fin 1) (r : Fin 2048) (cc : Fin 128), j = ix3 u r cc := ⟨j 0, j 1, j 2, eq_ix3 j⟩
  obtain rfl : u = 0 := Subsingleton.elim _ _
  by_cases hcc : cc.val < 64
  · obtain ⟨d, rfl⟩ : ∃ d : Fin 64, cc = colLo d := ⟨⟨cc.val, hcc⟩, Fin.ext rfl⟩
    obtain ⟨hh, hhv⟩ : ∃ hh : Fin 16, hh.val = 2 * (t.val / 2 % 8) := ⟨⟨_, by omega⟩, rfl⟩
    have hcol : ∀ d' : Fin 64, (col hh d').val = t.val / 2 % 8 * 128 + (colLo d').val := fun d' => by
      show hh.val * 64 + d'.val = t.val / 2 % 8 * 128 + d'.val; omega
    have hcolp : ∀ d' : Fin 64, (col hh d').val = tp.val / 2 % 8 * 128 + (colLo d').val := fun d' => by rw [hcol d']; omega
    refine (two_blocks_lo_attn (arr3 (V c main_v6)) (arr3 (V c main_v7)) (arr3 (V c main_v8)) hQ hK hV bb hh r
      c (grid3.coords tp) (ms3_0 tp) (hs3_0 tp) (ms3_1 tp) (hs3_1 tp) (ms3_2 tp) (hs3_2 tp) (ms3_3 tp) (hs3_3 tp) scM3_0 (Memref.isWhole_whole _) scM3_1 (Memref.isWhole_whole _) scM3_2 (Memref.isWhole_whole _) ((hcond3_0 tp).mpr hp0) (fun h => hp1 ((hcond3_1 tp).mp h))
      c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1)
      (iblk3 V c 0 tp) (iblk3 V c 0 t) (iblk3 V c 1 tp) (iblk3 V c 2 tp) (iblk3 V c 1 t) (iblk3 V c 2 t) r d
      (fun d' => blk_q V c tp r (colLo d') bb (by omega) (col hh d') (hcolp d'))
      (fun d' => blk_q V c t r (colLo d') bb hbb (col hh d') (hcol d'))
      (fun j' d' => blk_k V c tp j' (colLo d') bb (by omega) ⟨j'.val, by omega⟩ (by show j'.val = tp.val % 2 * 1024 + j'.val; omega) (col hh d') (hcolp d'))
      (fun j' d' => blk_k V c t j' (colLo d') bb hbb ⟨1024 + j'.val, by omega⟩ (by show 1024 + j'.val = t.val % 2 * 1024 + j'.val; omega) (col hh d') (hcol d'))
      (fun j' => blk_v V c tp j' (colLo d) bb (by omega) ⟨j'.val, by omega⟩ (by show j'.val = tp.val % 2 * 1024 + j'.val; omega) (col hh d) (hcolp d))
      (fun j' => blk_v V c t j' (colLo d) bb hbb ⟨1024 + j'.val, by omega⟩ (by show 1024 + j'.val = t.val % 2 * 1024 + j'.val; omega) (col hh d) (hcol d))).trans ?_
    show attn _ _ _ bb r (col hh d) = attnG (V c main_v6) (V c main_v7) (V c main_v8) (((cfg3.win 3).blk t).view.emb (ix3 (0 : Fin 1) r (colLo d)))
    rw [emb_o t r (colLo d) bb hbb (col hh d) (hcol d)]
    rfl
  · obtain ⟨d, rfl⟩ : ∃ d : Fin 64, cc = colHi d := ⟨⟨cc.val - 64, by have := cc.isLt; omega⟩, Fin.ext (by show cc.val = 64 + (cc.val - 64); omega)⟩
    obtain ⟨hh, hhv⟩ : ∃ hh : Fin 16, hh.val = 2 * (t.val / 2 % 8) + 1 := ⟨⟨_, by omega⟩, rfl⟩
    have hcol : ∀ d' : Fin 64, (col hh d').val = t.val / 2 % 8 * 128 + (colHi d').val := fun d' => by
      show hh.val * 64 + d'.val = t.val / 2 % 8 * 128 + (64 + d'.val); omega
    have hcolp : ∀ d' : Fin 64, (col hh d').val = tp.val / 2 % 8 * 128 + (colHi d').val := fun d' => by rw [hcol d']; omega
    refine (two_blocks_hi_attn (arr3 (V c main_v6)) (arr3 (V c main_v7)) (arr3 (V c main_v8)) hQ hK hV bb hh r
      c (grid3.coords tp) (ms3_0 tp) (hs3_0 tp) (ms3_1 tp) (hs3_1 tp) (ms3_2 tp) (hs3_2 tp) (ms3_3 tp) (hs3_3 tp) scM3_0 (Memref.isWhole_whole _) scM3_1 (Memref.isWhole_whole _) scM3_2 (Memref.isWhole_whole _) ((hcond3_0 tp).mpr hp0) (fun h => hp1 ((hcond3_1 tp).mp h))
      c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1)
      (iblk3 V c 0 tp) (iblk3 V c 0 t) (iblk3 V c 1 tp) (iblk3 V c 2 tp) (iblk3 V c 1 t) (iblk3 V c 2 t) r d
      (fun d' => blk_q V c tp r (colHi d') bb (by omega) (col hh d') (hcolp d'))
      (fun d' => blk_q V c t r (colHi d') bb hbb (col hh d') (hcol d'))
      (fun j' d' => blk_k V c tp j' (colHi d') bb (by omega) ⟨j'.val, by omega⟩ (by show j'.val = tp.val % 2 * 1024 + j'.val; omega) (col hh d') (hcolp d'))
      (fun j' d' => blk_k V c t j' (colHi d') bb hbb ⟨1024 + j'.val, by omega⟩ (by show 1024 + j'.val = t.val % 2 * 1024 + j'.val; omega) (col hh d') (hcol d'))
      (fun j' => blk_v V c tp j' (colHi d) bb (by omega) ⟨j'.val, by omega⟩ (by show j'.val = tp.val % 2 * 1024 + j'.val; omega) (col hh d) (hcolp d))
      (fun j' => blk_v V c t j' (colHi d) bb hbb ⟨1024 + j'.val, by omega⟩ (by show 1024 + j'.val = t.val % 2 * 1024 + j'.val; omega) (col hh d) (hcol d))).trans ?_
    show attn _ _ _ bb r (col hh d) = attnG (V c main_v6) (V c main_v7) (V c main_v8) (((cfg3.win 3).blk t).view.emb (ix3 (0 : Fin 1) r (colHi d)))
    rw [emb_o t r (colHi d) bb hbb (col hh d) (hcol d)]
    rfl

include hQ hK hV in
/-- The output array after the region: the softmax attention of the three arrays the region finds. -/
theorem final3 : (dat3 (F := Ideal) V c).arrAt 3 cfg3.N = attnG (V c main_v6) (V c main_v7) (V c main_v8) :=
  (dat3 (F := Ideal) V c).arrAt_eq_of_cover 3 _ (fun t hf => flushed3_eq V c hQ hK hV t hf) cover3

end

end Cert.KernelIdeal.Hand

end
-- ==== Proof.ValueRunB.lean ====
import proofs.«181089_j2508260901282_2_alg».proof.Proof.ValueRunA
import proofs.«181089_j2508260901282_2_alg».proof.Proof.ValueMM4
import proofs.«181089_j2508260901282_2_alg».proof.Proof.AttnFinal

/-!
# The result array

The attention region finds the three finite projections and leaves their softmax attention in its
output array; the next host lines flatten it to `[8192, 1024]`; the last region multiplies by `Woᵀ`
and adds the bias row; the last host line cuts the rows back into `[4, 2048, 1024]`. That is the
specification's result at every index.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Mha Cert.Proof.Attn
open scoped BigOperators

variable (m : (ℓ : Loc nD τ sig) → Buf (Elt Ideal) ℓ) (ρ : Dev nD → PrngReg) (c : Dev nD)
  (hf0 : ∀ b t k, arr3 (argA m c main_arg0) b t k ≠ ⊥ ∧ arr3 (argA m c main_arg0) b t k ≠ ⊤)
  (hf1 : ∀ b t k, arr3 (argA m c main_arg1) b t k ≠ ⊥ ∧ arr3 (argA m c main_arg1) b t k ≠ ⊤)
  (hf2 : ∀ b t k, arr3 (argA m c main_arg2) b t k ≠ ⊥ ∧ arr3 (argA m c main_arg2) b t k ≠ ⊤)
  (hf3 : ∀ o k, mat (argA m c main_arg3) o k ≠ ⊥ ∧ mat (argA m c main_arg3) o k ≠ ⊤)
  (hf4 : ∀ o k, mat (argA m c main_arg4) o k ≠ ⊥ ∧ mat (argA m c main_arg4) o k ≠ ⊤)
  (hf5 : ∀ o k, mat (argA m c main_arg5) o k ≠ ⊥ ∧ mat (argA m c main_arg5) o k ≠ ⊤)

include hf0 hf3 in
theorem fin_v6 : ∀ b t k, arr3 (U5 m ρ c main_v6) b t k ≠ ⊥ ∧ arr3 (U5 m ρ c main_v6) b t k ≠ ⊤ := by
  rw [U5_v6]; exact proj_finite _ _ hf0 hf3
include hf1 hf4 in
theorem fin_v7 : ∀ b t k, arr3 (U5 m ρ c main_v7) b t k ≠ ⊥ ∧ arr3 (U5 m ρ c main_v7) b t k ≠ ⊤ := by
  rw [U5_v7]; exact proj_finite _ _ hf1 hf4
include hf2 hf5 in
theorem fin_v8 : ∀ b t k, arr3 (U5 m ρ c main_v8) b t k ≠ ⊥ ∧ arr3 (U5 m ρ c main_v8) b t k ≠ ⊤ := by
  rw [U5_v8]; exact proj_finite _ _ hf2 hf5

include hf0 hf1 hf2 hf3 hf4 hf5 in
/-- The attention region's output array: the specification's attention of the three projections. -/
theorem W6_v9 (i : S4x2048x1024.Idx) :
    W6 m ρ c (Proc.devRef .tc main_v9) i
      = attn (proj (arr3 (argA m c main_arg0)) (mat (argA m c main_arg3))) (proj (arr3 (argA m c main_arg1)) (mat (argA m c main_arg4)))
          (proj (arr3 (argA m c main_arg2)) (mat (argA m c main_arg5))) (i 0) (i 1) (i 2) := by
  have e := (W6_arr m ρ c 3).trans (final3 (U5 m ρ) c (fin_v6 m ρ c hf0 hf3) (fin_v7 m ρ c hf1 hf4) (fin_v8 m ρ c hf2 hf5))
  refine (congrFun e i).trans ?_
  unfold attnG
  rw [U5_v6, U5_v7, U5_v8]

/-! ## The output projection -/

theorem U7_arg6 : U7 m ρ c main_arg6 = argA m c main_arg6 :=
  (W7_keep m ρ c main_arg6 (by decide)).trans <| (W6_keep m ρ c main_arg6 (by decide)).trans <| (W5_keep m ρ c main_arg6 (by decide)).trans <|
  (W4_keep m ρ c main_arg6 (by decide)).trans <| (W3_keep m ρ c main_arg6 (by decide)).trans <| (W2_keep m ρ c main_arg6 (by decide)).trans <|
  (W1_keep m ρ c main_arg6 (by decide))

theorem W6_arg7 : W6 m ρ c (Proc.devRef .tc main_arg7) = argA m c main_arg7 :=
  (W6_keep m ρ c main_arg7 (by decide)).trans <| (W5_keep m ρ c main_arg7 (by decide)).trans <|
  (W4_keep m ρ c main_arg7 (by decide)).trans <| (W3_keep m ρ c main_arg7 (by decide)).trans <| (W2_keep m ρ c main_arg7 (by decide)).trans <|
  (W1_keep m ρ c main_arg7 (by decide))

include hf0 hf1 hf2 hf3 hf4 hf5 in
/-- THE RESULT: the last stage of the fold at the result buffer is the specification's function of the arguments. -/
theorem result_eq :
    W9 m ρ c (Proc.devRef .tc main_v13)
      = G (argA m c main_arg0) (argA m c main_arg1) (argA m c main_arg2) (argA m c main_arg3) (argA m c main_arg4)
          (argA m c main_arg5) (argA m c main_arg6) (argA m c main_arg7) := by
  funext i
  obtain ⟨b, t, o, rfl⟩ : ∃ (b : Fin 4) (t : Fin 2048) (o : Fin 1024), i = ix3 b t o := ⟨i 0, i 1, i 2, eq_ix3 i⟩
  refine (v13_apply (W8 m ρ c) b t o).trans ?_
  have e := (W8_arr m ρ c 3).trans (final4 (U7 m ρ) c)
  refine (congrFun e _).trans ?_
  rw [proj4_apply, U7_arg6]
  show _ = out (arr3 (argA m c main_arg0)) (arr3 (argA m c main_arg1)) (arr3 (argA m c main_arg2)) (mat (argA m c main_arg3)) (mat (argA m c main_arg4))
        (mat (argA m c main_arg5)) (mat (argA m c main_arg6)) (vec (argA m c main_arg7)) b t o
  unfold out
  refine congrArg₂ (· + ·) (Finset.sum_congr rfl fun k _ => congrArg₂ (· * ·) ?_ rfl) ?_
  · refine (v10_apply (W6 m ρ c) _ k).trans ?_
    refine (W6_v9 m ρ c hf0 hf1 hf2 hf3 hf4 hf5 _).trans ?_
    exact unflat b t fun b t => attn _ _ _ b t k
  · refine (v11_apply (W6 m ρ c) 0 o).trans ?_
    rw [W6_arg7]; rfl

end Cert.KernelIdeal.Hand

end
-- ==== Proof.RefBase.lean ====
import proofs.«181089_j2508260901282_2_alg».proof.Proof.Gen.ReferenceIdeal.Read
import proofs.«181089_j2508260901282_2_alg».proof.Proof.Spec

/-!
# The reference program read stage by stage: shared vocabulary

The float constants the reference spells, as extended reals: the scale's radicand 64 has
square root 8, and the maximum's start value is −∞.
-/

noncomputable section

open scoped BigOperators

namespace Cert.Proof.RefValue

open Cert.ReferenceIdeal Cert.ReferenceIdeal.Gen Idealize.ShloMosaic

/-- An activation array [4, 2048, 1024]. -/
abbrev A3 : Type := (⟨S4x2048x1024, .f32⟩ : BufTy).Contents (Elt Ideal)
/-- A weight matrix [1024, 1024]. -/
abbrev M2 : Type := (⟨S1024x1024, .f32⟩ : BufTy).Contents (Elt Ideal)
/-- A bias vector [1024]. -/
abbrev V1 : Type := (⟨S1024, .f32⟩ : BufTy).Contents (Elt Ideal)

/-- The pattern of 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  refine congrArg (fun r : ℝ => (r : EReal)) ?_
  rw [show (64 : ℝ) = 8 ^ 2 by norm_num, Real.sqrt_sq (by norm_num)]

/-- The pattern of -inf denotes −∞. -/
theorem ofBits_neg_inf : Ideal.ofBits .f32 0xFF800000#32 = (⊥ : EReal) := by
  simp [Ideal.ofBits, Ideal.ieee]

/-- Dividing by the square root of 64 is multiplying by 1/8, on every extended real. -/
theorem div_sqrt_64 (x : EReal) :
    Ideal.div x (Ideal.sqrt (Ideal.ofBits .f32 0x42800000#32)) = x * (((1 : ℝ) / 8 : ℝ) : EReal) := by
  rw [sqrt_64]; exact Ideal.div_coe (by norm_num) x

end Cert.Proof.RefValue

end
-- ==== Proof.RefProj.lean ====
import proofs.«181089_j2508260901282_2_alg».proof.Proof.RefBase

/-!
# The three projections, split into heads

Each of the query, key and value inputs is multiplied by its weight matrix transposed, the 1024
output columns are cut into 16 heads of 64, and the head axis is moved in front of the row axis.
Entry [b, h, t, d] of the result is therefore entry [b, t, 64h + d] of x·Wᵀ: the flat position
((b·2048 + t)·16 + h)·64 + d of the four-axis array is (b·2048 + t)·1024 + (64h + d) in the
three-axis one.
-/

noncomputable section

open scoped BigOperators

namespace Cert.Proof.RefValue

open Cert.ReferenceIdeal Cert.ReferenceIdeal.Gen Cert.ReferenceIdeal.Read Idealize.ShloMosaic Idealize.ShloMosaic.ValueIdx Cert.Mha

/-- The row of the query input that entry [b, h, t, d] of its head-split projection reads. -/
theorem lidx_qh (b : Fin 4) (h : Fin 16) (t : Fin 2048) (d : Fin 64) (k : Fin 1024) :
    lidx_main_v0 (idx_main_v1 (idx_main_v2 (ix4 b h t d))) k = ix3 b t k :=
  funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl)

/-- The weight row it reads: output column 64h + d. -/
theorem ridx_qh (b : Fin 4) (h : Fin 16) (t : Fin 2048) (d : Fin 64) (k : Fin 1024) :
    ridx_main_v0 (idx_main_v1 (idx_main_v2 (ix4 b h t d))) k = ix2 (col h d) k :=
  funext fun a => Fin.ext (by
    have hb := b.isLt; have hh := h.isLt; have ht := t.isLt; have hd := d.isLt
    match a with
    | ⟨0, _⟩ => show (((b.val * 2048 + t.val) * 16 + h.val) * 64 + d.val) % 1024 = h.val * 64 + d.val; omega
    | ⟨1, _⟩ => rfl)

/-- The query projection, split into heads and read at [b, h, t, d], is x·Wᵀ at row (b, t), column 64h + d. -/
theorem qh_apply (x : A3) (w : M2) (b : Fin 4) (h : Fin 16) (t : Fin 2048) (d : Fin 64) :
    val_main_v2 (F := Ideal) x w (ix4 b h t d) = proj (arr3 x) (mat w) b t (col h d) := by
  rw [val_main_v2_apply, val_main_v1_apply, val_main_v0_apply]
  refine Finset.sum_congr rfl fun k _ => ?_
  rw [lidx_qh, ridx_qh]
  rfl

/-- The row of the key input that entry [b, h, t, d] of its head-split projection reads. -/
theorem lidx_kh (b : Fin 4) (h : Fin 16) (t : Fin 2048) (d : Fin 64) (k : Fin 1024) :
    lidx_main_v3 (idx_main_v4 (idx_main_v5 (ix4 b h t d))) k = ix3 b t k :=
  funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl)

/-- The weight row it reads: output column 64h + d. -/
theorem ridx_kh (b : Fin 4) (h : Fin 16) (t : Fin 2048) (d : Fin 64) (k : Fin 1024) :
    ridx_main_v3 (idx_main_v4 (idx_main_v5 (ix4 b h t d))) k = ix2 (col h d) k :=
  funext fun a => Fin.ext (by
    have hb := b.isLt; have hh := h.isLt; have ht := t.isLt; have hd := d.isLt
    match a with
    | ⟨0, _⟩ => show (((b.val * 2048 + t.val) * 16 + h.val) * 64 + d.val) % 1024 = h.val * 64 + d.val; omega
    | ⟨1, _⟩ => rfl)

/-- The key projection, split into heads and read at [b, h, t, d], is x·Wᵀ at row (b, t), column 64h + d. -/
theorem kh_apply (x : A3) (w : M2) (b : Fin 4) (h : Fin 16) (t : Fin 2048) (d : Fin 64) :
    val_main_v5 (F := Ideal) x w (ix4 b h t d) = proj (arr3 x) (mat w) b t (col h d) := by
  rw [val_main_v5_apply, val_main_v4_apply, val_main_v3_apply]
  refine Finset.sum_congr rfl fun k _ => ?_
  rw [lidx_kh, ridx_kh]
  rfl

/-- The row of the value input that entry [b, h, t, d] of its head-split projection reads. -/
theorem lidx_vh (b : Fin 4) (h : Fin 16) (t : Fin 2048) (d : Fin 64) (k : Fin 1024) :
    lidx_main_v6 (idx_main_v7 (idx_main_v8 (ix4 b h t d))) k = ix3 b t k :=
  funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl)

/-- The weight row it reads: output column 64h + d. -/
theorem ridx_vh (b : Fin 4) (h : Fin 16) (t : Fin 2048) (d : Fin 64) (k : Fin 1024) :
    ridx_main_v6 (idx_main_v7 (idx_main_v8 (ix4 b h t d))) k = ix2 (col h d) k :=
  funext fun a => Fin.ext (by
    have hb := b.isLt; have hh := h.isLt; have ht := t.isLt; have hd := d.isLt
    match a with
    | ⟨0, _⟩ => show (((b.val * 2048 + t.val) * 16 + h.val) * 64 + d.val) % 1024 = h.val * 64 + d.val; omega
    | ⟨1, _⟩ => rfl)

/-- The value projection, split into heads and read at [b, h, t, d], is x·Wᵀ at row (b, t), column 64h + d. -/
theorem vh_apply (x : A3) (w : M2) (b : Fin 4) (h : Fin 16) (t : Fin 2048) (d : Fin 64) :
    val_main_v8 (F := Ideal) x w (ix4 b h t d) = proj (arr3 x) (mat w) b t (col h d) := by
  rw [val_main_v8_apply, val_main_v7_apply, val_main_v6_apply]
  refine Finset.sum_congr rfl fun k _ => ?_
  rw [lidx_vh, ridx_vh]
  rfl

end Cert.Proof.RefValue

end
-- ==== Proof.RefScore.lean ====
import proofs.«181089_j2508260901282_2_alg».proof.Proof.RefBase
import proofs.«181089_j2508260901282_2_alg».proof.Proof.RefProj

/-!
# The scaled scores

Entry [b, h, t, k] of the score array is the dot product over the head's 64 columns of query row t
and key row k, divided by the square root of 64; that division is the product with 1/8.
-/

noncomputable section

open scoped BigOperators

namespace Cert.Proof.RefValue

open Cert.ReferenceIdeal Cert.ReferenceIdeal.Gen Cert.ReferenceIdeal.Read Idealize.ShloMosaic Idealize.ShloMosaic.ValueIdx Cert.Mha

/-- The query entry that score [b, h, t, k] reads at contraction position d. -/
theorem lidx_score (b : Fin 4) (h : Fin 16) (t k : Fin 2048) (d : Fin 64) :
    lidx_main_v9 (ix4 b h t k) d = ix4 b h t d :=
  funext fun a => Fin.ext (by match a with | ⟨0, _⟩ => rfl | ⟨1, _⟩ => rfl | ⟨2, _⟩ => rfl | ⟨3, _⟩ => rfl)

/-- The key entry that score [b, h, t, k] reads at contraction position d. -/
theorem ridx_score (b : Fin 4) (h : Fin 16) (t k : Fin 2048) (d : Fin 64) :
    ridx_main_v9 (ix4 b h t k) d = ix4 b h k d :=
  funext fun a => Fin.ext (by match a with | ⟨0, _⟩ => rfl | ⟨1, _⟩ => rfl | ⟨2, _⟩ => rfl | ⟨3, _⟩ => rfl)

/-- The divided score array at [b, h, t, k] is the specification's scaled score of the two projections. -/
theorem score_apply (x0 x1 : A3) (x3 x4 : M2) (b : Fin 4) (h : Fin 16) (t k : Fin 2048) :
    val_main_v12 (F := Ideal) x0 x1 x3 x4 (ix4 b h t k)
      = score (proj (arr3 x0) (mat x3)) (proj (arr3 x1) (mat x4)) b h t k := by
  rw [val_main_v12_apply, val_main_v9_apply, val_main_v11_apply, val_main_v10_apply, val_main_cst_apply]
  simp only [Ideal.hostDivf_def, Ideal.hostUnary_sqrt_def, Ideal.ofBits_def]
  rw [div_sqrt_64]
  unfold score
  refine congrArg (· * _) (Finset.sum_congr rfl fun d _ => ?_)
  rw [lidx_score, ridx_score, qh_apply, kh_apply]

end Cert.Proof.RefValue

end
-- ==== Proof.RefSoftmax.lean ====
import proofs.«181089_j2508260901282_2_alg».proof.Proof.RefBase
import proofs.«181089_j2508260901282_2_alg».proof.Proof.RefScore

/-!
# The softmax over the key axis

For each query row [b, h, t] the reference takes the maximum M of the 2048 scores (a fold of max
from −∞, then once more a maximum with −∞, which changes nothing), the exponentials
exp(score − M), their sum L (from 0), and the weights exp(score − M) / L.
-/

noncomputable section

open scoped BigOperators

namespace Cert.Proof.RefValue

open Cert.ReferenceIdeal Cert.ReferenceIdeal.Gen Cert.ReferenceIdeal.Read Idealize.ShloMosaic Idealize.ShloMosaic.ValueIdx Cert.Mha

/-- Dropping the key axis of [4, 16, 2048, 2048] leaves [4, 16, 2048]. -/
theorem reduces_keys : S4x16x2048x2048.Reduces [3] S4x16x2048 := by decide

/-- Row [b, h, t] with key coordinate k put back is [b, h, t, k]. -/
theorem lift_keys (hR : S4x16x2048x2048.Reduces [3] S4x16x2048) (b : Fin 4) (h : Fin 16) (t : Fin 2048)
    (k : Fin (S4x16x2048x2048.size 3)) : hR.lift (ix3 b h t) k = ix4 b h t (⟨k.val, k.isLt⟩ : Fin 2048) := by
  funext c; apply Fin.ext
  fin_cases c <;> rfl

/-- From −∞, the maximum-reduce of an array over its key axis is, at row [b, h, t], the fold of max over the row. -/
theorem reduce_max_keys (y : FVec Ideal S4x16x2048x2048 .f32) (b : Fin 4) (h : Fin 16) (t : Fin 2048) :
    Host.reduce FloatOps.maximumf y (constant (F := Ideal) S_ .f32 0xFF800000#32) reducesTo_S4x16x2048x2048_S4x16x2048_d3 h_S_ (ix3 b h t)
      = (Finset.univ : Finset (Fin 2048)).fold max ⊥ (fun k => y (ix4 b h t k)) := by
  refine (Host.reduce_eq_fold_single FloatOps.maximumf y _ reducesTo_S4x16x2048x2048_S4x16x2048_d3 reduces_keys h_S_ (ix3 b h t)).trans ?_
  have hf : (y ∘ reduces_keys.lift (ix3 b h t)) = fun k : Fin 2048 => y (ix4 b h t k) :=
    funext fun k => congrArg y (lift_keys reduces_keys b h t k)
  have hi : constant (F := Ideal) S_ .f32 0xFF800000#32 (Shape.Idx.first h_S_) = (⊥ : EReal) := ofBits_neg_inf
  rw [hi]
  exact congrArg (fun f => Finset.fold max (⊥ : EReal) f (Finset.univ : Finset (Fin 2048))) hf

/-- The row index that the maximum, broadcast back over the key axis, is read at. -/
theorem idx_rowmax (b : Fin 4) (h : Fin 16) (t k : Fin 2048) :
    idx_main_v16 (idx_main_v17 (ix4 b h t k)) = ix3 b h t :=
  funext fun a => Fin.ext (by match a with | ⟨0, _⟩ => rfl | ⟨1, _⟩ => rfl | ⟨2, _⟩ => rfl)

/-- The row index that the sum, broadcast back over the key axis, is read at. -/
theorem idx_rowsum (b : Fin 4) (h : Fin 16) (t k : Fin 2048) :
    idx_main_v21 (idx_main_v22 (ix4 b h t k)) = ix3 b h t :=
  funext fun a => Fin.ext (by match a with | ⟨0, _⟩ => rfl | ⟨1, _⟩ => rfl | ⟨2, _⟩ => rfl)

/-- The entry of row [b, h, t] that the sum reads at position k. -/
theorem idx_sum_keys (b : Fin 4) (h : Fin 16) (t k : Fin 2048) :
    idx_main_v20 (ix3 b h t) k = ix4 b h t k :=
  funext fun a => Fin.ext (by match a with | ⟨0, _⟩ => rfl | ⟨1, _⟩ => rfl | ⟨2, _⟩ => rfl | ⟨3, _⟩ => rfl)

/-- The row maximum at [b, h, t] is the fold of max from −∞ over the row's scores. -/
theorem rowmax_apply (x0 x1 : A3) (x3 x4 : M2) (b : Fin 4) (h : Fin 16) (t : Fin 2048) :
    val_main_v15 (F := Ideal) x0 x1 x3 x4 (ix3 b h t)
      = (Finset.univ : Finset (Fin 2048)).fold max ⊥
          (fun k => score (proj (arr3 x0) (mat x3)) (proj (arr3 x1) (mat x4)) b h t k) := by
  rw [val_main_v15_apply, val_main_v14_apply, val_main_cst_1_apply]
  simp only [Ideal.maximumf_def, Ideal.ofBits_def]
  rw [ofBits_neg_inf, max_bot_left]
  unfold val_main_v13 val_main_cst_0
  generalize hy : val_main_v12 (F := Ideal) x0 x1 x3 x4 = y
  rw [reduce_max_keys y b h t]
  refine congrArg (fun f => Finset.fold max (⊥ : EReal) f (Finset.univ : Finset (Fin 2048))) (funext fun k => ?_)
  rw [← hy, score_apply]

/-- The exponential at [b, h, t, k] is exp(score − row maximum). -/
theorem expo_apply (x0 x1 : A3) (x3 x4 : M2) (b : Fin 4) (h : Fin 16) (t k : Fin 2048) :
    val_main_v19 (F := Ideal) x0 x1 x3 x4 (ix4 b h t k)
      = Ideal.exp (val_main_v12 (F := Ideal) x0 x1 x3 x4 (ix4 b h t k) - val_main_v15 (F := Ideal) x0 x1 x3 x4 (ix3 b h t)) := by
  rw [val_main_v19_apply, val_main_v18_apply, val_main_v17_apply, val_main_v16_apply, idx_rowmax]
  simp only [Ideal.hostUnary_exp_def, Ideal.subf_def]

/-- The row sum at [b, h, t] is the sum of the row's exponentials. -/
theorem rowsum_apply (x0 x1 : A3) (x3 x4 : M2) (b : Fin 4) (h : Fin 16) (t : Fin 2048) :
    val_main_v20 (F := Ideal) x0 x1 x3 x4 (ix3 b h t)
      = ∑ k : Fin 2048, val_main_v19 (F := Ideal) x0 x1 x3 x4 (ix4 b h t k) := by
  rw [val_main_v20_apply, val_main_cst_2_apply]
  simp only [Ideal.ofBits_def]
  rw [Ideal.ofBits_zero_f32, zero_add]
  refine Finset.sum_congr rfl fun k _ => ?_
  rw [idx_sum_keys]

/-- The softmax weight at [b, h, t, k] is the exponential there over the row sum. -/
theorem weight_apply (x0 x1 : A3) (x3 x4 : M2) (b : Fin 4) (h : Fin 16) (t k : Fin 2048) :
    val_main_v23 (F := Ideal) x0 x1 x3 x4 (ix4 b h t k)
      = Ideal.div (val_main_v19 (F := Ideal) x0 x1 x3 x4 (ix4 b h t k)) (val_main_v20 (F := Ideal) x0 x1 x3 x4 (ix3 b h t)) := by
  rw [val_main_v23_apply, val_main_v22_apply, val_main_v21_apply, idx_rowsum]
  simp only [Ideal.hostDivf_def]

end Cert.Proof.RefValue

end
-- ==== Proof.RefAttn.lean ====
import proofs.«181089_j2508260901282_2_alg».proof.Proof.RefBase
import proofs.«181089_j2508260901282_2_alg».proof.Proof.RefSoftmax

/-!
# The attention output

Per head, the weights times the value projection, summed over the keys; then the head axis is moved
back behind the row axis and the 16 heads of 64 columns are merged into 1024 columns. Column c of
the merged array is position c mod 64 of head c / 64, and 64·(c / 64) + c mod 64 = c.
-/

noncomputable section

open scoped BigOperators

namespace Cert.Proof.RefValue

open Cert.ReferenceIdeal Cert.ReferenceIdeal.Gen Cert.ReferenceIdeal.Read Idealize.ShloMosaic Idealize.ShloMosaic.ValueIdx Cert.Mha

/-- The position of column c inside its head. -/
def posOf (c : Fin 1024) : Fin 64 := ⟨c.val % 64, Nat.mod_lt _ (by norm_num)⟩

/-- A column is position (c mod 64) of head (c / 64). -/
theorem col_headOf (c : Fin 1024) : col (headOf c) (posOf c) = c :=
  Fin.ext (by show c.val / 64 * 64 + c.val % 64 = c.val; omega)

/-- Column 64h + d belongs to head h. -/
theorem headOf_col (h : Fin 16) (d : Fin 64) : headOf (col h d) = h :=
  Fin.ext (by have hd := d.isLt; show (h.val * 64 + d.val) / 64 = h.val; omega)

/-- The weight that output [b, h, t, d] reads at key k. -/
theorem lidx_attn (b : Fin 4) (h : Fin 16) (t : Fin 2048) (d : Fin 64) (k : Fin 2048) :
    lidx_main_v24 (ix4 b h t d) k = ix4 b h t k :=
  funext fun a => Fin.ext (by match a with | ⟨0, _⟩ => rfl | ⟨1, _⟩ => rfl | ⟨2, _⟩ => rfl | ⟨3, _⟩ => rfl)

/-- The value entry that output [b, h, t, d] reads at key k. -/
theorem ridx_attn (b : Fin 4) (h : Fin 16) (t : Fin 2048) (d : Fin 64) (k : Fin 2048) :
    ridx_main_v24 (ix4 b h t d) k = ix4 b h k d :=
  funext fun a => Fin.ext (by match a with | ⟨0, _⟩ => rfl | ⟨1, _⟩ => rfl | ⟨2, _⟩ => rfl | ⟨3, _⟩ => rfl)

/-- Per head: output [b, h, t, d] is the specification's attention at row (b, t), column 64h + d. -/
theorem head_attn_apply (x0 x1 x2 : A3) (x3 x4 x5 : M2) (b : Fin 4) (h : Fin 16) (t : Fin 2048) (d : Fin 64) :
    val_main_v24 (F := Ideal) x0 x1 x2 x3 x4 x5 (ix4 b h t d)
      = attn (proj (arr3 x0) (mat x3)) (proj (arr3 x1) (mat x4)) (proj (arr3 x2) (mat x5)) b t (col h d) := by
  rw [val_main_v24_apply]
  simp only [attn, headOf_col]
  refine Finset.sum_congr rfl fun k _ => ?_
  rw [lidx_attn, ridx_attn, vh_apply, weight_apply, rowsum_apply]
  simp only [expo_apply, rowmax_apply, score_apply]

/-- Entry [b, t, c] of the merged array is entry [b, c / 64, t, c mod 64] of the per-head one. -/
theorem idx_merge (b : Fin 4) (t : Fin 2048) (c : Fin 1024) :
    idx_main_v25 (idx_main_v26 (ix3 b t c)) = ix4 b (headOf c) t (posOf c) :=
  funext fun a => Fin.ext (by
    have hb := b.isLt; have ht := t.isLt; have hc := c.isLt
    match a with
    | ⟨0, _⟩ => show ((b.val * 2048 + t.val) * 1024 + c.val) / 2097152 = b.val; omega
    | ⟨1, _⟩ => show ((b.val * 2048 + t.val) * 1024 + c.val) / 64 % 16 = c.val / 64; omega
    | ⟨2, _⟩ => show ((b.val * 2048 + t.val) * 1024 + c.val) / 1024 % 2048 = t.val; omega
    | ⟨3, _⟩ => show ((b.val * 2048 + t.val) * 1024 + c.val) % 64 = c.val % 64; omega)

/-- The merged attention output at [b, t, c] is the specification's attention there. -/
theorem attn_apply (x0 x1 x2 : A3) (x3 x4 x5 : M2) (b : Fin 4) (t : Fin 2048) (c : Fin 1024) :
    val_main_v26 (F := Ideal) x0 x1 x2 x3 x4 x5 (ix3 b t c)
      = attn (proj (arr3 x0) (mat x3)) (proj (arr3 x1) (mat x4)) (proj (arr3 x2) (mat x5)) b t c := by
  rw [val_main_v26_apply, val_main_v25_apply, idx_merge, head_attn_apply, col_headOf]

end Cert.Proof.RefValue

end
-- ==== Proof.RefValue.lean ====
import proofs.«181089_j2508260901282_2_alg».proof.Proof.RefBase
import proofs.«181089_j2508260901282_2_alg».proof.Proof.RefAttn

/-!
# The reference program computes the specification

The last stage multiplies the merged attention output by the output weight transposed and adds the
bias, broadcast over batch and row. With the earlier stages this makes the reference's result, as a
function of its eight argument arrays, the specification's function.
-/

noncomputable section

open scoped BigOperators

namespace Cert.Proof.RefValue

open Cert.ReferenceIdeal Cert.ReferenceIdeal.Gen Cert.ReferenceIdeal.Read Idealize.ShloMosaic Idealize.ShloMosaic.ValueIdx Cert.Mha

/-- The attention entry that result [b, t, o] reads at contraction position c. -/
theorem lidx_out (b : Fin 4) (t : Fin 2048) (o c : Fin 1024) :
    lidx_main_v27 (ix3 b t o) c = ix3 b t c :=
  funext fun a => Fin.ext (by match a with | ⟨0, _⟩ => rfl | ⟨1, _⟩ => rfl | ⟨2, _⟩ => rfl)

/-- The output-weight entry that result [b, t, o] reads at contraction position c. -/
theorem ridx_out (b : Fin 4) (t : Fin 2048) (o c : Fin 1024) :
    ridx_main_v27 (ix3 b t o) c = ix2 o c :=
  funext fun a => Fin.ext (by match a with | ⟨0, _⟩ => rfl | ⟨1, _⟩ => rfl)

/-- The bias entry that result [b, t, o] reads. -/
theorem idx_bias (b : Fin 4) (t : Fin 2048) (o : Fin 1024) :
    idx_main_v28 (idx_main_v29 (ix3 b t o)) = ix1 o :=
  funext fun a => Fin.ext (by match a with | ⟨0, _⟩ => rfl)

/-- The reference's last stage at [b, t, o] is the specification's layer there. -/
theorem out_apply (x0 x1 x2 : A3) (x3 x4 x5 x6 : M2) (x7 : V1) (b : Fin 4) (t : Fin 2048) (o : Fin 1024) :
    val_main_v30 (F := Ideal) x0 x1 x2 x3 x4 x5 x6 x7 (ix3 b t o)
      = out (arr3 x0) (arr3 x1) (arr3 x2) (mat x3) (mat x4) (mat x5) (mat x6) (vec x7) b t o := by
  rw [val_main_v30_apply, val_main_v27_apply, val_main_v29_apply, val_main_v28_apply, idx_bias]
  simp only [Ideal.addf_def]
  unfold out
  refine congrArg₂ (· + ·) (Finset.sum_congr rfl fun c _ => ?_) rfl
  rw [lidx_out, ridx_out, attn_apply]
  rfl

/-- The reference's result is the specification's function of the eight argument arrays. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v30 (F := Ideal) m c
      = Cert.Mha.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (val_main_v30_eq m c).trans ?_
  funext i
  obtain ⟨b, t, o, rfl⟩ : ∃ (b : Fin 4) (t : Fin 2048) (o : Fin 1024), i = ix3 b t o := ⟨i 0, i 1, i 2, eq_ix3 i⟩
  exact out_apply _ _ _ _ _ _ _ _ b t o

end Cert.Proof.RefValue

end
-- ==== Proof.Finite.lean ====
import proofs.«181089_j2508260901282_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

/-!
# From the precondition to "every entry of every argument is a real"

The precondition is a conjunction of eight tests, one per argument array: every entry's absolute
value is below +∞. Over the extended reals |x| = max x (−x) is +∞ exactly at the two infinities, so
each test says that no entry of its array is −∞ or +∞.
-/

noncomputable section

namespace Cert.Proof.Fin

open Idealize.ShloMosaic Idealize.ShloMosaic.ValueIdx Cert.Pre_finite_inputs

/-- The shape of a scalar has one index. -/
instance : Subsingleton S_.Idx := ⟨fun _ _ => funext fun d => d.elim0⟩

/-- The pattern of +inf denotes +∞. -/
theorem ofBits_pos_inf : Ideal.ofBits .f32 0x7F800000#32 = (⊤ : EReal) := by
  simp [Ideal.ofBits, Ideal.ieee]

/-- An extended real whose absolute value is below +∞ is neither infinity. -/
theorem finite_of_abs_lt (a : EReal)
    (h : Ideal.cmp .olt (max a (-a)) (Ideal.ofBits .f32 0x7F800000#32) = 1#1) : a ≠ ⊥ ∧ a ≠ ⊤ := by
  rw [ofBits_pos_inf] at h
  refine ⟨?_, ?_⟩ <;> rintro rfl <;> simp [Ideal.cmp] at h

/-- One test of the precondition: if "all entries have absolute value below +∞" came out true,
every entry of the array is a real. -/
theorem all_finite {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) :
    x i ≠ ⊥ ∧ x i ≠ ⊤ := by
  have hi := Host.reduce_andi_all _ _ hr hu j e i
  refine finite_of_abs_lt (x i) ?_
  have hbc : broadcastInDim s ![] hb (constant (F := Ideal) S_ .f32 0x7F800000#32) i
      = Ideal.ofBits .f32 0x7F800000#32 :=
    broadcastInDim_apply _ hb _ i ix0 (fun a => a.elim0)
  rw [← hbc]
  exact hi

/-- The precondition makes every entry of each of the eight argument arrays a real. -/
theorem finite_of_pre [Cert.Pre_finite_inputs.Facts]
    (x0 x1 x2 : FVec Ideal S4x2048x1024 .f32) (x3 x4 x5 x6 : FVec Ideal S1024x1024 .f32)
    (x7 : FVec Ideal S1024 .f32)
    (h : Cert.Pre_finite_inputs.fn (F := Ideal) x0 x1 x2 x3 x4 x5 x6 x7 = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤)
      ∧ (∀ i, x3 i ≠ ⊥ ∧ x3 i ≠ ⊤) ∧ (∀ i, x4 i ≠ ⊥ ∧ x4 i ≠ ⊤) ∧ (∀ i, x5 i ≠ ⊥ ∧ x5 i ≠ ⊤)
      ∧ (∀ i, x6 i ≠ ⊥ ∧ x6 i ≠ ⊤) ∧ (∀ i, x7 i ≠ ⊥ ∧ x7 i ≠ ⊤) := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_finite x0 _ _ _ _ e0, all_finite x1 _ _ _ _ e1, all_finite x2 _ _ _ _ e2,
    all_finite x3 _ _ _ _ e3, all_finite x4 _ _ _ _ e4, all_finite x5 _ _ _ _ e5,
    all_finite x6 _ _ _ _ e6, all_finite x7 _ _ _ _ e7⟩

end Cert.Proof.Fin

end
-- ==== Proof.lean ====
/-
  Multi-head attention, five Pallas calls against plain jnp, over the extended reals.

  The kernel program projects `q`, `k`, `v` by three matrix-product calls, runs a fused attention
  call that walks the keys in two blocks of 1024 while it keeps, per query row and head, the running
  maximum, the running sum of exponentials and the running weighted sum, and projects the result by
  a fourth matrix-product call that adds the bias. The reference forms the full score matrix,
  applies a softmax over all 2048 keys and multiplies by the values. Over the extended reals, with
  finite inputs, both compute `Cert.Mha.G`: a change of float format is the identity, the factor
  0.125 is the quotient by √64 = 8, and two steps of the online-softmax recurrence from (−∞, 0, 0)
  give the one-pass softmax-weighted sum, the row sums being positive reals.

  The frames (every execution terminates, nothing faults, the arguments end unchanged) follow @main
  item by item: a stretch of host lines applies its operations to the unscoped buffers; a call's
  region is entered with its arrays split out of those buffers, runs its body at every grid point
  under the region's invariant, and gives the arrays back at what its write-backs leave. The
  attention call's invariant carries the three running buffers from one grid point to the next.
-/
import proofs.«181089_j2508260901282_2_alg».proof.Defs
import proofs.«181089_j2508260901282_2_alg».proof.Proof.Gen.Kernel
import proofs.«181089_j2508260901282_2_alg».proof.Proof.Gen.KernelIdeal
import proofs.«181089_j2508260901282_2_alg».proof.Proof.Gen.ReferenceIdeal
import proofs.«181089_j2508260901282_2_alg».proof.Proof.Gen.Pre_finite_inputs
import proofs.«181089_j2508260901282_2_alg».proof.Proof.Gen.ReferenceIdeal.Read
import proofs.«181089_j2508260901282_2_alg».proof.Proof.KFrameRun
import proofs.«181089_j2508260901282_2_alg».proof.Proof.FrameRun
import proofs.«181089_j2508260901282_2_alg».proof.Proof.ValueRunB
import proofs.«181089_j2508260901282_2_alg».proof.Proof.RefValue
import proofs.«181089_j2508260901282_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten when the program was printed for the extended reals. -/
theorem preserves : Cert.preserves_Kernel_KernelIdeal := trivial

/-- Both programs end with `Cert.Mha.G` of the arguments in their result buffers: the kernel program by following
    its buffers through the five calls (finite inputs make the projections finite, so the two-block recurrence is
    the softmax), the reference by reading its operations one by one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Mha.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Hand.run_result (F := Ideal) m ρ)
    obtain ⟨hf0, hf1, hf2, hf3, hf4, hf5, -, -⟩ := Cert.Proof.Fin.finite_of_pre _ _ _ _ _ _ _ _ (hpre c)
    exact Cert.KernelIdeal.Hand.result_eq m ρ c (fun _ _ _ => hf0 _) (fun _ _ _ => hf1 _) (fun _ _ _ => hf2 _) (fun _ _ => hf3 _) (fun _ _ => hf4 _) (fun _ _ => hf5 _)
  · refine (θ_run Cert.ReferenceIdeal.defs _ _).mono (fun r h c => ⟨?_, (h c).2⟩)
      (Cert.ReferenceIdeal.Value.run (F := Ideal) m' ρ')
    rw [(h c).1, Cert.Proof.RefValue.ref_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
